-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x2 : Shape := ⟨2, ![1000000, 2]⟩
abbrev S2x128 : Shape := ⟨2, ![2, 128]⟩
abbrev S128x128 : Shape := ⟨2, ![128, 128]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1000000 32) (main_arg2 : FVec F S1000000x2 .f32) (main_arg3 : FVec F S2x128 .f32) (main_arg4 : FVec F S128x128 .f32) (main_arg5 : FVec F S256x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x2 .f32 := Host.absf main_arg2
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1000000 : Shape := ⟨2, ![2, 1000000]⟩
abbrev S1000000x2 : Shape := ⟨2, ![1000000, 2]⟩
abbrev S2x128 : Shape := ⟨2, ![2, 128]⟩
abbrev S128x128 : Shape := ⟨2, ![128, 128]⟩
abbrev S256x128 : Shape := ⟨2, ![256, 128]⟩
abbrev S128 : Shape := ⟨1, ![128]⟩
abbrev S1x1000000 : Shape := ⟨2, ![1, 1000000]⟩
abbrev S1000000 : Shape := ⟨1, ![1000000]⟩
abbrev S1000000x128 : Shape := ⟨2, ![1000000, 128]⟩
abbrev S10000x2 : Shape := ⟨2, ![10000, 2]⟩
abbrev S10000x128 : Shape := ⟨2, ![10000, 128]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S1x128 : Shape := ⟨2, ![1, 128]⟩
abbrev S16x128 : Shape := ⟨2, ![16, 128]⟩
abbrev S5000x128 : Shape := ⟨2, ![5000, 128]⟩
abbrev S8x128 : Shape := ⟨2, ![8, 128]⟩

abbrev nBuf : Space → Nat
  | .hbm => 67
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x2, .f32⟩
  | .hbm, ⟨3, _⟩ => ⟨S2x128, .f32⟩
  | .hbm, ⟨4, _⟩ => ⟨S128x128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x128, .f32⟩
  | .hbm, ⟨24, _⟩ => ⟨S1000000x128, .f32⟩
  | .hbm, ⟨25, _⟩ => ⟨S_, .f32⟩
  | .hbm, ⟨26, _⟩ => ⟨S100000x128, .f32⟩
  | .hbm, ⟨27, _⟩ => ⟨S1000000x1, .i32⟩
  | .hbm, ⟨28, _⟩ => ⟨S100000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S100000x128, .f32⟩
  | .hbm, ⟨45, _⟩ => ⟨S16x128, .f32⟩
  | .hbm, ⟨46, _⟩ => ⟨S16x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .f32⟩
  | .local _ .vmem, ⟨0, _⟩ => ⟨S10000x2, .f32⟩
  | .local _ .vmem, ⟨1, _⟩ => ⟨S10000x2, .f32⟩
  | .local _ .vmem, ⟨2, _⟩ => ⟨S2x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  dot_S10000x2_S2x128_S10000x128_1_0_0_1_n_n_wf : DotDims.WF S10000x2 S2x128 S10000x128 [1] [0] [0] [1] [] []
  dot_S10000x128_S128x128_S10000x128_1_0_0_1_n_n_wf : DotDims.WF S10000x128 S128x128 S10000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S1000000x2.size a
  hwx0_0 : ∀ i : grid0.Coords, EltTy.bits .f32 = 32 ∨ (Rect.block (s := S1000000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S1000000x128.size a
  hwx0_3 : ∀ i : grid0.Coords, EltTy.bits .f32 = 32 ∨ (Rect.block (s := S1000000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S16x128.size a
  hwx1_6 : ∀ i : grid1.Coords, EltTy.bits .f32 = 32 ∨ (Rect.block (s := S16x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S16x128.size a
  hwx1_7 : ∀ i : grid1.Coords, EltTy.bits .f32 = 32 ∨ (Rect.block (s := S16x128) S8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S10000x2_S2x128_S10000x128_1_0_0_1_n_n : DotDims S10000x2 S2x128 S10000x128 where
  lhsContracting := [1]
  rhsContracting := [0]
  lhsNonContracting := [0]
  rhsNonContracting := [1]
  lhsBatch := []
  rhsBatch := []
  wf := dot_S10000x2_S2x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_2) S8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v29_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x2 : Shape := ⟨2, ![1000000, 2]⟩
abbrev S2x128 : Shape := ⟨2, ![2, 128]⟩
abbrev S128x128 : Shape := ⟨2, ![128, 128]⟩
abbrev S256x128 : Shape := ⟨2, ![256, 128]⟩
abbrev S128 : Shape := ⟨1, ![128]⟩
abbrev S1x1000000 : Shape := ⟨2, ![1, 1000000]⟩
abbrev S1000000 : Shape := ⟨1, ![1000000]⟩
abbrev S1000000x128 : Shape := ⟨2, ![1000000, 128]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S100000x256 : Shape := ⟨2, ![100000, 256]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x2, .f32⟩
  | .hbm, ⟨3, _⟩ => ⟨S2x128, .f32⟩
  | .hbm, ⟨4, _⟩ => ⟨S128x128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S1000000x128, .f32⟩
  | .hbm, ⟨14, _⟩ => ⟨S_, .f32⟩
  | .hbm, ⟨15, _⟩ => ⟨S1000000x128, .f32⟩
  | .hbm, ⟨16, _⟩ => ⟨S1000000x128, .f32⟩
  | .hbm, ⟨17, _⟩ => ⟨S1000000x128, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S1000000x128, .f32⟩
  | .hbm, ⟨28, _⟩ => ⟨S1000000x128, .f32⟩
  | .hbm, ⟨29, _⟩ => ⟨S_, .f32⟩
  | .hbm, ⟨30, _⟩ => ⟨S100000x128, .f32⟩
  | .hbm, ⟨31, _⟩ => ⟨S1000000x1, .i32⟩
  | .hbm, ⟨32, _⟩ => ⟨S100000x128, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S100000, .f32⟩
  | .hbm, ⟨37, _⟩ => ⟨S1000000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x256, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_7 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call2_cst : Ref sig .tc := ⟨.hbm, 94, rfl⟩
abbrev main_call2_v0 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000x128 : S_.BroadcastsInDim S1000000x128 (![] : Fin 0 → Fin S1000000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S1000000x2_S2x128_S1000000x128_1_0_0_1_n_n_wf : DotDims.WF S1000000x2 S2x128 S1000000x128 [1] [0] [0] [1] [] []
  dot_S1000000x128_S128x128_S1000000x128_1_0_0_1_n_n_wf : DotDims.WF S1000000x128 S128x128 S1000000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x256_S256x128_S100000x128_1_0_0_1_n_n_wf : DotDims.WF S100000x256 S256x128 S100000x128 [1] [0] [0] [1] [] []

variable [Facts₀]

def dot_S1000000x2_S2x128_S1000000x128_1_0_0_1_n_n : DotDims S1000000x2 S2x128 S1000000x128 where
  lhsContracting := [1]
  rhsContracting := [0]
  lhsNonContracting := [0]
  rhsNonContracting := [1]
  lhsBatch := []
  rhsBatch := []
  wf := dot_S1000000x2_S2x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«105878_j7808250544365_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«105878_j7808250544365_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«105878_j7808250544365_2_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibBnAffine.lean ====
/-
  Training-mode batch normalisation of a matrix, followed by a per-column affine map and a positive part, in two
  spellings, on the extended reals.

  For a matrix `B` of `N` rows and `C` columns, a column `c` has mean `μ = (Σ_k B k c) / N` and biased variance `v`.
  * The centred spelling (`centred`): `max (((B n c − μ) · rsqrt (v + ε)) · γ c + β c) 0` with
    `v = (Σ_k (B k c − μ)²) / N`, the mean of the squared deviations.
  * The folded spelling (`folded`): from the two column moments `S c = Σ_k B k c` and `Q c = Σ_k (B k c)²` one
    scale `s = γ c · rsqrt (Q c / N − μ² + ε)` and one shift `β c − μ · s` per column, then `max (B n c · s + shift) 0`.
  Over the reals `Q/N − μ² = (Σ (B − μ)²)/N` and `x·(γ·r) + (β − μ·(γ·r)) = ((x − μ)·r)·γ + β`, so the two agree
  (`folded_eq_centred`) when every entry of `B`, `γ`, `β` is a real, `N > 0` and `ε > 0` is a real: then `v + ε > 0` and
  its reciprocal square root is a real too. With an infinite entry both laws fail (`⊤ − ⊤`), which is why the entries
  are asked to be real. The zero a sum starts from and the zero of the positive part are passed as `z`, the divisor as
  `nw`, the epsilon as `ep`: a program spells them as float words, and the hypotheses say what they denote.
-/
import Idealize.ShloMosaic.PureOps.Ideal
import Idealize.ShloMosaic.Lib.ValueIdx
import proofs.«105878_j7808250544365_2_alg».proof.Proof.LibBatchNormVar
import proofs.«105878_j7808250544365_2_alg».proof.Proof.LibRealOps

noncomputable section

open scoped BigOperators

namespace Cert.Lib.BnAffine

open Idealize.ShloMosaic Idealize.ShloMosaic.ValueIdx

variable {N C : Nat}

/-- The mean of column `c` as a program computes it: the sum started from `z`, divided by `nw`. -/
def mean (z nw : EReal) (B : (⟨2, ![N, C]⟩ : Shape).Idx → EReal) (c : Fin C) : EReal :=
  Ideal.div (z + ∑ k : Fin N, B (ix2 k c)) nw

/-- The biased variance of column `c` as a program computes it from the deviations: their squares summed from `z`,
    divided by `nw`. -/
def var (z nw : EReal) (B : (⟨2, ![N, C]⟩ : Shape).Idx → EReal) (c : Fin C) : EReal :=
  Ideal.div (z + ∑ k : Fin N, (B (ix2 k c) - mean z nw B c) * (B (ix2 k c) - mean z nw B c)) nw

/-- The centred spelling at entry `(n, c)`. -/
def centred (z nw ep : EReal) (B : (⟨2, ![N, C]⟩ : Shape).Idx → EReal) (g b : (⟨1, ![C]⟩ : Shape).Idx → EReal)
    (n : Fin N) (c : Fin C) : EReal :=
  max (((B (ix2 n c) - mean z nw B c) * Ideal.rsqrt (var z nw B c + ep)) * g (ix1 c) + b (ix1 c)) z

/-- The per-column scale of the folded spelling, from the two column moments `S` and `Q`. -/
def scale (nw ep : EReal) (S Q : Fin C → EReal) (g : (⟨1, ![C]⟩ : Shape).Idx → EReal) (c : Fin C) : EReal :=
  g (ix1 c) * Ideal.rsqrt (Ideal.div (Q c) nw - Ideal.div (S c) nw * Ideal.div (S c) nw + ep)

/-- The per-column shift of the folded spelling. -/
def shift (nw ep : EReal) (S Q : Fin C → EReal) (g b : (⟨1, ![C]⟩ : Shape).Idx → EReal) (c : Fin C) : EReal :=
  b (ix1 c) - Ideal.div (S c) nw * scale nw ep S Q g c

/-- The folded spelling at entry `(n, c)`. -/
def folded (z nw ep : EReal) (B : (⟨2, ![N, C]⟩ : Shape).Idx → EReal) (S Q : Fin C → EReal)
    (g b : (⟨1, ![C]⟩ : Shape).Idx → EReal) (n : Fin N) (c : Fin C) : EReal :=
  max (B (ix2 n c) * scale nw ep S Q g c + shift nw ep S Q g b c) z

/-- THE TWO SPELLINGS AGREE on real entries: `z` denotes `0`, `nw` the number of rows `N > 0`, `ep` a real `ε > 0`,
    and `S`, `Q` are the column sums of the entries and of their squares. -/
theorem folded_eq_centred (z nw ep : EReal) (B : (⟨2, ![N, C]⟩ : Shape).Idx → EReal) (S Q : Fin C → EReal)
    (g b : (⟨1, ![C]⟩ : Shape).Idx → EReal)
    (hz : z = 0) (hN : 0 < N) (hnw : nw = (((N : ℕ) : ℝ) : EReal)) (hep : ∃ e : ℝ, 0 < e ∧ ep = (e : EReal))
    (hB : ∀ i, ∃ r : ℝ, B i = (r : EReal)) (hg : ∀ i, ∃ r : ℝ, g i = (r : EReal)) (hb : ∀ i, ∃ r : ℝ, b i = (r : EReal))
    (hS : ∀ c, S c = ∑ k : Fin N, B (ix2 k c)) (hQ : ∀ c, Q c = ∑ k : Fin N, B (ix2 k c) * B (ix2 k c))
    (n : Fin N) (c : Fin C) :
    folded z nw ep B S Q g b n c = centred z nw ep B g b n c := by
  obtain ⟨e, he, rfl⟩ := hep
  subst hz
  subst hnw
  choose f hf using hB
  obtain ⟨γ, hγ⟩ := hg (ix1 c)
  obtain ⟨β, hβ⟩ := hb (ix1 c)
  -- the number of rows, as a positive real
  have hNr : (0 : ℝ) < ((N : ℕ) : ℝ) := by exact_mod_cast hN
  have hN0 : ((N : ℕ) : ℝ) ≠ 0 := hNr.ne'
  have hcard : (Fintype.card (Fin N) : ℝ) = ((N : ℕ) : ℝ) := by simp
  -- column `c` as a real column, its two moments and its mean
  have hcol : ∀ k : Fin N, B (ix2 k c) = ((f (ix2 k c) : ℝ) : EReal) := fun k => hf _
  have eS : ∑ k : Fin N, B (ix2 k c) = ((∑ k : Fin N, f (ix2 k c) : ℝ) : EReal) := by
    rw [ProofLib.BatchNorm.coe_sum]; exact Finset.sum_congr rfl fun k _ => hcol k
  have eQ : ∑ k : Fin N, B (ix2 k c) * B (ix2 k c)
      = ((∑ k : Fin N, f (ix2 k c) * f (ix2 k c) : ℝ) : EReal) := by
    rw [ProofLib.BatchNorm.coe_sum]
    exact Finset.sum_congr rfl fun k _ => by rw [hcol k, EReal.coe_mul]
  have eμ : mean 0 (((N : ℕ) : ℝ) : EReal) B c
      = (((∑ k : Fin N, f (ix2 k c)) / ((N : ℕ) : ℝ) : ℝ) : EReal) := by
    unfold mean
    rw [zero_add, eS, ProofLib.BatchNorm.div_coe_coe _ hN0]
  -- the sum of the squared deviations from that mean
  have eD : ∑ k : Fin N, (B (ix2 k c) - (((∑ j : Fin N, f (ix2 j c)) / ((N : ℕ) : ℝ) : ℝ) : EReal))
        * (B (ix2 k c) - (((∑ j : Fin N, f (ix2 j c)) / ((N : ℕ) : ℝ) : ℝ) : EReal))
      = ((∑ k : Fin N, (f (ix2 k c) - (∑ j : Fin N, f (ix2 j c)) / ((N : ℕ) : ℝ))
          * (f (ix2 k c) - (∑ j : Fin N, f (ix2 j c)) / ((N : ℕ) : ℝ)) : ℝ) : EReal) := by
    rw [ProofLib.BatchNorm.coe_sum]
    exact Finset.sum_congr rfl fun k _ => by rw [hcol k, EReal.coe_mul, EReal.coe_sub]
  -- both variances are one non-negative real, so both reciprocal square roots are one real
  have hvar := ProofLib.BatchNorm.real_var_eq (fun k : Fin N => f (ix2 k c)) hN0 hcard
  have hnn := ProofLib.BatchNorm.real_var_nonneg (fun k : Fin N => f (ix2 k c))
    ((∑ j : Fin N, f (ix2 j c)) / ((N : ℕ) : ℝ)) hNr
  unfold folded centred var shift scale
  rw [eμ, zero_add, eD, hS c, hQ c, eS, eQ, ProofLib.BatchNorm.div_coe_coe _ hN0,
    ProofLib.BatchNorm.div_coe_coe _ hN0, ProofLib.BatchNorm.div_coe_coe _ hN0, ← EReal.coe_mul, ← EReal.coe_sub,
    hvar, ProofLib.RealOps.rsqrt_add_eps hnn he, hcol n, hγ, hβ]
  -- what is left is an identity of reals: x·(γ·r) + (β − μ·(γ·r)) = ((x − μ)·r)·γ + β
  simp only [← EReal.coe_mul, ← EReal.coe_sub, ← EReal.coe_add]
  congr 2
  ring

end Cert.Lib.BnAffine

end
-- ==== Proof.Spec.lean ====
/-
  The specification: one graph layer with mean aggregation, a linear update, training-mode batch normalisation,
  a positive part and a residual, stated on the extended reals index by index.

  For node features `x` (100000 × 128), edge weights `ew` (1000000 × 2) and the layer's weights:
  * `pe` — the edge embedding `max (ew · w1) 0 · w2`, entry `(e, d)`;
  * `lin` — the update `x · W[0:128] + agg · W[128:256] + b`: the product of the side-by-side pair `[x | agg]` with
    the 256-row weight, split at the seam (a finite sum over `128 + 128` terms is the sum of its two halves);
  * the column statistics of the update `h`: `colMean`, the mean of the squared deviations `varCentred`, and the mean
    of squares less the squared mean clamped at zero `varClamped`;
  * `bnOut` — `max (((h − μ) · rsqrt (v + ε)) · γ + β) 0 + x` from given rows `μ`, `v`.
  The aggregation between `pe` and `lin` (gather, scale, scatter-add, divide by the clamped degree) is the same chain
  of operations in both programs and is carried as one function; only that it maps reals to reals is used.
  The two variances agree when every entry of `h` is a real (`varClamped_eq_varCentred`).
-/
import Idealize.ShloMosaic.PureOps.Ideal
import Idealize.ShloMosaic.Lib.ValueIdx
import proofs.«105878_j7808250544365_2_alg».proof.Proof.LibDense
import proofs.«105878_j7808250544365_2_alg».proof.Proof.LibCatDot
import proofs.«105878_j7808250544365_2_alg».proof.Proof.LibBnAffine

noncomputable section

open scoped BigOperators

namespace Sage

open Idealize.ShloMosaic Idealize.ShloMosaic.ValueIdx

/-- An `a × b` array of extended reals. -/
abbrev Arr2 (a b : Nat) : Type := (⟨2, ![a, b]⟩ : Shape).Idx → EReal
/-- A vector of `a` extended reals. -/
abbrev Arr1 (a : Nat) : Type := (⟨1, ![a]⟩ : Shape).Idx → EReal

/-- The number of rows as the programs spell it: the word of `100000.0`. -/
def rowsW : EReal := Ideal.ofBits .f32 0x47C35000#32
/-- The epsilon as the programs spell it: the word nearest `1e-5`. -/
def epsW : EReal := Ideal.ofBits .f32 0x3727C5AC#32

/-- The edge embedding: `max (ew · w1) 0 · w2` at entry `(e, d)`, for any number of edges. -/
def pe {E : Nat} (ew : Arr2 E 2) (w1 : Arr2 2 128) (w2 : Arr2 128 128) : Arr2 E 128 :=
  fun i => ∑ k : Fin 128, max (∑ j : Fin 2, ew (ix2 (i 0) j) * w1 (ix2 j k)) 0 * w2 (ix2 k (i 1))

/-- The update on `M` rows: `x · W[0:128] + agg · W[128:256] + b`. -/
def lin {M : Nat} (x agg : Arr2 M 128) (W : Arr2 (128 + 128) 128) (b : Arr1 128) : Arr2 M 128 :=
  Cert.Lib.Dense.lin2 x (Cert.Lib.CatDot.rowsTop W) agg (Cert.Lib.CatDot.rowsBot W) b

/-- The mean of column `c` of an `N`-row array, the divisor the word `rowsW`. -/
def colMean {N : Nat} (h : Arr2 N 128) (c : Fin 128) : EReal := Cert.Lib.BnAffine.mean 0 rowsW h c

/-- The mean of the squared deviations of column `c` from its mean. -/
def varCentred {N : Nat} (h : Arr2 N 128) (c : Fin 128) : EReal := Cert.Lib.BnAffine.var 0 rowsW h c

/-- The mean of the squares of column `c` less its squared mean, clamped below at zero. -/
def varClamped {N : Nat} (h : Arr2 N 128) (c : Fin 128) : EReal :=
  max (Ideal.div (∑ k : Fin N, h (ix2 k c) * h (ix2 k c)) rowsW - colMean h c * colMean h c) 0

/-- Normalisation by given column rows `μ`, `v`, the affine map, the positive part and the residual, at `(n, c)`. -/
def bnOut {N : Nat} (h x : Arr2 N 128) (μ v : Fin 128 → EReal) (g b : Arr1 128) : Arr2 N 128 :=
  fun i => max (((h i - μ (i 1)) * Ideal.rsqrt (v (i 1) + epsW)) * g (ix1 (i 1)) + b (ix1 (i 1))) 0 + x i

/-- The word `0x47C35000` denotes the real `100000`. -/
theorem rowsW_eq : rowsW = ((100000 : ℝ) : EReal) := by
  unfold rowsW
  simp [Ideal.ofBits, Ideal.ieee, -EReal.coe_mul]; norm_num

/-- On a column of real entries the clamped variance is the mean of the squared deviations. -/
theorem varClamped_eq_varCentred (h : Arr2 100000 128) (hh : ∀ i, ∃ r : ℝ, h i = (r : EReal)) (c : Fin 128) :
    varClamped h c = varCentred h c := by
  choose f hf using hh
  unfold varClamped varCentred colMean Cert.Lib.BnAffine.var Cert.Lib.BnAffine.mean
  simp only [zero_add]
  rw [rowsW_eq]
  exact ProofLib.BatchNorm.var_clamped_eq (fun k : Fin 100000 => h (ix2 k c)) (fun k => f (ix2 k c))
    (fun k => hf _) (by norm_num) (by simp)

end Sage

end
-- ==== Proof.Reals.lean ====
/-
  The reals are closed under the operations of the layer.

  At the ideal instance a float is an extended real, and the laws that join the two programs' spellings hold only
  where every value is a real. "Every entry of `x` is a real" is `real x`; it is carried here through every operation
  the layer uses, for arrays of any shape:
  * a gather reads the operand at an operand index, so it keeps reals;
  * a scatter-add is the operand's entry plus a finite sum of update entries, and a finite sum of reals is a real;
  * sums, differences, products and maxima of reals are reals; the constants `0.0` and `1.0` are reals;
  * a quotient of a real by a real that is at least one is a real, and `max c 1` of a real `c` is such a divisor;
  * the edge embedding `pe` and the update `lin` are finite sums of products of reals.
-/
import Idealize.ShloMosaic.PureOps.Ideal
import Idealize.ShloMosaic.PureOps.Ideal.Laws
import Idealize.ShloMosaic.Lib.ValueIdx
import proofs.«105878_j7808250544365_2_alg».proof.Proof.Spec
import proofs.«105878_j7808250544365_2_alg».proof.Proof.LibRealOps

noncomputable section

open scoped BigOperators

namespace Sage.Reals

open Idealize.ShloMosaic Idealize.ShloMosaic.ValueIdx

/-- Every entry of `x` is a real. -/
abbrev real {ι : Type*} (x : ι → EReal) : Prop := ∀ i, ∃ r : ℝ, x i = (r : EReal)

/-! ## One value at a time -/

/-- A sum of two reals is a real. -/
theorem add_val {a b : EReal} (ha : ∃ r : ℝ, a = (r : EReal)) (hb : ∃ r : ℝ, b = (r : EReal)) :
    ∃ r : ℝ, a + b = (r : EReal) := by
  obtain ⟨ra, rfl⟩ := ha; obtain ⟨rb, rfl⟩ := hb
  exact ⟨ra + rb, (EReal.coe_add ra rb).symm⟩

/-- A difference of two reals is a real. -/
theorem sub_val {a b : EReal} (ha : ∃ r : ℝ, a = (r : EReal)) (hb : ∃ r : ℝ, b = (r : EReal)) :
    ∃ r : ℝ, a - b = (r : EReal) := by
  obtain ⟨ra, rfl⟩ := ha; obtain ⟨rb, rfl⟩ := hb
  exact ⟨ra - rb, (EReal.coe_sub ra rb).symm⟩

/-- A product of two reals is a real. -/
theorem mul_val {a b : EReal} (ha : ∃ r : ℝ, a = (r : EReal)) (hb : ∃ r : ℝ, b = (r : EReal)) :
    ∃ r : ℝ, a * b = (r : EReal) := by
  obtain ⟨ra, rfl⟩ := ha; obtain ⟨rb, rfl⟩ := hb
  exact ⟨ra * rb, (EReal.coe_mul ra rb).symm⟩

/-- The maximum of two reals is a real. -/
theorem max_val {a b : EReal} (ha : ∃ r : ℝ, a = (r : EReal)) (hb : ∃ r : ℝ, b = (r : EReal)) :
    ∃ r : ℝ, max a b = (r : EReal) := by
  obtain ⟨ra, rfl⟩ := ha; obtain ⟨rb, rfl⟩ := hb
  exact ⟨max ra rb, (ProofLib.RealOps.coe_max ra rb).symm⟩

/-- Zero is a real. -/
theorem zero_val : ∃ r : ℝ, (0 : EReal) = (r : EReal) := ⟨0, EReal.coe_zero.symm⟩

/-- One is a real. -/
theorem one_val : ∃ r : ℝ, (1 : EReal) = (r : EReal) := ⟨1, EReal.coe_one.symm⟩

/-- A finite sum of reals is a real. -/
theorem sum_val {κ : Type*} (s : Finset κ) (f : κ → EReal) (h : ∀ k, ∃ r : ℝ, f k = (r : EReal)) :
    ∃ r : ℝ, ∑ k ∈ s, f k = (r : EReal) := by
  choose g hg using h
  exact ⟨∑ k ∈ s, g k, by rw [ProofLib.RealOps.coe_sum]; exact Finset.sum_congr rfl fun k _ => hg k⟩

/-- A real divided by a real that is at least one is a real. -/
theorem div_val_of_ge_one {a b : EReal} (ha : ∃ r : ℝ, a = (r : EReal)) (hb : ∃ r : ℝ, 1 ≤ r ∧ b = (r : EReal)) :
    ∃ r : ℝ, Ideal.div a b = (r : EReal) := by
  obtain ⟨ra, rfl⟩ := ha; obtain ⟨rb, h1, rfl⟩ := hb
  have hne : rb ≠ 0 := (lt_of_lt_of_le one_pos h1).ne'
  exact ⟨ra * (1 / rb), by rw [Ideal.div_coe hne, EReal.coe_mul]⟩

/-- `max c 1` of a real `c` is a real that is at least one. -/
theorem ge_one_max_val {c : EReal} (hc : ∃ r : ℝ, c = (r : EReal)) : ∃ r : ℝ, 1 ≤ r ∧ max c 1 = (r : EReal) := by
  obtain ⟨rc, rfl⟩ := hc
  exact ⟨max rc 1, le_max_right rc 1, by rw [ProofLib.RealOps.coe_max, EReal.coe_one]⟩

/-! ## The constants -/

/-- The word `0x3F800000` denotes `1`. -/
theorem ofBits_one : Ideal.ofBits .f32 0x3F800000#32 = 1 := by
  simp [Ideal.ofBits, Ideal.ieee, -EReal.coe_mul]; norm_num

/-- The word of `0.0` at every index is an array of reals. -/
theorem real_const_zero {ι : Type*} : real (fun _ : ι => Ideal.ofBits .f32 0x00000000#32) := fun _ => by
  rw [Ideal.ofBits_zero_f32]; exact zero_val

/-- The word of `1.0` at every index is an array of reals. -/
theorem real_const_one {ι : Type*} : real (fun _ : ι => Ideal.ofBits .f32 0x3F800000#32) := fun _ => by
  rw [ofBits_one]; exact one_val

/-- The constant array of the word of `0.0` is an array of reals. -/
theorem real_constant_zero (s : Shape) : real (constant (F := Ideal) s .f32 0x00000000#32) := real_const_zero

/-- The constant array of the word of `1.0` is an array of reals. -/
theorem real_constant_one (s : Shape) : real (constant (F := Ideal) s .f32 0x3F800000#32) := real_const_one

/-- An array equal everywhere to a real `c` is an array of reals. -/
theorem real_of_forall_eq {ι : Type*} (x : ι → EReal) (c : EReal) (hc : ∃ r : ℝ, c = (r : EReal))
    (h : ∀ i, x i = c) : real x := fun i => by rw [h i]; exact hc

/-! ## Pointwise operations -/

section Pointwise

variable {ι : Type*} {a b c : ι → EReal}

theorem real_add (ha : real a) (hb : real b) : real (fun i => a i + b i) := fun i => add_val (ha i) (hb i)
theorem real_sub (ha : real a) (hb : real b) : real (fun i => a i - b i) := fun i => sub_val (ha i) (hb i)
theorem real_mul (ha : real a) (hb : real b) : real (fun i => a i * b i) := fun i => mul_val (ha i) (hb i)
theorem real_max (ha : real a) (hb : real b) : real (fun i => max (a i) (b i)) := fun i => max_val (ha i) (hb i)

/-- A quotient of reals whose divisors are at least one is an array of reals. -/
theorem real_div_of_ge_one (ha : real a) (hb : ∀ i, ∃ r : ℝ, 1 ≤ r ∧ b i = (r : EReal)) :
    real (fun i => Ideal.div (a i) (b i)) := fun i => div_val_of_ge_one (ha i) (hb i)

/-- `max c 1` of an array of reals is, entry by entry, a real that is at least one. -/
theorem ge_one_max (hc : real c) : ∀ i, ∃ r : ℝ, 1 ≤ r ∧ max (c i) 1 = (r : EReal) := fun i => ge_one_max_val (hc i)

/-- Reading an array of reals through any map of indices gives an array of reals. -/
theorem real_comp {κ : Type*} (f : κ → ι) (ha : real a) : real (fun j => a (f j)) := fun j => ha (f j)

end Pointwise

/-! ## Gather and scatter-add -/

/-- A gather reads the operand at an operand index: it keeps reals. -/
theorem real_gather {s si t : Shape} {w : Nat} (d : GatherDims s si t) (x : s.Idx → EReal) (idx : IVec si w)
    (hx : real x) : real (Host.gather d x idx) := fun j => by
  unfold Host.gather; exact hx _

/-- A scatter-add is the operand's entry plus a finite sum of update entries: it keeps reals. -/
theorem real_scatterAdd {s si u : Shape} {w : Nat} (d : ScatterDims s si u) (x : FVec Ideal s .f32) (idx : IVec si w)
    (upd : FVec Ideal u .f32) (hx : real x) (hupd : real upd) :
    real (Host.scatterAdd (F := Ideal) d x idx upd) := fun i => by
  unfold Host.scatterAdd
  rw [Ideal.hostScatterAdd_def]
  unfold Ideal.hostScatterAdd
  exact add_val (hx i) (sum_val _ _ hupd)

/-! ## The same, in the array operations' own spelling -/

section Spelled

variable {s t : Shape} {φ : FTy}

theorem real_addf {x y : FVec Ideal s φ} (hx : real x) (hy : real y) : real (addf (F := Ideal) x y) :=
  fun i => add_val (hx i) (hy i)
theorem real_subf {x y : FVec Ideal s φ} (hx : real x) (hy : real y) : real (subf (F := Ideal) x y) :=
  fun i => sub_val (hx i) (hy i)
theorem real_mulf {x y : FVec Ideal s φ} (hx : real x) (hy : real y) : real (mulf (F := Ideal) x y) :=
  fun i => mul_val (hx i) (hy i)
theorem real_maximumf {x y : FVec Ideal s φ} (hx : real x) (hy : real y) : real (maximumf (F := Ideal) x y) :=
  fun i => max_val (hx i) (hy i)

/-- A quotient array of reals by divisors that are at least one is an array of reals. -/
theorem real_divf_of_ge_one {x y : FVec Ideal s φ} (hx : real x) (hy : ∀ i, ∃ r : ℝ, 1 ≤ r ∧ y i = (r : EReal)) :
    real (divf (F := Ideal) x y) := fun i => div_val_of_ge_one (hx i) (hy i)

/-- The same for the host's division. -/
theorem real_hostDivf_of_ge_one {x y : FVec Ideal s φ} (hx : real x)
    (hy : ∀ i, ∃ r : ℝ, 1 ≤ r ∧ y i = (r : EReal)) : real (Host.divf (F := Ideal) x y) :=
  fun i => div_val_of_ge_one (hx i) (hy i)

/-- The maximum of an array of reals and an array that is `1` everywhere is, entry by entry, a real at least one. -/
theorem ge_one_maximumf {c one : FVec Ideal s φ} (hc : real c) (h1 : ∀ i, one i = 1) :
    ∀ i, ∃ r : ℝ, 1 ≤ r ∧ maximumf (F := Ideal) c one i = (r : EReal) := fun i => by
  have h := ge_one_max_val (hc i)
  rw [← h1 i] at h
  exact h

/-- A broadcast reads its operand at an operand index: it keeps reals. -/
theorem real_broadcastInDim (dims : Fin s.rank → Fin t.rank) (h : s.BroadcastsInDim t dims) (x : s.Idx → EReal)
    (hx : real x) : real (broadcastInDim t dims h x) := fun j => by
  unfold broadcastInDim; exact hx _

/-- A broadcast of reals that are at least one consists of reals that are at least one. -/
theorem ge_one_broadcastInDim (dims : Fin s.rank → Fin t.rank) (h : s.BroadcastsInDim t dims) (x : s.Idx → EReal)
    (hx : ∀ i, ∃ r : ℝ, 1 ≤ r ∧ x i = (r : EReal)) : ∀ j, ∃ r : ℝ, 1 ≤ r ∧ broadcastInDim t dims h x j = (r : EReal) :=
  fun j => by unfold broadcastInDim; exact hx _

end Spelled

/-! ## The edge embedding and the update -/

/-- The edge embedding of real weights at real edge weights is real. -/
theorem pe_real {E : Nat} {ew : Arr2 E 2} {w1 : Arr2 2 128} {w2 : Arr2 128 128} (hew : real ew) (hw1 : real w1)
    (hw2 : real w2) : real (Sage.pe ew w1 w2) := fun i => by
  unfold Sage.pe
  exact sum_val _ _ fun k => mul_val (max_val (sum_val _ _ fun j => mul_val (hew _) (hw1 _)) zero_val) (hw2 _)

/-- The update of real features, real aggregates, a real weight and a real bias is real. -/
theorem lin_real {M : Nat} {x agg : Arr2 M 128} {W : Arr2 (128 + 128) 128} {b : Arr1 128} (hx : real x)
    (hagg : real agg) (hW : real W) (hb : real b) : real (Sage.lin x agg W b) := fun i => by
  unfold Sage.lin Cert.Lib.Dense.lin2 Cert.Lib.CatDot.rowsTop Cert.Lib.CatDot.rowsBot
  exact add_val (add_val (sum_val _ _ fun k => mul_val (hx _) (hW _)) (sum_val _ _ fun k => mul_val (hagg _) (hW _)))
    (hb _)

end Sage.Reals

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.PreReals.lean ====
/-
  The precondition read back: every float argument is an array of reals.

  The precondition is a conjunction of eight tests `all (|x| < +∞)`, one per float argument, joined by `and` of
  one-bit words. The conjunction is 1 exactly when every conjunct is; a conjunct that is 1 says every entry of its
  array has absolute value below the top of the extended reals, that is, every entry is a real.
-/
import proofs.«105878_j7808250544365_2_alg».proof.Proof.Gen.Pre_finite_inputs
import proofs.«105878_j7808250544365_2_alg».proof.Proof.LibFiniteEntry
import Idealize.ShloMosaic.Lib.ValueIdx

noncomputable section

namespace Sage.PreReals

open Idealize.ShloMosaic Cert.Pre_finite_inputs

/-- The shape of a scalar has exactly one index. -/
instance subsingleton_scalarIdx : Subsingleton (⟨0, ![]⟩ : Shape).Idx := ⟨fun a b => funext fun d => d.elim0⟩

/-- An `and` of two one-bit arrays that is 1 at an index has both sides 1 there. -/
theorem andi_apply_eq_one {s : Shape} (x y : IVec s 1) (i : s.Idx) (h : andi x y i = 1#1) :
    x i = 1#1 ∧ y i = 1#1 := (ProofLib.Finite.andi_eq_one (x i) (y i)).1 h

/-- One conjunct: `all (|x| < +∞)` equal to 1 says every entry of `x` is a real. -/
theorem real_of_conjunct {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi (cmpf .olt (Host.absf x)
      (broadcastInDim s ![] hb (constant (F := Ideal) S_ .f32 0x7F800000#32))) (constantI S_ 1 1#1) hr hu j = 1#1)
    (i : s.Idx) : ∃ r : ℝ, (x i : EReal) = (r : EReal) :=
  ProofLib.Finite.all_real_of_all_abs_lt_inf x _ (fun _ => rfl) _ hr hu j e i

/-- The precondition, all ones, says every float argument is an array of reals. -/
theorem reals_of_pre [Cert.Pre_finite_inputs.Facts]
    (a0 : FVec Ideal S100000x128 .f32) (a1 : IVec S2x1000000 32) (a2 : FVec Ideal S1000000x2 .f32)
    (a3 : FVec Ideal S2x128 .f32) (a4 : FVec Ideal S128x128 .f32) (a5 : FVec Ideal S256x128 .f32)
    (a6 a7 a8 : FVec Ideal S128 .f32)
    (h : Cert.Pre_finite_inputs.fn (F := Ideal) a0 a1 a2 a3 a4 a5 a6 a7 a8 = (fun _ => 1#1)) :
    (∀ i, ∃ r : ℝ, (a0 i : EReal) = (r : EReal)) ∧ (∀ i, ∃ r : ℝ, (a2 i : EReal) = (r : EReal)) ∧
    (∀ i, ∃ r : ℝ, (a3 i : EReal) = (r : EReal)) ∧ (∀ i, ∃ r : ℝ, (a4 i : EReal) = (r : EReal)) ∧
    (∀ i, ∃ r : ℝ, (a5 i : EReal) = (r : EReal)) ∧ (∀ i, ∃ r : ℝ, (a6 i : EReal) = (r : EReal)) ∧
    (∀ i, ∃ r : ℝ, (a7 i : EReal) = (r : EReal)) ∧ (∀ i, ∃ r : ℝ, (a8 i : EReal) = (r : EReal)) := by
  have h0 := congrFun h ValueIdx.ix0
  dsimp only [Cert.Pre_finite_inputs.fn, Cert.Pre_finite_inputs.fn_part1, Cert.Pre_finite_inputs.fn_part2] at h0
  obtain ⟨h33, c8⟩ := andi_apply_eq_one _ _ _ h0
  obtain ⟨h28, c7⟩ := andi_apply_eq_one _ _ _ h33
  obtain ⟨h23, c6⟩ := andi_apply_eq_one _ _ _ h28
  obtain ⟨h18, c5⟩ := andi_apply_eq_one _ _ _ h23
  obtain ⟨h13, c4⟩ := andi_apply_eq_one _ _ _ h18
  obtain ⟨h8, c3⟩ := andi_apply_eq_one _ _ _ h13
  obtain ⟨c0, c2⟩ := andi_apply_eq_one _ _ _ h8
  exact ⟨real_of_conjunct a0 _ _ _ _ c0, real_of_conjunct a2 _ _ _ _ c2, real_of_conjunct a3 _ _ _ _ c3,
    real_of_conjunct a4 _ _ _ _ c4, real_of_conjunct a5 _ _ _ _ c5, real_of_conjunct a6 _ _ _ _ c6,
    real_of_conjunct a7 _ _ _ _ c7, real_of_conjunct a8 _ _ _ _ c8⟩

end Sage.PreReals

end
-- ==== Proof.KTerm.lean ====
/-
  The kernel program's host statements as terms: each statement of @main between and around the three kernel
  launches, in order, as a `let` of the pure function the statement applies.

  * `aggK` — from the node features, the edge index and the first kernel's result (the edge embedding) to the mean
    aggregation: the two index rows, the source row wrapped into range, the gather of source features,
    `pe * x_j + x_j`, the scatter-add over destinations, the degree count clamped below at one, and the quotient
    (statements %0–%3 and %c … %25).
  * `wTop`, `wBot`, `bRow` — the two halves of the 256-row weight and the bias as a row (%26, %27, %28).
  * `meanRow`, `varRow` — from the second kernel's partial column sums and sums of squares (rows 0 and 8 of a
    16-row array each) to the mean row and the clamped variance row (%30 … %43).
  * `gRow`, `beRow` — the scale and the shift as rows (%44, %45).
-/
import proofs.«105878_j7808250544365_2_alg».proof.KernelIdeal

noncomputable section

namespace Cert.KernelIdeal.KTerm

open Idealize.ShloMosaic Idealize.SL.Sem
open Cert.KernelIdeal

variable {F : FTy → Type} [FloatOps F] [Cert.KernelIdeal.Facts]
open Facts₀ Facts

-- `C[s, e]`: the contents of a buffer of shape `s` and element type `e`.
set_option quotPrecheck false in
local notation "C[" s ", " e "]" => (⟨s, e⟩ : BufTy).Contents (Elt F)

/-- Statements %0–%3 and %c … %25 of @main: the mean aggregation from the node features `x`, the edge index
    `ei` and the edge embedding `pe` (the value of %4). -/
def aggK (x : C[S100000x128, .f32]) (ei : C[S2x1000000, .i32]) (pe : C[S1000000x128, .f32]) : C[S100000x128, .f32] :=
  let v0 : C[S1x1000000, .i32] := extractStridedSlice S1x1000000 ![0, 0] ei slices_S2x1000000_S1x1000000_0_0
  let v1 : C[S1000000, .i32] := shapeCast S1000000 v0 shapeCasts_S1x1000000_S1000000
  let v2 : C[S1x1000000, .i32] := extractStridedSlice S1x1000000 ![1, 0] ei slices_S2x1000000_S1x1000000_1_0
  let v3 : C[S1000000, .i32] := shapeCast S1000000 v2 shapeCasts_S1x1000000_S1000000
  let c : C[S_, .i32] := constantI S_ 32 0#32
  let v5 : C[S1000000, .i32] := broadcastInDim S1000000 ![] bcast_S_S1000000 c
  let v6 : C[S1000000, .i1] := cmpi .slt v1 v5
  let c_0 : C[S_, .i32] := constantI S_ 32 100000#32
  let v7 : C[S1000000, .i32] := broadcastInDim S1000000 ![] bcast_S_S1000000 c_0
  let v8 : C[S1000000, .i32] := addi v1 v7
  let v9 : C[S1000000, .i32] := select v6 v8 v1
  let v10 : C[S1000000x1, .i32] := broadcastInDim S1000000x1 ![0] bcast_S1000000_S1000000x1_0 v9
  let v11 : C[S1000000x128, .f32] := Host.gather gather_S100000x128_S1000000x1_S1000000x128_1_0_n_n_0_1_1128 x v10
  let v12 : C[S1000000x128, .f32] := mulf pe v11
  let v13 : C[S1000000x128, .f32] := addf v12 v11
  let cst : C[S_, .f32] := constant S_ .f32 0x00000000#32
  let v14 : C[S100000x128, .f32] := broadcastInDim S100000x128 ![] bcast_S_S100000x128 cst
  let v15 : C[S1000000x1, .i32] := broadcastInDim S1000000x1 ![0] bcast_S1000000_S1000000x1_0 v3
  let v16 : C[S100000x128, .f32] := Host.scatterAdd scatter_S100000x128_S1000000x1_S1000000x128_1_0_0_1 v14 v15 v13
  let cst_1 : C[S_, .f32] := constant S_ .f32 0x3F800000#32
  let v17 : C[S1000000, .f32] := broadcastInDim S1000000 ![] bcast_S_S1000000 cst_1
  let cst_2 : C[S_, .f32] := constant S_ .f32 0x00000000#32
  let v18 : C[S100000, .f32] := broadcastInDim S100000 ![] bcast_S_S100000 cst_2
  let v19 : C[S1000000x1, .i32] := broadcastInDim S1000000x1 ![0] bcast_S1000000_S1000000x1_0 v3
  let v20 : C[S100000, .f32] := Host.scatterAdd scatter_S100000_S1000000x1_S1000000_n_0_0_1 v18 v19 v17
  let cst_3 : C[S_, .f32] := constant S_ .f32 0x3F800000#32
  let v21 : C[S100000, .f32] := broadcastInDim S100000 ![] bcast_S_S100000 cst_3
  let v22 : C[S100000, .f32] := maximumf v20 v21
  let v23 : C[S100000x1, .f32] := broadcastInDim S100000x1 ![0] bcast_S100000_S100000x1_0 v22
  let v24 : C[S100000x128, .f32] := broadcastInDim S100000x128 ![0, 1] bcast_S100000x1_S100000x128_0_1 v23
  Host.divf v16 v24

/-- Statement %26: rows 0–127 of the 256-row weight. -/
def wTop (a5 : C[S256x128, .f32]) : C[S128x128, .f32] :=
  extractStridedSlice S128x128 ![0, 0] a5 slices_S256x128_S128x128_0_0

/-- Statement %27: rows 128–255 of the 256-row weight. -/
def wBot (a5 : C[S256x128, .f32]) : C[S128x128, .f32] :=
  extractStridedSlice S128x128 ![128, 0] a5 slices_S256x128_S128x128_128_0

/-- Statement %28: the bias as a `1 × 128` row. -/
def bRow (a6 : C[S128, .f32]) : C[S1x128, .f32] := shapeCast S1x128 a6 shapeCasts_S128_S1x128

/-- Statements %30, %31, %32, %cst_4, %36, %37: the mean row from the partial column sums `s1` (the value of %29#1). -/
def meanRow (s1 : C[S16x128, .f32]) : C[S1x128, .f32] :=
  let v30 : C[S1x128, .f32] := extractStridedSlice S1x128 ![0, 0] s1 slices_S16x128_S1x128_0_0
  let v31 : C[S1x128, .f32] := extractStridedSlice S1x128 ![8, 0] s1 slices_S16x128_S1x128_8_0
  let v32 : C[S1x128, .f32] := addf v30 v31
  let cst_4 : C[S_, .f32] := constant S_ .f32 0x47C35000#32
  let v36 : C[S1x128, .f32] := broadcastInDim S1x128 ![] bcast_S_S1x128 cst_4
  Host.divf v32 v36

/-- Statements %33 … %43: the clamped variance row from the partial column sums `s1` and sums of squares `s2` (the
    values of %29#1 and %29#2); %37 is `meanRow s1`. -/
def varRow (s1 s2 : C[S16x128, .f32]) : C[S1x128, .f32] :=
  let v33 : C[S1x128, .f32] := extractStridedSlice S1x128 ![0, 0] s2 slices_S16x128_S1x128_0_0
  let v34 : C[S1x128, .f32] := extractStridedSlice S1x128 ![8, 0] s2 slices_S16x128_S1x128_8_0
  let v35 : C[S1x128, .f32] := addf v33 v34
  let v37 : C[S1x128, .f32] := meanRow s1
  let cst_5 : C[S_, .f32] := constant S_ .f32 0x47C35000#32
  let v38 : C[S1x128, .f32] := broadcastInDim S1x128 ![] bcast_S_S1x128 cst_5
  let v39 : C[S1x128, .f32] := Host.divf v35 v38
  let v40 : C[S1x128, .f32] := mulf v37 v37
  let v41 : C[S1x128, .f32] := subf v39 v40
  let cst_6 : C[S_, .f32] := constant S_ .f32 0x00000000#32
  let v42 : C[S1x128, .f32] := broadcastInDim S1x128 ![] bcast_S_S1x128 cst_6
  maximumf v41 v42

/-- Statement %44: the scale as a `1 × 128` row. -/
def gRow (a7 : C[S128, .f32]) : C[S1x128, .f32] := shapeCast S1x128 a7 shapeCasts_S128_S1x128

/-- Statement %45: the shift as a `1 × 128` row. -/
def beRow (a8 : C[S128, .f32]) : C[S1x128, .f32] := shapeCast S1x128 a8 shapeCasts_S128_S1x128

end Cert.KernelIdeal.KTerm

end
-- ==== Proof.RefTerm.lean ====
/-
  The reference program's result as one term: each statement of @main, in order, as a `let` of the pure function
  the statement applies, the callee bodies inlined at their call sites.

  * `agg` — from the node features, the edge index and an edge embedding to the mean aggregation: the two index
    rows, the source row wrapped into range, the gather of source features, `pe * x_j + x_j`, the scatter-add
    over destinations, the degree count clamped below at one, and the quotient (statements %0–%3 and %c … %27).
  * `peT`, `linT`, `meanT`, `varT`, `bnT` — the edge embedding %4–%6, the update %28–%32, its column means
    %33–%35, its column variances %36, and the normalisation, affine map, positive part and residual %37–%53.
  * `out` — the whole function, the pieces composed in the program's order.
-/
import proofs.«105878_j7808250544365_2_alg».proof.ReferenceIdeal

noncomputable section

namespace Cert.ReferenceIdeal.RefTerm

open Idealize.ShloMosaic Idealize.SL.Sem
open Cert.ReferenceIdeal

variable {F : FTy → Type} [FloatOps F] [Cert.ReferenceIdeal.Facts]
open Facts₀ Facts

-- The contents of a buffer of shape `s` and element type `e`.
set_option quotPrecheck false in
local notation "C[" s ", " e "]" => (⟨s, e⟩ : BufTy).Contents (Elt F)

/-- Statements %0–%3 and %c … %27 of @main: the mean aggregation from the node features `x`, the edge index
    `ei` and the edge embedding `pe` (the value of %6). -/
def agg (x : C[S100000x128, .f32]) (ei : C[S2x1000000, .i32]) (pe : C[S1000000x128, .f32]) : C[S100000x128, .f32] :=
  let v0 : C[S1x1000000, .i32] := extractStridedSlice S1x1000000 ![0, 0] ei slices_S2x1000000_S1x1000000_0_0
  let v1 : C[S1000000, .i32] := shapeCast S1000000 v0 shapeCasts_S1x1000000_S1000000
  let v2 : C[S1x1000000, .i32] := extractStridedSlice S1x1000000 ![1, 0] ei slices_S2x1000000_S1x1000000_1_0
  let v3 : C[S1000000, .i32] := shapeCast S1000000 v2 shapeCasts_S1x1000000_S1000000
  let c : C[S_, .i32] := constantI S_ 32 0#32
  let v7 : C[S1000000, .i32] := broadcastInDim S1000000 ![] bcast_S_S1000000 c
  let v8 : C[S1000000, .i1] := cmpi .slt v1 v7
  let c_0 : C[S_, .i32] := constantI S_ 32 100000#32
  let v9 : C[S1000000, .i32] := broadcastInDim S1000000 ![] bcast_S_S1000000 c_0
  let v10 : C[S1000000, .i32] := addi v1 v9
  let v11 : C[S1000000, .i32] := select v8 v10 v1
  let v12 : C[S1000000x1, .i32] := broadcastInDim S1000000x1 ![0] bcast_S1000000_S1000000x1_0 v11
  let v13 : C[S1000000x128, .f32] := Host.gather gather_S100000x128_S1000000x1_S1000000x128_1_0_n_n_0_1_1128 x v12
  let v14 : C[S1000000x128, .f32] := mulf pe v13
  let v15 : C[S1000000x128, .f32] := addf v14 v13
  let cst : C[S_, .f32] := constant S_ .f32 0x00000000#32
  let v16 : C[S100000x128, .f32] := broadcastInDim S100000x128 ![] bcast_S_S100000x128 cst
  let v17 : C[S1000000x1, .i32] := broadcastInDim S1000000x1 ![0] bcast_S1000000_S1000000x1_0 v3
  let v18 : C[S100000x128, .f32] := Host.scatterAdd scatter_S100000x128_S1000000x1_S1000000x128_1_0_0_1 v16 v17 v15
  let cst_1 : C[S_, .f32] := constant S_ .f32 0x3F800000#32
  let v19 : C[S1000000, .f32] := broadcastInDim S1000000 ![] bcast_S_S1000000 cst_1
  let cst_2 : C[S_, .f32] := constant S_ .f32 0x00000000#32
  let v20 : C[S100000, .f32] := broadcastInDim S100000 ![] bcast_S_S100000 cst_2
  let v21 : C[S1000000x1, .i32] := broadcastInDim S1000000x1 ![0] bcast_S1000000_S1000000x1_0 v3
  let v22 : C[S100000, .f32] := Host.scatterAdd scatter_S100000_S1000000x1_S1000000_n_0_0_1 v20 v21 v19
  let cst_3 : C[S_, .f32] := constant S_ .f32 0x3F800000#32
  let v23 : C[S100000, .f32] := broadcastInDim S100000 ![] bcast_S_S100000 cst_3
  let v24 : C[S100000, .f32] := maximumf v22 v23
  let v25 : C[S100000x1, .f32] := broadcastInDim S100000x1 ![0] bcast_S100000_S100000x1_0 v24
  let v26 : C[S100000x128, .f32] := broadcastInDim S100000x128 ![0, 1] bcast_S100000x1_S100000x128_0_1 v25
  Host.divf v18 v26

/-- Statements %4–%6: the edge embedding, with the positive part of @relu inlined. -/
def peT (a2 : C[S1000000x2, .f32]) (a3 : C[S2x128, .f32]) (a4 : C[S128x128, .f32]) : C[S1000000x128, .f32] :=
  let v4 : C[S1000000x128, .f32] := Host.dotGeneral dot_S1000000x2_S2x128_S1000000x128_1_0_0_1_n_n none a2 a3
  -- %5 = @relu(%4)
  let r_cst : C[S_, .f32] := constant S_ .f32 0x00000000#32
  let r_v0 : C[S1000000x128, .f32] := broadcastInDim S1000000x128 ![] bcast_S_S1000000x128 r_cst
  let v5 : C[S1000000x128, .f32] := maximumf v4 r_v0
  Host.dotGeneral dot_S1000000x128_S128x128_S1000000x128_1_0_0_1_n_n none v5 a4

/-- Statements %28–%32: the side-by-side pair against the 256-row weight, plus the bias row. -/
def linT (a0 v27 : C[S100000x128, .f32]) (a5 : C[S256x128, .f32]) (a6 : C[S128, .f32]) : C[S100000x128, .f32] :=
  let v28 : C[S100000x256, .f32] :=
    concatenate S100000x256 1 [⟨S100000x128, a0⟩, ⟨S100000x128, v27⟩] concatenates_S100000x128_S100000x128_S100000x256_d1
  let v29 : C[S100000x128, .f32] := Host.dotGeneral dot_S100000x256_S256x128_S100000x128_1_0_0_1_n_n none v28 a5
  let v30 : C[S1x128, .f32] := broadcastInDim S1x128 ![1] bcast_S128_S1x128_1 a6
  let v31 : C[S100000x128, .f32] := broadcastInDim S100000x128 ![0, 1] bcast_S1x128_S100000x128_0_1 v30
  addf v29 v31

/-- Statements %cst_4–%35: the column means of %32. -/
def meanT (v32 : C[S100000x128, .f32]) : C[S128, .f32] :=
  let cst_4 : C[S_, .f32] := constant S_ .f32 0x00000000#32
  let v33 : C[S128, .f32] := Host.reduceAdd v32 cst_4 reducesTo_S100000x128_S128_d0 h_S_
  let cst_5 : C[S_, .f32] := constant S_ .f32 0x47C35000#32
  let v34 : C[S128, .f32] := broadcastInDim S128 ![] bcast_S_S128 cst_5
  Host.divf v33 v34

/-- Statement %36, @_var(%32, %c_6) with @_where inlined: the column variances of %32. -/
def varT (v32 : C[S100000x128, .f32]) (c_6 : C[S_, .i32]) : C[S128, .f32] :=
  let w_cst : C[S_, .f32] := constant S_ .f32 0x00000000#32
  let w_v0 : C[S128, .f32] := Host.reduceAdd v32 w_cst reducesTo_S100000x128_S128_d0 h_S_
  let w_v1 : C[S1x128, .f32] := broadcastInDim S1x128 ![1] bcast_S128_S1x128_1 w_v0
  let w_cst_0 : C[S_, .f32] := constant S_ .f32 0x47C35000#32
  let w_v2 : C[S1x128, .f32] := broadcastInDim S1x128 ![] bcast_S_S1x128 w_cst_0
  let w_v3 : C[S1x128, .f32] := Host.divf w_v1 w_v2
  let w_v4 : C[S100000x128, .f32] := broadcastInDim S100000x128 ![0, 1] bcast_S1x128_S100000x128_0_1 w_v3
  let w_v5 : C[S100000x128, .f32] := subf v32 w_v4
  let w_v6 : C[S100000x128, .f32] := mulf w_v5 w_v5
  let w_v7 : C[S_, .f32] := sitofp .f32 c_6
  let w_cst_1 : C[S_, .f32] := constant S_ .f32 0x47C35000#32
  let w_v8 : C[S_, .f32] := subf w_cst_1 w_v7
  let w_cst_2 : C[S_, .f32] := constant S_ .f32 0x00000000#32
  let w_v9 : C[S128, .f32] := Host.reduceAdd w_v6 w_cst_2 reducesTo_S100000x128_S128_d0 h_S_
  let w_v10 : C[S128, .f32] := broadcastInDim S128 ![] bcast_S_S128 w_v8
  let w_v11 : C[S128, .f32] := Host.divf w_v9 w_v10
  let w_cst_3 : C[S_, .f32] := constant S_ .f32 0x00000000#32
  let w_v12 : C[S_, .i1] := cmpf .ogt w_v8 w_cst_3
  let w_cst_4 : C[S_, .f32] := constant S_ .f32 0x7FC00000#32
  -- %13 = @_where(%12, %11, %cst_4)
  let q_v0 : C[S_, .f32] := id w_cst_4
  let q_v1 : C[S128, .f32] := broadcastInDim S128 ![] bcast_S_S128 q_v0
  (fun (p : C[S_, .i1]) (a b : C[S128, .f32]) => select (broadcastInDim S128 ![] bcast_S_S128 p) a b) w_v12 w_v11 q_v1

/-- Statements %37–%53: the normalisation by the column rows %35 and %36, the affine map, the positive part of
    @relu_0 inlined, and the residual. -/
def bnT (v32 a0 : C[S100000x128, .f32]) (v35 v36 a7 a8 : C[S128, .f32]) : C[S100000x128, .f32] :=
  let v37 : C[S1x128, .f32] := broadcastInDim S1x128 ![1] bcast_S128_S1x128_1 v35
  let v38 : C[S100000x128, .f32] := broadcastInDim S100000x128 ![0, 1] bcast_S1x128_S100000x128_0_1 v37
  let v39 : C[S100000x128, .f32] := subf v32 v38
  let cst_7 : C[S_, .f32] := constant S_ .f32 0x3727C5AC#32
  let v40 : C[S128, .f32] := broadcastInDim S128 ![] bcast_S_S128 cst_7
  let v41 : C[S128, .f32] := addf v36 v40
  let v42 : C[S128, .f32] := Host.rsqrt v41
  let v43 : C[S1x128, .f32] := broadcastInDim S1x128 ![1] bcast_S128_S1x128_1 v42
  let v44 : C[S100000x128, .f32] := broadcastInDim S100000x128 ![0, 1] bcast_S1x128_S100000x128_0_1 v43
  let v45 : C[S100000x128, .f32] := mulf v39 v44
  let v46 : C[S1x128, .f32] := broadcastInDim S1x128 ![1] bcast_S128_S1x128_1 a7
  let v47 : C[S100000x128, .f32] := broadcastInDim S100000x128 ![0, 1] bcast_S1x128_S100000x128_0_1 v46
  let v48 : C[S100000x128, .f32] := mulf v45 v47
  let v49 : C[S1x128, .f32] := broadcastInDim S1x128 ![1] bcast_S128_S1x128_1 a8
  let v50 : C[S100000x128, .f32] := broadcastInDim S100000x128 ![0, 1] bcast_S1x128_S100000x128_0_1 v49
  let v51 : C[S100000x128, .f32] := addf v48 v50
  -- %52 = @relu_0(%51)
  let z_cst : C[S_, .f32] := constant S_ .f32 0x00000000#32
  let z_v0 : C[S100000x128, .f32] := broadcastInDim S100000x128 ![] bcast_S_S100000x128 z_cst
  let v52 : C[S100000x128, .f32] := maximumf v51 z_v0
  addf v52 a0

/-- The value of %53, the function's result, from the nine arguments: the edge embedding %4–%6, the aggregation
    %0–%3 and %c … %27, the update %28–%32, its column means %33–%35 and variances %36, then %37 … %53. -/
def out (a0 : C[S100000x128, .f32]) (a1 : C[S2x1000000, .i32]) (a2 : C[S1000000x2, .f32]) (a3 : C[S2x128, .f32])
    (a4 : C[S128x128, .f32]) (a5 : C[S256x128, .f32]) (a6 : C[S128, .f32]) (a7 : C[S128, .f32]) (a8 : C[S128, .f32]) :
    C[S100000x128, .f32] :=
  let v6 : C[S1000000x128, .f32] := peT a2 a3 a4
  let v27 : C[S100000x128, .f32] := agg a0 a1 v6
  let v32 : C[S100000x128, .f32] := linT a0 v27 a5 a6
  let v35 : C[S128, .f32] := meanT v32
  let c_6 : C[S_, .i32] := constantI S_ 32 0#32
  let v36 : C[S128, .f32] := varT v32 c_6
  bnT v32 a0 v35 v36 a7 a8

end Cert.ReferenceIdeal.RefTerm

end
-- ==== Proof.KTermRef.lean ====
/-
  The two programs' aggregations are one function.

  The kernel program's host statements from the edge index, the node features and the edge embedding to the mean
  aggregation are, statement by statement, the reference's: the same operations over dimension records that differ
  only in their proof fields.
-/
import Idealize.ShloMosaic.PureOps.Ideal
import proofs.«105878_j7808250544365_2_alg».proof.Proof.KTerm
import proofs.«105878_j7808250544365_2_alg».proof.Proof.RefTerm

noncomputable section

namespace Cert.KernelIdeal.KTermRef

open Idealize.ShloMosaic

variable [Cert.KernelIdeal.Facts] [Cert.ReferenceIdeal.Facts]

/-- The kernel program's aggregation is the reference's. -/
theorem aggK_eq_ref (x : FVec Ideal Cert.KernelIdeal.S100000x128 .f32) (ei : IVec Cert.KernelIdeal.S2x1000000 32)
    (pe : FVec Ideal Cert.KernelIdeal.S1000000x128 .f32) :
    Cert.KernelIdeal.KTerm.aggK (F := Ideal) x ei pe = Cert.ReferenceIdeal.RefTerm.agg (F := Ideal) x ei pe := rfl

end Cert.KernelIdeal.KTermRef

end
-- ==== Proof.KF0.lean ====
/-
  The first kernel region (the edge embedding) at the contents `V` it is entered from: each window's block at a grid
  point, what one run of the body leaves in the output block — the embedding of the point's 10000 edges, one store
  covering the block —, the body's triple, and the proof data the pipeline's launch theorem takes.
-/
import proofs.«105878_j7808250544365_2_alg».proof.Proof.Gen.KernelIdeal.Launch
import proofs.«105878_j7808250544365_2_alg».proof.Proof.Gen.KernelIdeal.Skeleton
import proofs.«105878_j7808250544365_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x2 := Rect.unit (s := S10000x2) ![0, 0] S10000x2.size inb_S10000x2_S10000x2_0_0
abbrev r0_1 : Rect S2x128 := Rect.unit (s := S2x128) ![0, 0] S2x128.size inb_S2x128_S2x128_0_0
abbrev r0_2 : Rect S128x128 := Rect.unit (s := S128x128) ![0, 0] S128x128.size inb_S128x128_S128x128_0_0
abbrev r0_3 : Rect S10000x128 := Rect.unit (s := S10000x128) ![0, 0] S10000x128.size inb_S10000x128_S10000x128_0_0

/-- The output block after the body: its one store, of the embedding of the three input blocks. -/
def out0_3 (x0 : Vec F S10000x2 .f32) (x1 : Vec F S2x128 .f32) (x2 : Vec F S128x128 .f32) : Vec F S10000x128 .f32 :=
  View.canon [⟨r0_3, k0_pay1 (View.ld x0 r0_0) (View.ld x1 r0_1) (View.ld x2 r0_2)⟩]

/-- The store covers the block. -/
theorem cover0_3 (p0 : Vec F S10000x128 .f32) (y : S10000x128.Idx) :
    ∃ pc ∈ ([⟨r0_3, p0⟩] : List (View.Piece (Elt F) S10000x128 .f32)), y ∈ pc.1.set :=
  View.cover_of_tiled [⟨r0_3, p0⟩] S10000x128.size (by rfl) y

set_option maxHeartbeats 1000000 in
/-- The body on whole staging memrefs: the inputs' blocks are kept, the output's block ends at `out0_3` of them. -/
theorem sound_kernel0 (c : Dev nD) (E : Set ℕ) (i : grid0.Coords) (arg1 : Memref sig .tc .vmem S10000x2 .f32) (harg1 : arg1.IsWhole) (arg2 : Memref sig .tc .vmem S2x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x2 .f32) (x1 : Vec F S2x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__edge_msg_kernel i arg1 harg1 arg2 harg2 arg3 harg3 arg4 harg4) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.KF1a.lean ====
/-
  The second kernel region's body (the linear update and the running column sums) run once, in its two cases.

  The body keeps two 1 × 128 rows between grid points: the running sums of the update's columns and of their
  squares over the rows of the current half. At the first point of a half (second grid coordinate 0) it first
  zeroes both rows; at every point it stores the update of the point's 5000 rows, adds that block's column sums
  to the rows, and stores each row, repeated over 8 rows, into the two small output blocks. A run of the body is
  stated with the stores each buffer ends with as the witness: the lists are whatever the run finds.
-/
import proofs.«105878_j7808250544365_2_alg».proof.Proof.Gen.KernelIdeal.Launch
import proofs.«105878_j7808250544365_2_alg».proof.Proof.Gen.KernelIdeal.Skeleton
import proofs.«105878_j7808250544365_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero. -/
abbrev cond1_0 (i : grid1.Coords) : Prop := (Scalar.cmpi .ne (Scalar.extui (Scalar.cmpi .eq (BitVec.ofNat 32 (i 1).val) 0#32)) 0#32) = 1#1

/-- It holds at the first point of each half. -/
theorem hcond1_0 : ∀ t : Fin cfg1.N, cond1_0 (grid1.coords t) ↔ t.val % 10 = 0 :=
  (by decide +kernel : ∀ t : Fin grid1.N, cond1_0 (grid1.coords t) ↔ t.val % 10 = 0)

set_option maxHeartbeats 4000000 in
/-- The body at a first point of a half: the two carried rows enter at anything. -/
noncomputable def kernelRun1_Z (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S8x128 .f32)) (L7 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sage_linear_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sage_linear_kernel_eq_skeleton]; unfold cc1__sage_linear_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

set_option maxHeartbeats 4000000 in
/-- The body at a later point of a half: the two carried rows enter at what the point before left. -/
noncomputable def kernelRun1_P (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S8x128 .f32)) (L7 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sage_linear_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sage_linear_kernel_eq_skeleton]; unfold cc1__sage_linear_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.KF

end
-- ==== Proof.KF1.lean ====
/-
  The second kernel region at the contents `V` it is entered from: what the three output blocks and the two carried
  1 × 128 rows hold after each grid point (a recursion over the points: a half's first point starts the rows afresh,
  a later point continues from what the point before left), the region's invariant — before the first point every
  scoped buffer at anything, afterwards the two rows at the recursion's values —, the body's triple at a generic
  point and the proof data the pipeline's launch theorem takes.
-/
import proofs.«105878_j7808250544365_2_alg».proof.Proof.KF1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view
abbrev VO1_5 : View sig .tc .vmem S5000x128 .f32 := (Memref.whole cc1_stg5_0 : Memref sig .tc .vmem S5000x128 .f32).view
abbrev VO1_6 : View sig .tc .vmem S8x128 .f32 := (Memref.whole cc1_stg6_0 : Memref sig .tc .vmem S8x128 .f32).view
abbrev VO1_7 : View sig .tc .vmem S8x128 .f32 := (Memref.whole cc1_stg7_0 : Memref sig .tc .vmem S8x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)

/-- The other scoped buffers of the core (the other two kernels' staging buffers), each at anything. -/
abbrev others1 (c : Dev nD) : sProp 𝕄 :=
  bigSepL [cc0_stg0_0, cc0_stg0_1, cc0_stg1_0, cc0_stg2_0, cc0_stg3_0, cc0_stg3_1, cc2_stg0_0, cc2_stg0_1, cc2_stg1_0, cc2_stg1_1, cc2_stg2_0, cc2_stg3_0, cc2_stg4_0, cc2_stg5_0, cc2_stg6_0, cc2_stg6_1]
    fun b => iprop(∃ f : Buf (Elt F) ((c : Thread nD τ).loc b), ((c : Thread nD τ).loc b) ↦{fullShare} f)

/-- The class invariant with the two carried rows named: each owned at some contents, beside the other scoped buffers
    and the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA
  rw [Pipeline.scopedRest_eq_of_list spec1 c [cc1_scratch0, cc1_scratch1, cc0_stg0_0, cc0_stg0_1, cc0_stg1_0, cc0_stg2_0, cc0_stg3_0, cc0_stg3_1, cc2_stg0_0, cc2_stg0_1, cc2_stg1_0, cc2_stg1_1, cc2_stg2_0, cc2_stg3_0, cc2_stg4_0, cc2_stg5_0, cc2_stg6_0, cc2_stg6_1] (by decide) (by decide)]
  simp only [scM1_0, scM1_1, owns_whole]
  try rfl

/-! ## What each case leaves -/

theorem cover1_Z_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).1 S5000x128.size (by sl_kernel_rfl) y

def out1_Z_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S5000x128 .f32 :=
  VO1_5.read (Elt F) (VO1_5.writes (Elt F) VO1_5.junk (kernelRun1_Z c i arg2 harg2 arg3 harg3 arg4 harg4 arg5 harg5 arg6 harg6 arg7 harg7 arg8 harg8 arg9 harg9 arg10 harg10 arg11 harg11 hc0 x0 x1 x2 x3 x4).1)

theorem cover1_Z_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S8x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.1 S8x128.size (by sl_kernel_rfl) y

def out1_Z_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S8x128 .f32 :=
  VO1_6.read (Elt F) (VO1_6.writes (Elt F) VO1_6.junk (kernelRun1_Z c i arg2 harg2 arg3 harg3 arg4 harg4 arg5 harg5 arg6 harg6 arg7 harg7 arg8 harg8 arg9 harg9 arg10 harg10 arg11 harg11 hc0 x0 x1 x2 x3 x4).2.1)

theorem cover1_Z_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S8x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.1 S8x128.size (by sl_kernel_rfl) y

def out1_Z_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S8x128 .f32 :=
  VO1_7.read (Elt F) (VO1_7.writes (Elt F) VO1_7.junk (kernelRun1_Z c i arg2 harg2 arg3 harg3 arg4 harg4 arg5 harg5 arg6 harg6 arg7 harg7 arg8 harg8 arg9 harg9 arg10 harg10 arg11 harg11 hc0 x0 x1 x2 x3 x4).2.2.1)

theorem scover1_Z_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.2.1 S1x128.size (by sl_kernel_rfl) y

def sout1_Z_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S1x128 .f32 :=
  VS1_0.read (Elt F) (VS1_0.writes (Elt F) VS1_0.junk (kernelRun1_Z c i arg2 harg2 arg3 harg3 arg4 harg4 arg5 harg5 arg6 harg6 arg7 harg7 arg8 harg8 arg9 harg9 arg10 harg10 arg11 harg11 hc0 x0 x1 x2 x3 x4).2.2.2.1)

theorem scover1_Z_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.2.2.1 S1x128.size (by sl_kernel_rfl) y

def sout1_Z_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S1x128 .f32 :=
  VS1_1.read (Elt F) (VS1_1.writes (Elt F) VS1_1.junk (kernelRun1_Z c i arg2 harg2 arg3 harg3 arg4 harg4 arg5 harg5 arg6 harg6 arg7 harg7 arg8 harg8 arg9 harg9 arg10 harg10 arg11 harg11 hc0 x0 x1 x2 x3 x4).2.2.2.2.1)

theorem cover1_P_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S5000x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).1 S5000x128.size (by sl_kernel_rfl) y

def out1_P_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S5000x128 .f32 :=
  VO1_5.read (Elt F) (VO1_5.writes (Elt F) VO1_5.junk (kernelRun1_P c i arg2 harg2 arg3 harg3 arg4 harg4 arg5 harg5 arg6 harg6 arg7 harg7 arg8 harg8 arg9 harg9 arg10 harg10 arg11 harg11 hc0 x0 x1 x2 x3 x4 xs0 xs1).1)

theorem cover1_P_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S8x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.1 S8x128.size (by sl_kernel_rfl) y

def out1_P_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S8x128 .f32 :=
  VO1_6.read (Elt F) (VO1_6.writes (Elt F) VO1_6.junk (kernelRun1_P c i arg2 harg2 arg3 harg3 arg4 harg4 arg5 harg5 arg6 harg6 arg7 harg7 arg8 harg8 arg9 harg9 arg10 harg10 arg11 harg11 hc0 x0 x1 x2 x3 x4 xs0 xs1).2.1)

theorem cover1_P_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S8x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.1 S8x128.size (by sl_kernel_rfl) y

def out1_P_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S8x128 .f32 :=
  VO1_7.read (Elt F) (VO1_7.writes (Elt F) VO1_7.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.1)

theorem scover1_P_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S1x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1 S1x128.size (by sl_kernel_rfl) y

def sout1_P_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S1x128 .f32 :=
  VS1_0.read (Elt F) (VS1_0.writes (Elt F) VS1_0.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1)

theorem scover1_P_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S1x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1 S1x128.size (by sl_kernel_rfl) y

def sout1_P_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S1x128 .f32 :=
  VS1_1.read (Elt F) (VS1_1.writes (Elt F) VS1_1.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1)

/-! ## What the outputs and the carried rows hold after each point -/

/-- After the body at position `n`: the three output blocks, then the two carried rows. -/
def outsAt1 (c : Dev nD) : (n : ℕ) → n < cfg1.N → Vec F S5000x128 .f32 × Vec F S8x128 .f32 × Vec F S8x128 .f32 × Vec F S1x128 .f32 × Vec F S1x128 .f32
  | 0, hn => (out1_Z_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_Z_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_Z_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_Z_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_Z_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 10 = 0 then
      (out1_Z_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_Z_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_Z_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_Z_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_Z_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_P_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, out1_P_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, out1_P_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, sout1_P_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, sout1_P_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2)

theorem outsAt1_Z (c : Dev nD) (t : Fin cfg1.N) (h0 : t.val % 10 = 0) :
    outsAt1 V c t.val t.isLt = (out1_Z_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), out1_Z_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), out1_Z_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), sout1_Z_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), sout1_Z_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_P (c : Dev nD) (t : Fin cfg1.N) (h0 : ¬t.val % 10 = 0) :
    outsAt1 V c t.val t.isLt = (out1_P_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_P_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_P_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_P_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_P_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_neg h0).trans rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.1) ∗ owns (c : Thread nD τ) scM1_1 fullShare ((outsAt1 V c n hn).2.2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2.2.1) ∗ owns (c : Thread nD τ) scM1_1 fullShare ((outsAt1 V c n hn).2.2.2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.2.1) ∗ owns (c : Thread nD τ) scM1_1 fullShare ((outsAt1 V c (n - 1) (by omega)).2.2.2.2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.KF

end
-- ==== Proof.KF1b.lean ====
/-
  The second kernel region's body obligation: at every grid point the body, called on the point's staging buffers and
  the two carried rows, returns each input block as it was, each output block and each carried row at the recursion's
  value for the point.
-/
import proofs.«105878_j7808250544365_2_alg».proof.Proof.KF1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7]
  by_cases h0 : t.val % 10 = 0
  · rw [outsAt1_Z V c t h0]
    unfold out1_Z_5 out1_Z_6 out1_Z_7 sout1_Z_0 sout1_Z_1; (try dsimp only)
    by_cases hz : t.val = 0
    · rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_Z_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_Z_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_Z_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_Z_6 c _ _ _ _ _ _ _ _ _ _ _ _ _ _ _ _ _ _ _ _ _ _ _ _ _ _ _)
      unfold owns; iexists _; isplitr
      swap; · iexact H7
      ipureintro; exact View.read_writes_of_cover _ _ _ _ _ (cover1_Z_7 c _ _ _ _ _ _ _ _ _ _ _ _ _ _ _ _ _ _ _ _ _ _ _ _ _ _ _)
    · rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      isplitl [HS1]; · iexists _; iexact HS1
      iintro ⟨H0, H1, H2, H3, H4, ⟨%e5, H5⟩, ⟨%e6, H6⟩, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_Z_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_Z_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_Z_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_Z_6 c _ _ _ _ _ _ _ _ _ _ _ _ _ _ _ _ _ _ _ _ _ _ _ _ _ _ _)
      unfold owns; iexists _; isplitr
      swap; · iexact H7
      ipureintro; exact View.read_writes_of_cover _ _ _ _ _ (cover1_Z_7 c _ _ _ _ _ _ _ _ _ _ _ _ _ _ _ _ _ _ _ _ _ _ _ _ _ _ _)
  · have hz : t.val ≠ 0 := fun e => h0 (by rw [e])
    rw [outsAt1_P V c t h0]
    unfold out1_P_5 out1_P_6 out1_P_7 sout1_P_0 sout1_P_1; (try dsimp only)
    rw [PhiS1_castSucc V c t, PhiS1_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_P c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover1_P_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_P_1 c _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_P_5 c _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_P_6 c _ _ _ _ _ _ _ _ _ _ _ _ _ _ _ _ _ _ _ _ _ _ _ _ _ _ _ _ _)
    unfold owns; iexists _; isplitr
    swap; · iexact H7
    ipureintro; exact View.read_writes_of_cover _ _ _ _ _ (cover1_P_7 c _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried rows' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.KF

end
-- ==== Proof.KF2.lean ====
/-
  The third kernel region (normalisation, affine map, positive part, residual) at the contents `V` it is entered
  from: each window's block at a grid point, what one run of the body leaves in the output block — a pointwise
  function of the point's 5000 rows of the update and of the features and of the four 1 × 128 rows —, the body's
  triple, and the proof data the pipeline's launch theorem takes.
-/
import proofs.«105878_j7808250544365_2_alg».proof.Proof.Gen.KernelIdeal.Launch
import proofs.«105878_j7808250544365_2_alg».proof.Proof.Gen.KernelIdeal.Skeleton
import proofs.«105878_j7808250544365_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
abbrev r2_S5000x128 : Rect S5000x128 := Rect.unit (s := S5000x128) ![0, 0] S5000x128.size inb_S5000x128_S5000x128_0_0
abbrev r2_S1x128 : Rect S1x128 := Rect.unit (s := S1x128) ![0, 0] S1x128.size inb_S1x128_S1x128_0_0

/-- The output block after the body: its one store, of the body's value of the input blocks. -/
def out2_6 (x0 : Vec F S5000x128 .f32) (x1 : Vec F S5000x128 .f32) (x2 : Vec F S1x128 .f32) (x3 : Vec F S1x128 .f32) (x4 : Vec F S1x128 .f32) (x5 : Vec F S1x128 .f32) : Vec F S5000x128 .f32 :=
  View.canon [⟨r2_S5000x128, k2_pay1 (View.ld x3 r2_S1x128) (View.ld x0 r2_S5000x128) (View.ld x2 r2_S1x128) (View.ld x4 r2_S1x128) (View.ld x5 r2_S1x128) (View.ld x1 r2_S5000x128)⟩]

/-- The store covers the block. -/
theorem cover2_6 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 1000000 in
/-- The body on whole staging memrefs: the inputs' blocks are kept, the output's block ends at `out2_6` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_res_kernel i arg1 harg1 arg2 harg2 arg3 harg3 arg4 harg4 arg5 harg5 arg6 harg6 arg7 harg7) K := by
  simp only [cc2__bn_relu_res_kernel_eq_skeleton]; unfold cc2__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.KF

end
-- ==== Proof.KRun.lean ====
/-
  The whole program's run: three kernel regions among three stretches of host operations. The buffer contents at
  each boundary are a fold from the launch memory — a stretch applies its operations, a region leaves its output arrays
  at what its write-backs leave and every other buffer as entered —, and every weakly fair execution terminates with
  every unscoped buffer at the last boundary's contents. No stretch and no region writes an argument array.
-/
import proofs.«105878_j7808250544365_2_alg».proof.Proof.KF0
import proofs.«105878_j7808250544365_2_alg».proof.Proof.KF1b
import proofs.«105878_j7808250544365_2_alg».proof.Proof.KF2
import proofs.«105878_j7808250544365_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 1).trans (((dat2 (V5 m ρ) c).arrAt_in 1 rfl _).trans (A_eq2 (V5 m ρ) c 1))
    _ = W4 m ρ c (Proc.devRef .tc main_arg0) := StableHlo.after_of_writes_sub hostOps2 _ hostOps2_writes (by decide : main_arg0 ∉ hostOps2_W)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The class invariant of the second region hands back the generator register and the scoped buffers. -/
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    exact (hout1 (V3 m ρ) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [show (pdats m ρ 2 c).Φ (Fin.last _) = Pipeline.ΦA spec2 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.KF

end
-- ==== Proof.KFrame.lean ====
/-
  The kernel program runs and leaves its nine argument arrays unchanged.

  The run of the whole program ends with every unscoped device buffer holding the final valuation; at each of the
  nine arguments that valuation is the initial memory, since no host statement and no kernel writes an argument.
-/
import proofs.«105878_j7808250544365_2_alg».proof.Proof.KRun

noncomputable section

namespace Cert.KernelIdeal.KOut

open Cert.KernelIdeal Cert.KernelIdeal.Gen
open Idealize.ShloMosaic Idealize.ShloMosaic.TcCoe Idealize.SL.Sem

variable {F : FTy → Type} [FloatOps F]

/-- The program terminates without a fault from any memory, and each argument array ends as it began. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (KF.mem_uc main_arg0 (by decide))).trans (KF.W6_main_arg0 m ρ c),
      (h c _ (KF.mem_uc main_arg1 (by decide))).trans (KF.W6_main_arg1 m ρ c),
      (h c _ (KF.mem_uc main_arg2 (by decide))).trans (KF.W6_main_arg2 m ρ c),
      (h c _ (KF.mem_uc main_arg3 (by decide))).trans (KF.W6_main_arg3 m ρ c),
      (h c _ (KF.mem_uc main_arg4 (by decide))).trans (KF.W6_main_arg4 m ρ c),
      (h c _ (KF.mem_uc main_arg5 (by decide))).trans (KF.W6_main_arg5 m ρ c),
      (h c _ (KF.mem_uc main_arg6 (by decide))).trans (KF.W6_main_arg6 m ρ c),
      (h c _ (KF.mem_uc main_arg7 (by decide))).trans (KF.W6_main_arg7 m ρ c),
      (h c _ (KF.mem_uc main_arg8 (by decide))).trans (KF.W6_main_arg8 m ρ c)⟩) (KF.run_all m ρ)

end Cert.KernelIdeal.KOut

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«105878_j7808250544365_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.KTermRead.lean ====
/-
  The kernel program's host statements read at the ideal instance.

  * The aggregation `aggK` maps reals to reals: a gather reads the operand, products and sums of reals are reals, a
    scatter-add into zeros is a finite sum of reals, the degree count is a finite sum of ones clamped below at one,
    and a real divided by a real that is at least one is a real.
  * The two slices of the 256-row weight are its first and last 128 rows; a vector reshaped to a row reads the vector.
  * The mean row is the sum of rows 0 and 8 of the partial sums over the number of rows; the variance row is the
    sum of rows 0 and 8 of the partial sums of squares over the number of rows, less the squared mean, clamped at zero.
-/
import Idealize.ShloMosaic.Lib.Pipeline.Value
import proofs.«105878_j7808250544365_2_alg».proof.Proof.KTerm
import proofs.«105878_j7808250544365_2_alg».proof.Proof.Spec
import proofs.«105878_j7808250544365_2_alg».proof.Proof.Reals
import proofs.«105878_j7808250544365_2_alg».proof.Proof.LibSpread
import proofs.«105878_j7808250544365_2_alg».proof.Proof.LibRowLayers
import proofs.«105878_j7808250544365_2_alg».proof.Proof.LibCatDot

noncomputable section

namespace Cert.KernelIdeal.KTermRead

open Idealize.ShloMosaic Idealize.ShloMosaic.ValueIdx
open Cert.KernelIdeal Sage.Reals

variable [Cert.KernelIdeal.Facts]
open Facts₀ Facts

/-! ## The statistics rows -/

/-- The one-row slice of a 16-row array at row offset `0` reads row `0`. -/
theorem slice_row0 (s : FVec Ideal S16x128 .f32) (h : S16x128.Slices ![0, 0] S1x128) (q : Fin 128) :
    extractStridedSlice S1x128 ![0, 0] s h (ix2 (0 : Fin 1) q) = s (ix2 (0 : Fin 16) q) :=
  extractStridedSlice_apply ![0, 0] s h (ix2 (0 : Fin 1) q) (ix2 (0 : Fin 16) q) (fun a => by
    match a with
    | ⟨0, _⟩ => rfl
    | ⟨1, _⟩ => show q.val = 0 + q.val; omega)

/-- The one-row slice of a 16-row array at row offset `8` reads row `8`. -/
theorem slice_row8 (s : FVec Ideal S16x128 .f32) (h : S16x128.Slices ![8, 0] S1x128) (q : Fin 128) :
    extractStridedSlice S1x128 ![8, 0] s h (ix2 (0 : Fin 1) q) = s (ix2 (8 : Fin 16) q) :=
  extractStridedSlice_apply ![8, 0] s h (ix2 (0 : Fin 1) q) (ix2 (8 : Fin 16) q) (fun a => by
    match a with
    | ⟨0, _⟩ => rfl
    | ⟨1, _⟩ => show q.val = 0 + q.val; omega)

/-- The mean row at column `q`: rows 0 and 8 of the partial sums, added, over the number of rows. -/
theorem meanRow_apply (s1 : FVec Ideal S16x128 .f32) (q : Fin 128) :
    KTerm.meanRow (F := Ideal) s1 (ix2 (0 : Fin 1) q)
      = Ideal.div (s1 (ix2 (0 : Fin 16) q) + s1 (ix2 (8 : Fin 16) q)) Sage.rowsW := by
  show Ideal.div (extractStridedSlice S1x128 ![0, 0] s1 slices_S16x128_S1x128_0_0 (ix2 (0 : Fin 1) q)
        + extractStridedSlice S1x128 ![8, 0] s1 slices_S16x128_S1x128_8_0 (ix2 (0 : Fin 1) q))
      (broadcastInDim S1x128 ![] bcast_S_S1x128 (constant (F := Ideal) S_ .f32 0x47C35000#32) (ix2 (0 : Fin 1) q)) = _
  rw [slice_row0, slice_row8, Cert.Lib.Spread.splat_apply]
  rfl

/-- The variance row at column `q`: rows 0 and 8 of the partial sums of squares, added, over the number of rows, less
    the squared mean, clamped below at zero. -/
theorem varRow_apply (s1 s2 : FVec Ideal S16x128 .f32) (q : Fin 128) :
    KTerm.varRow (F := Ideal) s1 s2 (ix2 (0 : Fin 1) q)
      = max (Ideal.div (s2 (ix2 (0 : Fin 16) q) + s2 (ix2 (8 : Fin 16) q)) Sage.rowsW
          - KTerm.meanRow (F := Ideal) s1 (ix2 (0 : Fin 1) q) * KTerm.meanRow (F := Ideal) s1 (ix2 (0 : Fin 1) q)) 0 := by
  show max (Ideal.div (extractStridedSlice S1x128 ![0, 0] s2 slices_S16x128_S1x128_0_0 (ix2 (0 : Fin 1) q)
          + extractStridedSlice S1x128 ![8, 0] s2 slices_S16x128_S1x128_8_0 (ix2 (0 : Fin 1) q))
        (broadcastInDim S1x128 ![] bcast_S_S1x128 (constant (F := Ideal) S_ .f32 0x47C35000#32) (ix2 (0 : Fin 1) q))
      - KTerm.meanRow (F := Ideal) s1 (ix2 (0 : Fin 1) q) * KTerm.meanRow (F := Ideal) s1 (ix2 (0 : Fin 1) q))
      (broadcastInDim S1x128 ![] bcast_S_S1x128 (constant (F := Ideal) S_ .f32 0x00000000#32) (ix2 (0 : Fin 1) q)) = _
  rw [slice_row0, slice_row8, Cert.Lib.Spread.splat_apply, Cert.Lib.Spread.splat_apply, Ideal.ofBits_zero_f32]
  rfl

/-! ## The weight's halves and the rows -/

/-- The slice at row offset `0` of the 256-row weight is its first 128 rows. -/
theorem wTop_eq (a5 : FVec Ideal S256x128 .f32) :
    KTerm.wTop (F := Ideal) a5 = Cert.Lib.CatDot.rowsTop (K := 128) (K' := 128) (N := 128) a5 :=
  Cert.Lib.CatDot.slice_rowsTop (K := 128) (K' := 128) (N := 128) a5 slices_S256x128_S128x128_0_0

/-- The slice at row offset `128` of the 256-row weight is its last 128 rows. -/
theorem wBot_eq (a5 : FVec Ideal S256x128 .f32) :
    KTerm.wBot (F := Ideal) a5 = Cert.Lib.CatDot.rowsBot (K := 128) (K' := 128) (N := 128) a5 :=
  Cert.Lib.CatDot.slice_rowsBot (K := 128) (K' := 128) (N := 128) a5 slices_S256x128_S128x128_128_0

/-- The bias row read back as a vector is the bias. -/
theorem bRow_rowVec (a6 : FVec Ideal S128 .f32) : Cert.Lib.RowLayers.rowVec (KTerm.bRow (F := Ideal) a6) = a6 :=
  Cert.Lib.RowLayers.rowVec_reshape a6 shapeCasts_S128_S1x128

/-- The bias row at column `q` is the bias at `q`. -/
theorem bRow_apply (a6 : FVec Ideal S128 .f32) (q : Fin 128) :
    KTerm.bRow (F := Ideal) a6 (ix2 (0 : Fin 1) q) = a6 (ix1 q) :=
  congrFun (Cert.Lib.RowLayers.rowVec_reshape a6 shapeCasts_S128_S1x128) (ix1 q)

/-- The scale row at column `q` is the scale at `q`. -/
theorem gRow_apply (a7 : FVec Ideal S128 .f32) (q : Fin 128) :
    KTerm.gRow (F := Ideal) a7 (ix2 (0 : Fin 1) q) = a7 (ix1 q) :=
  congrFun (Cert.Lib.RowLayers.rowVec_reshape a7 shapeCasts_S128_S1x128) (ix1 q)

/-- The shift row at column `q` is the shift at `q`. -/
theorem beRow_apply (a8 : FVec Ideal S128 .f32) (q : Fin 128) :
    KTerm.beRow (F := Ideal) a8 (ix2 (0 : Fin 1) q) = a8 (ix1 q) :=
  congrFun (Cert.Lib.RowLayers.rowVec_reshape a8 shapeCasts_S128_S1x128) (ix1 q)

/-! ## The aggregation keeps reals -/

/-- The mean aggregation of real features and a real edge embedding is real. -/
theorem aggK_real (x : FVec Ideal S100000x128 .f32) (ei : IVec S2x1000000 32) (pe : FVec Ideal S1000000x128 .f32)
    (hx : real x) (hpe : real pe) : real (KTerm.aggK (F := Ideal) x ei pe) := by
  unfold KTerm.aggK
  exact real_hostDivf_of_ge_one
    (real_scatterAdd _ _ _ _ (real_broadcastInDim _ _ _ (real_constant_zero _))
      (real_addf (real_mulf hpe (real_gather _ _ _ hx)) (real_gather _ _ _ hx)))
    (ge_one_broadcastInDim _ _ _ (ge_one_broadcastInDim _ _ _
      (ge_one_maximumf
        (real_scatterAdd _ _ _ _ (real_broadcastInDim _ _ _ (real_constant_zero _))
          (real_broadcastInDim _ _ _ (real_constant_one _)))
        (fun i => (Cert.Lib.Spread.splat_apply _ _ i).trans ofBits_one))))

end Cert.KernelIdeal.KTermRead

end
-- ==== Proof.KLaw.lean ====
/-
  The statistics law that joins the two programs.

  The kernel program computes each column's mean and variance from two partial sums per column — the sums of the
  entries and of their squares over the first and the second half of the rows — as `(S₀ + S₁) / n` and
  `max ((Q₀ + Q₁) / n − mean²) 0`; the reference computes the mean and the mean of the squared deviations. Where
  every entry is a real the two agree, so the normalised outputs agree.

  The arithmetic of the partial sums: the `100000` rows are `2` halves of `10` blocks of `5000` rows, row
  `(c · 10 + j) · 5000 + r` being row `r` of block `j` of half `c`; a sum over all rows is the sum over the two halves
  of the sums over their blocks. A running total that starts at zero and grows by one block's sum per step is, after
  all steps, the sum over the blocks.
-/
import Mathlib.Algebra.BigOperators.Fin
import proofs.«105878_j7808250544365_2_alg».proof.Proof.KTermRead
import proofs.«105878_j7808250544365_2_alg».proof.Proof.Spec
import proofs.«105878_j7808250544365_2_alg».proof.Proof.LibBatchNormVar

noncomputable section

open scoped BigOperators

namespace Cert.KernelIdeal.KLaw

open Idealize.ShloMosaic Idealize.ShloMosaic.ValueIdx
open Cert.KernelIdeal

/-! ## Sums over blocks of rows -/

/-- A sum over `T · R` rows is the sum over `T` blocks of the sums over their `R` rows, row `t · R + r` being row
    `r` of block `t`. -/
theorem sum_blocks_rows {M : Type*} [AddCommMonoid M] (T R : ℕ) (f : Fin (T * R) → M) :
    ∑ n, f n = ∑ t : Fin T, ∑ r : Fin R, f ⟨t.val * R + r.val, by
      have ht := t.isLt
      have hr := r.isLt
      calc t.val * R + r.val < t.val * R + R := Nat.add_lt_add_left hr _
        _ = (t.val + 1) * R := by rw [Nat.add_mul, Nat.one_mul]
        _ ≤ T * R := Nat.mul_le_mul_right R ht⟩ := by
  rw [ProofLib.BatchNorm.sum_blocks T R f]
  refine Finset.sum_congr rfl fun t _ => Finset.sum_congr rfl fun r _ => congrArg f (Fin.ext ?_)
  show r.val + R * t.val = t.val * R + r.val
  rw [Nat.mul_comm, Nat.add_comm]

/-- A sum over the `100000` rows is the sum over the two halves of the sums over each half's `10` blocks of
    `5000` rows. -/
theorem sum_halves_blocks {M : Type*} [AddCommMonoid M] (f : Fin 100000 → M) :
    (∑ j : Fin 10, ∑ r : Fin 5000, f ⟨(0 * 10 + j.val) * 5000 + r.val, by omega⟩)
      + (∑ j : Fin 10, ∑ r : Fin 5000, f ⟨(1 * 10 + j.val) * 5000 + r.val, by omega⟩) = ∑ n : Fin 100000, f n := by
  have h1 : ∑ n : Fin 100000, f n
      = ∑ t : Fin (10 + 10), ∑ r : Fin 5000, f ⟨t.val * 5000 + r.val, by omega⟩ :=
    sum_blocks_rows 20 5000 f
  rw [h1, Fin.sum_univ_add]
  refine congrArg₂ (· + ·) (Finset.sum_congr rfl fun j _ => Finset.sum_congr rfl fun r _ => congrArg f (Fin.ext ?_))
    (Finset.sum_congr rfl fun j _ => Finset.sum_congr rfl fun r _ => congrArg f (Fin.ext ?_))
  · show (0 * 10 + j.val) * 5000 + r.val = j.val * 5000 + r.val
    omega
  · show (1 * 10 + j.val) * 5000 + r.val = (10 + j.val) * 5000 + r.val
    omega

/-- A running total that starts at zero and grows by `b t` at step `t` is, after `T` steps, the sum of the `b t` over
    `t : Fin T`. -/
theorem acc_eq_sum_fin {M : Type*} [AddCommMonoid M] (T : ℕ) (b acc : ℕ → M) (h0 : acc 0 = 0)
    (hs : ∀ t, t < T → acc (t + 1) = acc t + b t) : acc T = ∑ j : Fin T, b j.val :=
  (ProofLib.BatchNorm.acc_eq_sum b acc h0 T hs).trans (Finset.sum_range b)

/-! ## The two spellings of the statistics -/

variable [Cert.KernelIdeal.Facts]

/-- The kernel program's mean row is the column mean, when the two partial sums add up to the column's sum. -/
theorem meanRow_eq (h : Sage.Arr2 100000 128) (s1 : FVec Ideal S16x128 .f32)
    (hs1 : ∀ q : Fin 128, s1 (ix2 (0 : Fin 16) q) + s1 (ix2 (8 : Fin 16) q) = ∑ n : Fin 100000, h (ix2 n q))
    (q : Fin 128) : KTerm.meanRow (F := Ideal) s1 (ix2 (0 : Fin 1) q) = Sage.colMean h q := by
  rw [KTermRead.meanRow_apply, hs1 q]
  unfold Sage.colMean Cert.Lib.BnAffine.mean
  rw [zero_add]

/-- The kernel program's variance row is the mean of the squared deviations, when every entry is a real and the
    partial sums add up to the column's sum and sum of squares. -/
theorem varRow_eq (h : Sage.Arr2 100000 128) (s1 s2 : FVec Ideal S16x128 .f32)
    (hh : ∀ i, ∃ r : ℝ, h i = (r : EReal))
    (hs1 : ∀ q : Fin 128, s1 (ix2 (0 : Fin 16) q) + s1 (ix2 (8 : Fin 16) q) = ∑ n : Fin 100000, h (ix2 n q))
    (hs2 : ∀ q : Fin 128, s2 (ix2 (0 : Fin 16) q) + s2 (ix2 (8 : Fin 16) q)
      = ∑ n : Fin 100000, h (ix2 n q) * h (ix2 n q))
    (q : Fin 128) : KTerm.varRow (F := Ideal) s1 s2 (ix2 (0 : Fin 1) q) = Sage.varCentred h q := by
  rw [KTermRead.varRow_apply, meanRow_eq h s1 hs1 q, hs2 q, ← Sage.varClamped_eq_varCentred h hh q]
  rfl

/-- The normalised output from the kernel program's statistics rows is the one from the column mean and the mean of
    the squared deviations. -/
theorem bn_rows_eq (h x : Sage.Arr2 100000 128) (g be : Sage.Arr1 128) (s1 s2 : FVec Ideal S16x128 .f32)
    (hh : ∀ i, ∃ r : ℝ, h i = (r : EReal))
    (hs1 : ∀ q : Fin 128, s1 (ix2 (0 : Fin 16) q) + s1 (ix2 (8 : Fin 16) q) = ∑ n : Fin 100000, h (ix2 n q))
    (hs2 : ∀ q : Fin 128, s2 (ix2 (0 : Fin 16) q) + s2 (ix2 (8 : Fin 16) q)
      = ∑ n : Fin 100000, h (ix2 n q) * h (ix2 n q)) :
    Sage.bnOut h x (fun q => KTerm.meanRow (F := Ideal) s1 (ix2 (0 : Fin 1) q))
        (fun q => KTerm.varRow (F := Ideal) s1 s2 (ix2 (0 : Fin 1) q)) g be
      = Sage.bnOut h x (Sage.colMean h) (Sage.varCentred h) g be := by
  have hμ : (fun q => KTerm.meanRow (F := Ideal) s1 (ix2 (0 : Fin 1) q)) = Sage.colMean h :=
    funext (meanRow_eq h s1 hs1)
  have hv : (fun q => KTerm.varRow (F := Ideal) s1 s2 (ix2 (0 : Fin 1) q)) = Sage.varCentred h :=
    funext (varRow_eq h s1 s2 hh hs1 hs2)
  rw [hμ, hv]

end Cert.KernelIdeal.KLaw

end
-- ==== Proof.LibUnitLin.lean ====
/-
  A matrix unit's linear layers with a loaded bias row, read as whole-array functions on the extended reals.

  A product into a zero accumulator read at an entry is the plain sum of products. Two such products added, plus a
  `1 × N` bias row repeated down the `M` rows, are the two-product layer `lin2` of the four operands and the row read
  as a vector; one product plus the row is `lin`. The operands may be of any float formats. Narrowing an array to a
  shorter float format is the identity on extended reals, and the splat of the zero word is the zero array.
-/
import Idealize.ShloMosaic.Lib.ValueIdx
import Idealize.ShloMosaic.Lib.ValueLayout
import Idealize.ShloMosaic.Lib.Pipeline.Value
import Idealize.ShloMosaic.PureOps.Ideal.Laws
import proofs.«105878_j7808250544365_2_alg».proof.Proof.LibRowLayers

noncomputable section

open scoped BigOperators

namespace Cert.Lib.UnitLin

open Idealize.ShloMosaic Idealize.ShloMosaic.ValueIdx Cert.Lib.BiasDot Cert.Lib.Dense Cert.Lib.RowLayers

variable {M K K' N : Nat}

/-- Two products into zero, added, plus the repeated bias row: the two-product layer. -/
theorem unitLin2_eq {φ₁ φ₂ φ₃ φ₄ : FTy} (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (X1 : FVec Ideal ⟨2, ![M, K]⟩ φ₁) (W1 : FVec Ideal ⟨2, ![K, N]⟩ φ₂) (X2 : FVec Ideal ⟨2, ![M, K']⟩ φ₃) (W2 : FVec Ideal ⟨2, ![K', N]⟩ φ₄)
    (R : FVec Ideal ⟨2, ![1, N]⟩ .f32) (hb : (⟨2, ![1, N]⟩ : Shape).Broadcasts ⟨2, ![M, N]⟩) :
    addf (addf (FloatOps.matmul d1 none X1 W1 (constant ⟨2, ![M, N]⟩ .f32 0x00000000#32))
          (FloatOps.matmul d2 none X2 W2 (constant ⟨2, ![M, N]⟩ .f32 0x00000000#32)))
        (broadcastTo ⟨2, ![M, N]⟩ R hb)
      = lin2 X1 W1 X2 W2 (rowVec R) := by
  subst hd1
  subst hd2
  funext i
  obtain ⟨p, q, rfl⟩ : ∃ (p : Fin M) (q : Fin N), i = ix2 p q := ⟨i 0, i 1, eq_ix2 i⟩
  rw [addf_apply, addf_apply, broadcastTo_1b_ab_apply, Cert.Lib.PlainDot.matmul_zero_apply, Cert.Lib.PlainDot.matmul_zero_apply]
  rfl

/-- One product into zero plus the repeated bias row: the linear layer. -/
theorem unitLin_eq {φ₁ φ₂ : FTy} (d : DotDims ⟨2, ![M, K]⟩ ⟨2, ![K, N]⟩ ⟨2, ![M, N]⟩) (hd : d = DotDims.plain M K N)
    (X : FVec Ideal ⟨2, ![M, K]⟩ φ₁) (W : FVec Ideal ⟨2, ![K, N]⟩ φ₂)
    (R : FVec Ideal ⟨2, ![1, N]⟩ .f32) (hb : (⟨2, ![1, N]⟩ : Shape).Broadcasts ⟨2, ![M, N]⟩) :
    addf (FloatOps.matmul d none X W (constant ⟨2, ![M, N]⟩ .f32 0x00000000#32)) (broadcastTo ⟨2, ![M, N]⟩ R hb)
      = lin X W (rowVec R) := by
  subst hd
  funext i
  obtain ⟨p, q, rfl⟩ : ∃ (p : Fin M) (q : Fin N), i = ix2 p q := ⟨i 0, i 1, eq_ix2 i⟩
  rw [addf_apply, broadcastTo_1b_ab_apply, Cert.Lib.PlainDot.matmul_zero_apply]
  rfl

/-- Narrowing to the shorter float format is the identity on extended reals. -/
theorem narrow_eq {s : Shape} (X : FVec Ideal s .f32) (h : FTy.bf16.bits < FTy.f32.bits) :
    ((truncf .bf16 X h : FVec Ideal s .bf16) : s.Idx → EReal) = X := rfl

/-- The splat of the zero word is zero everywhere. -/
theorem zeroSplat_eq {s : Shape} :
    (broadcast s (Scalar.ofBits (F := Ideal) .f32 0x00000000#32) : s.Idx → EReal) = fun _ => 0 := by
  funext i
  show Ideal.ofBits .f32 0x00000000#32 = 0
  exact Ideal.ofBits_zero_f32

end Cert.Lib.UnitLin

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.LibColSum.lean ====
/-
  The sum down the rows of an `M × N` array, read at a column, at the ideal values.

  A float `add` reduction over axis 0 of an `M × N` array gives, at column `q`, the sum of the column's `M` entries: the
  accumulator's word is the neutral element and does not appear.
-/
import Idealize.ShloMosaic.Lib.ValueIdx
import Idealize.ShloMosaic.PureOps.Ideal.Laws
import proofs.«105878_j7808250544365_2_alg».proof.Proof.LibLeast

noncomputable section

open scoped BigOperators

namespace Cert.Lib.ColSum

open Idealize.ShloMosaic Idealize.ShloMosaic.ValueIdx

variable {M N : Nat}

/-- The sum down the rows, at column `q`. -/
theorem colSum_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.add.neutral φ hφ)
    (q : Fin N) :
    multiReduction .add [0] ⟨1, ![N]⟩ src acc h hφ hacc (ix1 q) = ∑ k : Fin M, src (ix2 k q) :=
  (Ideal.multiReduction_add_single src acc h hφ hacc (ix1 q)).trans
    (Finset.sum_congr rfl fun k _ => congrArg src (Cert.Lib.Least.lift_row h q k))

/-- The same for an f32 array from the zero word, the accumulator hypothesis typed as a printed term carries it. -/
theorem colSum_f32 (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) :=
  colSum_apply src _ h hφ hacc q

end Cert.Lib.ColSum

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«105878_j7808250544365_2_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.PayRead.lean ====
/-
  The kernel's pure values read at an entry, on the extended reals.

  Each function the kernel stores is a composition of entrywise operations, products into a zero accumulator, sums down
  the rows and repetitions of a `1 × N` row. Read at an entry `(p, q)` they are:
  * the edge embedding: the product of the positive part of a product, the specification's `pe`;
  * the update: two products added plus the bias row, the two-product layer `lin2`;
  * the running column sums: the row loaded before plus the sum of the column's entries, of the update and of its square;
  * the repeated statistics rows and the zero rows;
  * the normalisation: `max (((h − μ) · rsqrt (v + ε)) · γ + β) 0 + x`.
-/
import proofs.«105878_j7808250544365_2_alg».proof.Proof.Gen.KernelIdeal.Skeleton
import proofs.«105878_j7808250544365_2_alg».proof.Proof.Spec
import proofs.«105878_j7808250544365_2_alg».proof.Proof.LibUnitLin
import proofs.«105878_j7808250544365_2_alg».proof.Proof.LibRowForms
import proofs.«105878_j7808250544365_2_alg».proof.Proof.LibRowLayers
import proofs.«105878_j7808250544365_2_alg».proof.Proof.LibColSum
import proofs.«105878_j7808250544365_2_alg».proof.Proof.LibPlainDot
import proofs.«105878_j7808250544365_2_alg».proof.Proof.LibProductRows

noncomputable section

open scoped BigOperators

namespace Cert.KernelIdeal.PayRead

open Idealize.ShloMosaic Idealize.ShloMosaic.ValueIdx Cert.KernelIdeal Cert.KernelIdeal.Gen

variable [Cert.KernelIdeal.Facts]

/-! ## The normalisation -/

/-- The normalised, scaled, shifted entry, its positive part, plus the residual entry. -/
theorem k2_pay1_apply (v0 : Vec Ideal S1x128 .f32) (v5 : Vec Ideal S5000x128 .f32) (v7 v13 v17 : Vec Ideal S1x128 .f32)
    (v23 : Vec Ideal S5000x128 .f32) (p : Fin 5000) (q : Fin 128) :
    Gen.k2_pay1 (F := Ideal) v0 v5 v7 v13 v17 v23 (ix2 p q)
      = max (((v5 (ix2 p q) - v7 (ix2 (0 : Fin 1) q)) * Ideal.rsqrt (v0 (ix2 (0 : Fin 1) q) + Sage.epsW))
          * v13 (ix2 (0 : Fin 1) q) + v17 (ix2 (0 : Fin 1) q)) 0 + v23 (ix2 p q) := by
  unfold Gen.k2_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  rw [broadcast_apply]
  show max (((v5 (ix2 p q) - v7 (ix2 (0 : Fin 1) q)) * Ideal.rsqrt (v0 (ix2 (0 : Fin 1) q) + Ideal.ofBits .f32 0x3727C5AC#32))
          * v13 (ix2 (0 : Fin 1) q) + v17 (ix2 (0 : Fin 1) q)) (Ideal.ofBits .f32 0x00000000#32) + v23 (ix2 p q) = _
  rw [Ideal.ofBits_zero_f32]
  rfl

/-! ## The update -/

/-- The update: two products into zero added, plus the bias row repeated down the rows, is the two-product layer. -/
theorem k1_pay6_eq (v3 v5 : Vec Ideal S5000x128 .f32) (v8 v11 : Vec Ideal S128x128 .f32) (v17 : Vec Ideal S1x128 .f32) :
    Gen.k1_pay6 (F := Ideal) v3 v5 v8 v11 v17 = Cert.Lib.Dense.lin2 v3 v8 v5 v11 (Cert.Lib.RowLayers.rowVec v17) := by
  unfold Gen.k1_pay6
  simp only [shapeCast_self]
  exact Cert.Lib.UnitLin.unitLin2_eq (M := 5000) (K := 128) (K' := 128) (N := 128)
    dot_S5000x128_S128x128_S5000x128_1_0_0_1_n_n rfl dot_S5000x128_S128x128_S5000x128_1_0_0_1_n_n rfl
    (truncf .bf16 v3 bitsLt_bf16_f32) (truncf .bf16 v8 bitsLt_bf16_f32)
    (truncf .bf16 v5 bitsLt_bf16_f32) (truncf .bf16 v11 bitsLt_bf16_f32) v17 broadcasts_S1x128_S5000x128

/-! ## The running column sums -/

/-- The running sum of the update's columns: the row loaded before plus the sum of the column. -/
theorem k1_pay7_apply (v3 v5 : Vec Ideal S5000x128 .f32) (v8 v11 : Vec Ideal S128x128 .f32) (v17 v22 : Vec Ideal S1x128 .f32)
    (q : Fin 128) :
    Gen.k1_pay7 (F := Ideal) v3 v5 v8 v11 v17 v22 (ix2 (0 : Fin 1) q)
      = v22 (ix2 (0 : Fin 1) q) + ∑ k : Fin 5000, Gen.k1_pay6 (F := Ideal) v3 v5 v8 v11 v17 (ix2 k q) := by
  unfold Gen.k1_pay7
  simp only [shapeCast_self]
  rw [addf_apply, Cert.Lib.RowForms.vecRow_apply, Cert.Lib.ColSum.colSum_f32]

/-- The running sum of the squares' columns: the row loaded before plus the sum of the column. -/
theorem k1_pay1_apply (v29 : Vec Ideal S1x128 .f32) (v30 : FVec Ideal S5000x128 .f32) (q : Fin 128) :
    Gen.k1_pay1 (F := Ideal) v29 v30 (ix2 (0 : Fin 1) q) = v29 (ix2 (0 : Fin 1) q) + ∑ k : Fin 5000, v30 (ix2 k q) := by
  unfold Gen.k1_pay1
  simp only [shapeCast_self]
  rw [addf_apply, Cert.Lib.RowForms.vecRow_apply, Cert.Lib.ColSum.colSum_f32]

/-- The square of the update, entry by entry. -/
theorem k1_pay8_apply (v3 v5 : Vec Ideal S5000x128 .f32) (v8 v11 : Vec Ideal S128x128 .f32) (v17 : Vec Ideal S1x128 .f32)
    (i : S5000x128.Idx) :
    Gen.k1_pay8 (F := Ideal) v3 v5 v8 v11 v17 i
      = Gen.k1_pay6 (F := Ideal) v3 v5 v8 v11 v17 i * Gen.k1_pay6 (F := Ideal) v3 v5 v8 v11 v17 i := rfl

/-! ## The repeated rows and the zero rows -/

/-- The first statistics row repeated down eight rows reads the row at the column. -/
theorem k1_pay2_apply (v37 : Vec Ideal S1x128 .f32) (p : Fin 8) (q : Fin 128) :
    Gen.k1_pay2 (F := Ideal) v37 (ix2 p q) = v37 (ix2 (0 : Fin 1) q) := by
  unfold Gen.k1_pay2
  exact Cert.Lib.RowLayers.rowRepeat_apply v37 shapeCasts_S1x128_S1x128 broadcasts_S1x128_S8x128 p q

/-- The second statistics row repeated down eight rows reads the row at the column. -/
theorem k1_pay3_apply (v41 : Vec Ideal S1x128 .f32) (p : Fin 8) (q : Fin 128) :
    Gen.k1_pay3 (F := Ideal) v41 (ix2 p q) = v41 (ix2 (0 : Fin 1) q) := by
  unfold Gen.k1_pay3
  exact Cert.Lib.RowLayers.rowRepeat_apply v41 shapeCasts_S1x128_S1x128 broadcasts_S1x128_S8x128 p q

/-- The first zero row is zero at every column. -/
theorem k1_pay4_apply (q : Fin 128) : Gen.k1_pay4 (F := Ideal) (ix2 (0 : Fin 1) q) = 0 := by
  unfold Gen.k1_pay4
  simp only [shapeCast_self]
  rw [broadcast_apply]
  exact Ideal.ofBits_zero_f32

/-- The second zero row is zero at every column. -/
theorem k1_pay5_apply (q : Fin 128) : Gen.k1_pay5 (F := Ideal) (ix2 (0 : Fin 1) q) = 0 := by
  unfold Gen.k1_pay5
  simp only [shapeCast_self]
  rw [broadcast_apply]
  exact Ideal.ofBits_zero_f32

/-! ## The edge embedding -/

/-- The edge embedding: the product into zero of the positive part of a product into zero, all operands narrowed. -/
theorem k0_pay1_eq (v0 : Vec Ideal S10000x2 .f32) (v2 : Vec Ideal S2x128 .f32) (v7 : Vec Ideal S128x128 .f32) :
    Gen.k0_pay1 (F := Ideal) v0 v2 v7 = Sage.pe v0 v2 v7 := by
  unfold Gen.k0_pay1
  refine (Cert.Lib.ProductRows.narrowMatmul_eq_mm (M := 10000) (K := 128) (N := 128)
    dot_S10000x128_S128x128_S10000x128_1_0_0_1_n_n rfl _ v7 bitsLt_bf16_f32 bitsLt_bf16_f32).trans ?_
  funext i
  show ∑ k : Fin 128, max (FloatOps.matmul dot_S10000x2_S2x128_S10000x128_1_0_0_1_n_n none
        (truncf .bf16 v0 bitsLt_bf16_f32) (truncf .bf16 v2 bitsLt_bf16_f32) (constant S10000x128 .f32 0x00000000#32) (ix2 (i 0) k))
      (Ideal.ofBits .f32 0x00000000#32) * v7 (ix2 k (i 1)) = _
  rw [Ideal.ofBits_zero_f32]
  refine Finset.sum_congr rfl fun k _ => ?_
  rw [Cert.Lib.ProductRows.narrowMatmul_eq_mm (M := 10000) (K := 2) (N := 128)
    dot_S10000x2_S2x128_S10000x128_1_0_0_1_n_n rfl v0 v2 bitsLt_bf16_f32 bitsLt_bf16_f32]
  rfl

end Cert.KernelIdeal.PayRead

end
-- ==== Proof.KVal0.lean ====
/-
  The first kernel region's output array after the run, as one function of the arrays the region is entered from.

  Each grid point writes back a block of 10000 rows: the edge embedding of the point's 10000 edges. An entry of the
  embedding depends on its own edge's row only, so the block at point `t` is rows `10000 t … 10000 t + 9999` of the
  embedding of all the edges. The hundred blocks tile the array (row `r` is in the block of point `r / 10000`), so the
  array ends holding the embedding of all the edges.
-/
import proofs.«105878_j7808250544365_2_alg».proof.Proof.KF0
import proofs.«105878_j7808250544365_2_alg».proof.Proof.PayRead
import proofs.«105878_j7808250544365_2_alg».proof.Proof.Spec
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block rectangle, as a constant function. -/
theorem zeroOffsets0 : (![0, 0] : Fin 2 → Nat) = fun _ => 0 := funext fun a => by fin_cases a <;> rfl

/-- The embedding of a block of edges at a row is the embedding of all the edges at the row the block's row sits at:
    an entry reads its own edge's row, and the two weights whole. -/
theorem pe_block {E : Nat} (x0 : Sage.Arr2 10000 2) (x1 : Sage.Arr2 2 128) (x2 : Sage.Arr2 128 128)
    (A : Sage.Arr2 E 2) (W1 : Sage.Arr2 2 128) (W2 : Sage.Arr2 128 128)
    (j : (⟨2, ![10000, 128]⟩ : Shape).Idx) (i : (⟨2, ![E, 128]⟩ : Shape).Idx)
    (h0 : ∀ e : Fin 2, x0 (ix2 (j 0) e) = A (ix2 (i 0) e)) (h1 : ∀ (e : Fin 2) (k : Fin 128), x1 (ix2 e k) = W1 (ix2 e k))
    (h2 : ∀ k : Fin 128, x2 (ix2 k (j 1)) = W2 (ix2 k (i 1))) :
    Sage.pe x0 x1 x2 j = Sage.pe A W1 W2 i := by
  unfold Sage.pe
  refine Finset.sum_congr rfl fun k _ => ?_
  rw [h2 k]
  refine congrArg (fun z => max z 0 * W2 (ix2 k (i 1))) ?_
  exact Finset.sum_congr rfl fun e _ => by rw [h0 e, h1 e k]

/-- The printed index maps, decided over the grid: the edge block and the output block move down the rows with the point,
    the two weights stay. -/
theorem blockIndex0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 99 ∧ win0_3.index t (1 : Fin 2) = 0 :=
  (by decide +kernel : ∀ t : Fin grid0.N, _)

/-- Every block of rows is some point's. -/
theorem blockOnto0 : ∀ q0 : Fin 100, ∃ t : Fin cfg0.N, win0_3.index t = ![q0.val, 0] :=
  (by decide +kernel : ∀ q0 : Fin 100, ∃ t : Fin grid0.N, win0_3.index t = ![q0.val, 0])

/-- The array the region's output ends holding: the embedding of all the edges. -/
abbrev G0 (c : Dev nD) : S1000000x128.Idx → EReal :=
  Sage.pe (V c main_arg2 : S1000000x2.Idx → EReal) (V c main_arg3 : S2x128.Idx → EReal) (V c main_arg4 : S128x128.Idx → EReal)

/-- What point `t` writes back is block `t` of the embedding of all the edges. -/
theorem flushed0_eq (c : Dev nD) (t : Fin cfg0.N) :
    (KF.dat0 V c).flushed 3 t = ((cfg0.win 3).blk t).view.read (Elt Ideal) (G0 V c) := by
  show (cfg0.win 3).cut (grid0.coords t) ((KF.dat0 V c).after 3 t) = _
  rw [KF.after0_3]
  unfold KF.out0_3
  rw [View.canon_unit_zero zeroOffsets0]
  simp only [View.ld_unit_zero (S := S10000x2) zeroOffsets0, View.ld_unit_zero (S := S2x128) zeroOffsets0,
    View.ld_unit_zero (S := S128x128) zeroOffsets0]
  obtain ⟨e0, e1, e2, e3, e4, e5, e6, e7⟩ := blockIndex0 t
  funext j
  show Gen.k0_pay1 (F := Ideal) (KF.iblk0 V c 0 t) (KF.iblk0 V c 1 t) (KF.iblk0 V c 2 t) j
    = G0 V c (((cfg0.win 3).blk t).view.emb j)
  refine (congrFun (PayRead.k0_pay1_eq (KF.iblk0 V c 0 t) (KF.iblk0 V c 1 t) (KF.iblk0 V c 2 t)) j).trans ?_
  refine pe_block _ _ _ _ _ _ j (((cfg0.win 3).blk t).view.emb j) (fun e => ?_) (fun e k => ?_) (fun k => ?_)
  · show V c main_arg2 (((cfg0.win 0).blk t).view.emb (ix2 (j 0) e)) = V c main_arg2 (ix2 ((((cfg0.win 3).blk t).view.emb j) 0) e)
    refine congrArg (V c main_arg2) ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 2 + 1 * e.val = e.val; omega
  · show V c main_arg3 (((cfg0.win 1).blk t).view.emb (ix2 e k)) = V c main_arg3 (ix2 e k)
    refine congrArg (V c main_arg3) ?_
    funext a; apply Fin.ext
    match a with
    | ⟨0, _⟩ => show win0_1.index t (0 : Fin 2) * 2 + 1 * e.val = e.val; omega
    | ⟨1, _⟩ => show win0_1.index t (1 : Fin 2) * 128 + 1 * k.val = k.val; omega
  · show V c main_arg4 (((cfg0.win 2).blk t).view.emb (ix2 k (j 1))) = V c main_arg4 (ix2 k ((((cfg0.win 3).blk t).view.emb j) 1))
    refine congrArg (V c main_arg4) ?_
    funext a; apply Fin.ext
    match a with
    | ⟨0, _⟩ => show win0_2.index t (0 : Fin 2) * 128 + 1 * k.val = k.val; omega
    | ⟨1, _⟩ => show win0_2.index t (1 : Fin 2) * 128 + 1 * (j 1).val = win0_3.index t (1 : Fin 2) * 128 + 1 * (j 1).val; omega

/-- An index of the array is in point `t`'s block iff each coordinate is in the block's range on its axis. -/
theorem mem_blk0 (t : Fin cfg0.N) (i : S1000000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v4).slice (win0_3.rect t)).set ↔ _
  rw [View.set_slice_whole, Rect.mem_set_unit]
  exact Iff.rfl

/-- Every index of the array is in some point's block: row `r` is in the block of point `r / 10000`. -/
theorem cover0 (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  obtain ⟨t, ht⟩ := blockOnto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The first region's output array after the run is the embedding of all the edges. -/
theorem final0 (c : Dev nD) : (KF.dat0 V c).arrAt 3 cfg0.N
    = Sage.pe (V c main_arg2 : S1000000x2.Idx → EReal) (V c main_arg3 : S2x128.Idx → EReal) (V c main_arg4 : S128x128.Idx → EReal) :=
  (KF.dat0 V c).arrAt_eq_of_cover 3 (G0 V c) (fun t _ => flushed0_eq V c t) cover0

end Cert.KernelIdeal.KVal

end
-- ==== Proof.KVal1a.lean ====
/-
  The second kernel region's body, one run read as values: what each of its two cases leaves in the three output blocks
  and in the two carried 1 × 128 rows, as the body's pure functions of the input blocks and of the rows it entered with.

  The update's block is the update of the point's rows. The first carried row is the row it entered with (the zero row
  at a half's first point) plus the column sums of the update's block; the second likewise with the squared update.
  Each small output block is the carried row, as just left, repeated down its eight rows.
-/
import proofs.«105878_j7808250544365_2_alg».proof.Proof.KF1
import Idealize.ShloMosaic.Lib.Pipeline.Value
import Idealize.ShloMosaic.Lib.Tactic

set_option maxRecDepth 16384

noncomputable section

namespace Cert.KernelIdeal.KVal

open Cert.KernelIdeal Cert.KernelIdeal.Gen Cert.KernelIdeal.KF
open Idealize.ShloMosaic Idealize.ShloMosaic.TcCoe Idealize.ShloMosaic.Tactic Idealize.SL.Sem
open Idealize.ShloMosaic.Pipeline (Dat)

variable {F : FTy → Type} [FloatOps F]

theorem zeroOffsets1 : (![0, 0] : Fin 2 → Nat) = fun _ => 0 := funext fun a => by fin_cases a <;> rfl

/-- At a half's first point the update's block is the update of the point's rows. -/
theorem out1_Z_5_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i) (x0 : Vec F S5000x128 .f32) (x1 : Vec F S5000x128 .f32) (x2 : Vec F S128x128 .f32) (x3 : Vec F S128x128 .f32) (x4 : Vec F S1x128 .f32) :
    out1_Z_5 c i arg2 harg2 arg3 harg3 arg4 harg4 arg5 harg5 arg6 harg6 arg7 harg7 arg8 harg8 arg9 harg9 arg10 harg10 arg11 harg11 hc0 x0 x1 x2 x3 x4 = Gen.k1_pay6 x0 x1 x2 x3 x4 := by
  unfold out1_Z_5
  rw [View.read_writes_eq_canon _ _ _ (cover1_Z_5 c i arg2 harg2 arg3 harg3 arg4 harg4 arg5 harg5 arg6 harg6 arg7 harg7 arg8 harg8 arg9 harg9 arg10 harg10 arg11 harg11 hc0 x0 x1 x2 x3 x4)]
  unfold kernelRun1_Z
  dsimp only
  sl_unfold_words
  rw [View.canon_cons_unit_zero (S := S5000x128) zeroOffsets1]
  simp only [View.readCov_cons_toLoadRect, View.readAt_eq_ld, harg2.read_unread, harg3.read_unread, harg4.read_unread,
    harg5.read_unread, harg6.read_unread, View.ld_unit_zero (S := S5000x128) zeroOffsets1,
    View.ld_unit_zero (S := S128x128) zeroOffsets1, View.ld_unit_zero (S := S1x128) zeroOffsets1]

/-- At a half's first point the first carried row is the zero row plus the column sums of the update's block. -/
theorem sout1_Z_0_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i) (x0 : Vec F S5000x128 .f32) (x1 : Vec F S5000x128 .f32) (x2 : Vec F S128x128 .f32) (x3 : Vec F S128x128 .f32) (x4 : Vec F S1x128 .f32) :
    sout1_Z_0 c i arg2 harg2 arg3 harg3 arg4 harg4 arg5 harg5 arg6 harg6 arg7 harg7 arg8 harg8 arg9 harg9 arg10 harg10 arg11 harg11 hc0 x0 x1 x2 x3 x4 = Gen.k1_pay7 x0 x1 x2 x3 x4 (Gen.k1_pay4 (F := F)) := by
  unfold sout1_Z_0
  rw [View.read_writes_eq_canon _ _ _ (scover1_Z_0 c i arg2 harg2 arg3 harg3 arg4 harg4 arg5 harg5 arg6 harg6 arg7 harg7 arg8 harg8 arg9 harg9 arg10 harg10 arg11 harg11 hc0 x0 x1 x2 x3 x4)]
  unfold kernelRun1_Z
  dsimp only
  sl_unfold_words
  rw [View.canon_cons_unit_zero (S := S1x128) zeroOffsets1]
  simp only [View.readCov_cons_toLoadRect, View.readAt_eq_ld, harg2.read_unread, harg3.read_unread, harg4.read_unread,
    harg5.read_unread, harg6.read_unread, View.ld_unit_zero (S := S5000x128) zeroOffsets1,
    View.ld_unit_zero (S := S128x128) zeroOffsets1, View.ld_unit_zero (S := S1x128) zeroOffsets1]

/-- At a half's first point the second carried row is the zero row plus the column sums of the squared update's block. -/
theorem sout1_Z_1_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i) (x0 : Vec F S5000x128 .f32) (x1 : Vec F S5000x128 .f32) (x2 : Vec F S128x128 .f32) (x3 : Vec F S128x128 .f32) (x4 : Vec F S1x128 .f32) :
    sout1_Z_1 c i arg2 harg2 arg3 harg3 arg4 harg4 arg5 harg5 arg6 harg6 arg7 harg7 arg8 harg8 arg9 harg9 arg10 harg10 arg11 harg11 hc0 x0 x1 x2 x3 x4 = Gen.k1_pay1 (Gen.k1_pay5 (F := F)) (Gen.k1_pay8 x0 x1 x2 x3 x4) := by
  unfold sout1_Z_1
  rw [View.read_writes_eq_canon _ _ _ (scover1_Z_1 c i arg2 harg2 arg3 harg3 arg4 harg4 arg5 harg5 arg6 harg6 arg7 harg7 arg8 harg8 arg9 harg9 arg10 harg10 arg11 harg11 hc0 x0 x1 x2 x3 x4)]
  unfold kernelRun1_Z
  dsimp only
  sl_unfold_words
  rw [View.canon_cons_unit_zero (S := S1x128) zeroOffsets1]
  simp only [View.readCov_cons_toLoadRect, View.readAt_eq_ld, harg2.read_unread, harg3.read_unread, harg4.read_unread,
    harg5.read_unread, harg6.read_unread, View.ld_unit_zero (S := S5000x128) zeroOffsets1,
    View.ld_unit_zero (S := S128x128) zeroOffsets1, View.ld_unit_zero (S := S1x128) zeroOffsets1]

/-- At a half's first point the first small block is the first carried row repeated. -/
theorem out1_Z_6_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i) (x0 : Vec F S5000x128 .f32) (x1 : Vec F S5000x128 .f32) (x2 : Vec F S128x128 .f32) (x3 : Vec F S128x128 .f32) (x4 : Vec F S1x128 .f32) :
    out1_Z_6 c i arg2 harg2 arg3 harg3 arg4 harg4 arg5 harg5 arg6 harg6 arg7 harg7 arg8 harg8 arg9 harg9 arg10 harg10 arg11 harg11 hc0 x0 x1 x2 x3 x4 = Gen.k1_pay2 (Gen.k1_pay7 x0 x1 x2 x3 x4 (Gen.k1_pay4 (F := F))) := by
  unfold out1_Z_6
  rw [View.read_writes_eq_canon _ _ _ (cover1_Z_6 c i arg2 harg2 arg3 harg3 arg4 harg4 arg5 harg5 arg6 harg6 arg7 harg7 arg8 harg8 arg9 harg9 arg10 harg10 arg11 harg11 hc0 x0 x1 x2 x3 x4)]
  unfold kernelRun1_Z
  dsimp only
  sl_unfold_words
  rw [View.canon_cons_unit_zero (S := S8x128) zeroOffsets1]
  simp only [View.readCov_cons_toLoadRect, View.readAt_eq_ld, harg2.read_unread, harg3.read_unread, harg4.read_unread,
    harg5.read_unread, harg6.read_unread, View.ld_unit_zero (S := S5000x128) zeroOffsets1,
    View.ld_unit_zero (S := S128x128) zeroOffsets1, View.ld_unit_zero (S := S1x128) zeroOffsets1]

/-- At a half's first point the second small block is the second carried row repeated. -/
theorem out1_Z_7_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i) (x0 : Vec F S5000x128 .f32) (x1 : Vec F S5000x128 .f32) (x2 : Vec F S128x128 .f32) (x3 : Vec F S128x128 .f32) (x4 : Vec F S1x128 .f32) :
    out1_Z_7 c i arg2 harg2 arg3 harg3 arg4 harg4 arg5 harg5 arg6 harg6 arg7 harg7 arg8 harg8 arg9 harg9 arg10 harg10 arg11 harg11 hc0 x0 x1 x2 x3 x4 = Gen.k1_pay3 (Gen.k1_pay1 (Gen.k1_pay5 (F := F)) (Gen.k1_pay8 x0 x1 x2 x3 x4)) := by
  unfold out1_Z_7
  rw [View.read_writes_eq_canon _ _ _ (cover1_Z_7 c i arg2 harg2 arg3 harg3 arg4 harg4 arg5 harg5 arg6 harg6 arg7 harg7 arg8 harg8 arg9 harg9 arg10 harg10 arg11 harg11 hc0 x0 x1 x2 x3 x4)]
  unfold kernelRun1_Z
  dsimp only
  sl_unfold_words
  rw [View.canon_cons_unit_zero (S := S8x128) zeroOffsets1]
  simp only [View.readCov_cons_toLoadRect, View.readAt_eq_ld, harg2.read_unread, harg3.read_unread, harg4.read_unread,
    harg5.read_unread, harg6.read_unread, View.ld_unit_zero (S := S5000x128) zeroOffsets1,
    View.ld_unit_zero (S := S128x128) zeroOffsets1, View.ld_unit_zero (S := S1x128) zeroOffsets1]

/-- At a later point the update's block is the update of the point's rows. -/
theorem out1_P_5_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    out1_P_5 c i arg2 harg2 arg3 harg3 arg4 harg4 arg5 harg5 arg6 harg6 arg7 harg7 arg8 harg8 arg9 harg9 arg10 harg10 arg11 harg11 hc0 x0 x1 x2 x3 x4 xs0 xs1 = Gen.k1_pay6 x0 x1 x2 x3 x4 := by
  unfold out1_P_5
  rw [View.read_writes_eq_canon _ _ _ (cover1_P_5 c i arg2 harg2 arg3 harg3 arg4 harg4 arg5 harg5 arg6 harg6 arg7 harg7 arg8 harg8 arg9 harg9 arg10 harg10 arg11 harg11 hc0 x0 x1 x2 x3 x4 xs0 xs1)]
  unfold kernelRun1_P
  dsimp only
  sl_unfold_words
  rw [View.canon_cons_unit_zero (S := S5000x128) zeroOffsets1]
  simp only [View.readCov_cons_toLoadRect, View.readAt_eq_ld, harg2.read_unread, harg3.read_unread, harg4.read_unread,
    harg5.read_unread, harg6.read_unread, harg10.read_unread, harg11.read_unread, View.ld_unit_zero (S := S5000x128) zeroOffsets1,
    View.ld_unit_zero (S := S128x128) zeroOffsets1, View.ld_unit_zero (S := S1x128) zeroOffsets1]

/-- At a later point the first carried row grows by the column sums of the update's block. -/
theorem sout1_P_0_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    sout1_P_0 c i arg2 harg2 arg3 harg3 arg4 harg4 arg5 harg5 arg6 harg6 arg7 harg7 arg8 harg8 arg9 harg9 arg10 harg10 arg11 harg11 hc0 x0 x1 x2 x3 x4 xs0 xs1 = Gen.k1_pay7 x0 x1 x2 x3 x4 xs0 := by
  unfold sout1_P_0
  rw [View.read_writes_eq_canon _ _ _ (scover1_P_0 c i arg2 harg2 arg3 harg3 arg4 harg4 arg5 harg5 arg6 harg6 arg7 harg7 arg8 harg8 arg9 harg9 arg10 harg10 arg11 harg11 hc0 x0 x1 x2 x3 x4 xs0 xs1)]
  unfold kernelRun1_P
  dsimp only
  sl_unfold_words
  rw [View.canon_cons_unit_zero (S := S1x128) zeroOffsets1]
  simp only [View.readCov_cons_toLoadRect, View.readAt_eq_ld, harg2.read_unread, harg3.read_unread, harg4.read_unread,
    harg5.read_unread, harg6.read_unread, harg10.read_unread, harg11.read_unread, View.ld_unit_zero (S := S5000x128) zeroOffsets1,
    View.ld_unit_zero (S := S128x128) zeroOffsets1, View.ld_unit_zero (S := S1x128) zeroOffsets1]

/-- At a later point the second carried row grows by the column sums of the squared update's block. -/
theorem sout1_P_1_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    sout1_P_1 c i arg2 harg2 arg3 harg3 arg4 harg4 arg5 harg5 arg6 harg6 arg7 harg7 arg8 harg8 arg9 harg9 arg10 harg10 arg11 harg11 hc0 x0 x1 x2 x3 x4 xs0 xs1 = Gen.k1_pay1 xs1 (Gen.k1_pay8 x0 x1 x2 x3 x4) := by
  unfold sout1_P_1
  rw [View.read_writes_eq_canon _ _ _ (scover1_P_1 c i arg2 harg2 arg3 harg3 arg4 harg4 arg5 harg5 arg6 harg6 arg7 harg7 arg8 harg8 arg9 harg9 arg10 harg10 arg11 harg11 hc0 x0 x1 x2 x3 x4 xs0 xs1)]
  unfold kernelRun1_P
  dsimp only
  sl_unfold_words
  rw [View.canon_cons_unit_zero (S := S1x128) zeroOffsets1]
  simp only [View.readCov_cons_toLoadRect, View.readAt_eq_ld, harg2.read_unread, harg3.read_unread, harg4.read_unread,
    harg5.read_unread, harg6.read_unread, harg10.read_unread, harg11.read_unread, View.ld_unit_zero (S := S5000x128) zeroOffsets1,
    View.ld_unit_zero (S := S128x128) zeroOffsets1, View.ld_unit_zero (S := S1x128) zeroOffsets1]

/-- At a later point the first small block is the first carried row repeated. -/
theorem out1_P_6_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    out1_P_6 c i arg2 harg2 arg3 harg3 arg4 harg4 arg5 harg5 arg6 harg6 arg7 harg7 arg8 harg8 arg9 harg9 arg10 harg10 arg11 harg11 hc0 x0 x1 x2 x3 x4 xs0 xs1 = Gen.k1_pay2 (Gen.k1_pay7 x0 x1 x2 x3 x4 xs0) := by
  unfold out1_P_6
  rw [View.read_writes_eq_canon _ _ _ (cover1_P_6 c i arg2 harg2 arg3 harg3 arg4 harg4 arg5 harg5 arg6 harg6 arg7 harg7 arg8 harg8 arg9 harg9 arg10 harg10 arg11 harg11 hc0 x0 x1 x2 x3 x4 xs0 xs1)]
  unfold kernelRun1_P
  dsimp only
  sl_unfold_words
  rw [View.canon_cons_unit_zero (S := S8x128) zeroOffsets1]
  simp only [View.readCov_cons_toLoadRect, View.readAt_eq_ld, harg2.read_unread, harg3.read_unread, harg4.read_unread,
    harg5.read_unread, harg6.read_unread, harg10.read_unread, harg11.read_unread, View.ld_unit_zero (S := S5000x128) zeroOffsets1,
    View.ld_unit_zero (S := S128x128) zeroOffsets1, View.ld_unit_zero (S := S1x128) zeroOffsets1]

/-- At a later point the second small block is the second carried row repeated. -/
theorem out1_P_7_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    out1_P_7 c i arg2 harg2 arg3 harg3 arg4 harg4 arg5 harg5 arg6 harg6 arg7 harg7 arg8 harg8 arg9 harg9 arg10 harg10 arg11 harg11 hc0 x0 x1 x2 x3 x4 xs0 xs1 = Gen.k1_pay3 (Gen.k1_pay1 xs1 (Gen.k1_pay8 x0 x1 x2 x3 x4)) := by
  unfold out1_P_7
  rw [View.read_writes_eq_canon _ _ _ (cover1_P_7 c i arg2 harg2 arg3 harg3 arg4 harg4 arg5 harg5 arg6 harg6 arg7 harg7 arg8 harg8 arg9 harg9 arg10 harg10 arg11 harg11 hc0 x0 x1 x2 x3 x4 xs0 xs1)]
  unfold kernelRun1_P
  dsimp only
  sl_unfold_words
  rw [View.canon_cons_unit_zero (S := S8x128) zeroOffsets1]
  simp only [View.readCov_cons_toLoadRect, View.readAt_eq_ld, harg2.read_unread, harg3.read_unread, harg4.read_unread,
    harg5.read_unread, harg6.read_unread, harg10.read_unread, harg11.read_unread, View.ld_unit_zero (S := S5000x128) zeroOffsets1,
    View.ld_unit_zero (S := S128x128) zeroOffsets1, View.ld_unit_zero (S := S1x128) zeroOffsets1]

end Cert.KernelIdeal.KVal

end
-- ==== Proof.KVal1b.lean ====
/-
  The second kernel region's values after each grid point, on the extended reals, and its first output array.

  The update `h` of all the rows is the two-product layer of the features, the aggregate, the two weight halves and the
  bias row. An entry of the update depends on its own row of the features and of the aggregate only, so the block the
  body stores at point `t` is rows `5000 t … 5000 t + 4999` of `h`; the twenty blocks tile the array.
  The two carried rows: at a half's first point they are the column sums of the block's update and of its squares; at a
  later point they grow by those sums. So after the point at position `n` the first row at column `q` is the sum, over
  the points of the half up to `n`, of the column sums of their blocks, and the second the same with squares; the small
  output blocks repeat the rows.
-/
import proofs.«105878_j7808250544365_2_alg».proof.Proof.KVal1a
import proofs.«105878_j7808250544365_2_alg».proof.Proof.PayRead
import proofs.«105878_j7808250544365_2_alg».proof.Proof.Spec
import Idealize.ShloMosaic.Lib.Pipeline.Value

set_option maxRecDepth 16384

noncomputable section

open scoped BigOperators

namespace Cert.KernelIdeal.KVal

open Cert.KernelIdeal Cert.KernelIdeal.Gen Cert.KernelIdeal.KF
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The update of all the rows. -/
abbrev H1 (c : Dev nD) : S100000x128.Idx → EReal :=
  Cert.Lib.Dense.lin2 (V c main_arg0 : S100000x128.Idx → EReal) (V c main_v26 : S128x128.Idx → EReal)
    (V c main_v25 : S100000x128.Idx → EReal) (V c main_v27 : S128x128.Idx → EReal)
    (Cert.Lib.RowLayers.rowVec (V c main_v28 : S1x128.Idx → EReal))

/-- The two-product layer on a block of rows at an entry is the layer of the whole arrays at the entry the block's entry
    sits at: the entry reads its own row of the two left operands, and the weights' columns and the bias at its column. -/
theorem lin2_block {N : Nat} (x0 x1 : Sage.Arr2 5000 128) (x2 x3 : Sage.Arr2 128 128) (x4 : Sage.Arr2 1 128)
    (A C : Sage.Arr2 N 128) (Wa Wb : Sage.Arr2 128 128) (R : Sage.Arr2 1 128)
    (j : (⟨2, ![5000, 128]⟩ : Shape).Idx) (i : (⟨2, ![N, 128]⟩ : Shape).Idx)
    (h0 : ∀ k : Fin 128, x0 (ix2 (j 0) k) = A (ix2 (i 0) k)) (h1 : ∀ k : Fin 128, x1 (ix2 (j 0) k) = C (ix2 (i 0) k))
    (h2 : ∀ k : Fin 128, x2 (ix2 k (j 1)) = Wa (ix2 k (i 1))) (h3 : ∀ k : Fin 128, x3 (ix2 k (j 1)) = Wb (ix2 k (i 1)))
    (h4 : x4 (ix2 (0 : Fin 1) (j 1)) = R (ix2 (0 : Fin 1) (i 1))) :
    Cert.Lib.Dense.lin2 x0 x2 x1 x3 (Cert.Lib.RowLayers.rowVec x4) j
      = Cert.Lib.Dense.lin2 A Wa C Wb (Cert.Lib.RowLayers.rowVec R) i := by
  show ((∑ k : Fin 128, x0 (ix2 (j 0) k) * x2 (ix2 k (j 1))) + (∑ k : Fin 128, x1 (ix2 (j 0) k) * x3 (ix2 k (j 1))))
      + x4 (ix2 (0 : Fin 1) (j 1))
    = ((∑ k : Fin 128, A (ix2 (i 0) k) * Wa (ix2 k (i 1))) + (∑ k : Fin 128, C (ix2 (i 0) k) * Wb (ix2 k (i 1))))
      + R (ix2 (0 : Fin 1) (i 1))
  rw [h4]
  refine congrArg (fun z => z + R (ix2 (0 : Fin 1) (i 1))) ?_
  exact congrArg₂ (· + ·) (Finset.sum_congr rfl fun k _ => by rw [h0 k, h2 k])
    (Finset.sum_congr rfl fun k _ => by rw [h1 k, h3 k])

/-- The printed index maps, decided over the grid: the features', the aggregate's and the update's blocks sit at block row
    `t`, the weights and the bias stay, the two small outputs sit at block row `t / 10`. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val / 10 ∧ win1_6.index t (1 : Fin 2) = 0
    ∧ win1_7.index t (0 : Fin 2) = t.val / 10 ∧ win1_7.index t (1 : Fin 2) = 0 :=
  (by decide +kernel : ∀ t : Fin grid1.N, _)

/-- The update of the block at point `t`, at row `k` of the block, is the update of all the rows at row `5000 t + k`. -/
theorem upd_entry (c : Dev nD) (t : Fin cfg1.N) (k : Fin 5000) (q : Fin 128) (n : Fin 100000)
    (hn : n.val = t.val * 5000 + k.val) :
    Gen.k1_pay6 (F := Ideal) (iblk1 V c 0 t) (iblk1 V c 1 t) (iblk1 V c 2 t) (iblk1 V c 3 t) (iblk1 V c 4 t) (ix2 k q) = H1 V c (ix2 n q) := by
  obtain ⟨e00, e01, e10, e11, e20, e21, e30, e31, e40, e41, e50, e51, e60, e61, e70, e71⟩ := blockIndex1 t
  refine (congrFun (PayRead.k1_pay6_eq (iblk1 V c 0 t) (iblk1 V c 1 t) (iblk1 V c 2 t) (iblk1 V c 3 t) (iblk1 V c 4 t)) (ix2 k q)).trans ?_
  refine lin2_block _ _ _ _ _ _ _ _ _ _ (ix2 k q) (ix2 n q) (fun kk => ?_) (fun kk => ?_) (fun kk => ?_) (fun kk => ?_) ?_
  · show V c main_arg0 (((cfg1.win 0).blk t).view.emb (ix2 k kk)) = V c main_arg0 (ix2 n kk)
    refine congrArg (V c main_arg0) ?_
    funext a; apply Fin.ext
    match a with
    | ⟨0, _⟩ => show win1_0.index t (0 : Fin 2) * 5000 + 1 * k.val = n.val; omega
    | ⟨1, _⟩ => show win1_0.index t (1 : Fin 2) * 128 + 1 * kk.val = kk.val; omega
  · show V c main_v25 (((cfg1.win 1).blk t).view.emb (ix2 k kk)) = V c main_v25 (ix2 n kk)
    refine congrArg (V c main_v25) ?_
    funext a; apply Fin.ext
    match a with
    | ⟨0, _⟩ => show win1_1.index t (0 : Fin 2) * 5000 + 1 * k.val = n.val; omega
    | ⟨1, _⟩ => show win1_1.index t (1 : Fin 2) * 128 + 1 * kk.val = kk.val; omega
  · show V c main_v26 (((cfg1.win 2).blk t).view.emb (ix2 kk q)) = V c main_v26 (ix2 kk q)
    refine congrArg (V c main_v26) ?_
    funext a; apply Fin.ext
    match a with
    | ⟨0, _⟩ => show win1_2.index t (0 : Fin 2) * 128 + 1 * kk.val = kk.val; omega
    | ⟨1, _⟩ => show win1_2.index t (1 : Fin 2) * 128 + 1 * q.val = q.val; omega
  · show V c main_v27 (((cfg1.win 3).blk t).view.emb (ix2 kk q)) = V c main_v27 (ix2 kk q)
    refine congrArg (V c main_v27) ?_
    funext a; apply Fin.ext
    match a with
    | ⟨0, _⟩ => show win1_3.index t (0 : Fin 2) * 128 + 1 * kk.val = kk.val; omega
    | ⟨1, _⟩ => show win1_3.index t (1 : Fin 2) * 128 + 1 * q.val = q.val; omega
  · show V c main_v28 (((cfg1.win 4).blk t).view.emb (ix2 (0 : Fin 1) q)) = V c main_v28 (ix2 (0 : Fin 1) q)
    refine congrArg (V c main_v28) ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega

/-! ## What the five buffers hold after a point, as the body's pure functions -/

/-- After a half's first point. -/
theorem outs1_Z (c : Dev nD) (t : Fin cfg1.N) (h0 : t.val % 10 = 0) :
    (outsAt1 V c t.val t.isLt).1 = Gen.k1_pay6 (F := Ideal) (iblk1 V c 0 t) (iblk1 V c 1 t) (iblk1 V c 2 t) (iblk1 V c 3 t) (iblk1 V c 4 t)
    ∧ (outsAt1 V c t.val t.isLt).2.1 = Gen.k1_pay2 (F := Ideal) (Gen.k1_pay7 (F := Ideal) (iblk1 V c 0 t) (iblk1 V c 1 t) (iblk1 V c 2 t) (iblk1 V c 3 t) (iblk1 V c 4 t) (Gen.k1_pay4 (F := Ideal)))
    ∧ (outsAt1 V c t.val t.isLt).2.2.1 = Gen.k1_pay3 (F := Ideal) (Gen.k1_pay1 (F := Ideal) (Gen.k1_pay5 (F := Ideal)) (Gen.k1_pay8 (F := Ideal) (iblk1 V c 0 t) (iblk1 V c 1 t) (iblk1 V c 2 t) (iblk1 V c 3 t) (iblk1 V c 4 t)))
    ∧ (outsAt1 V c t.val t.isLt).2.2.2.1 = Gen.k1_pay7 (F := Ideal) (iblk1 V c 0 t) (iblk1 V c 1 t) (iblk1 V c 2 t) (iblk1 V c 3 t) (iblk1 V c 4 t) (Gen.k1_pay4 (F := Ideal))
    ∧ (outsAt1 V c t.val t.isLt).2.2.2.2 = Gen.k1_pay1 (F := Ideal) (Gen.k1_pay5 (F := Ideal)) (Gen.k1_pay8 (F := Ideal) (iblk1 V c 0 t) (iblk1 V c 1 t) (iblk1 V c 2 t) (iblk1 V c 3 t) (iblk1 V c 4 t)) := by
  rw [outsAt1_Z V c t h0]
  dsimp only
  exact ⟨out1_Z_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t),
    out1_Z_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t),
    out1_Z_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t),
    sout1_Z_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t),
    sout1_Z_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t)⟩

/-- After a later point of a half. -/
theorem outs1_P (c : Dev nD) (t : Fin cfg1.N) (h0 : ¬t.val % 10 = 0) :
    (outsAt1 V c t.val t.isLt).1 = Gen.k1_pay6 (F := Ideal) (iblk1 V c 0 t) (iblk1 V c 1 t) (iblk1 V c 2 t) (iblk1 V c 3 t) (iblk1 V c 4 t)
    ∧ (outsAt1 V c t.val t.isLt).2.1 = Gen.k1_pay2 (F := Ideal) (Gen.k1_pay7 (F := Ideal) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1)
    ∧ (outsAt1 V c t.val t.isLt).2.2.1 = Gen.k1_pay3 (F := Ideal) (Gen.k1_pay1 (F := Ideal) (outsAt1 V c (t.val - 1) (Nat.lt_of_le_of_lt (Nat.sub_le _ _) t.isLt)).2.2.2.2 (Gen.k1_pay8 (F := Ideal) (iblk1 V c 0 t) (iblk1 V c 1 t) (iblk1 V c 2 t) (iblk1 V c 3 t) (iblk1 V c 4 t)))
    ∧ (outsAt1 V c t.val t.isLt).2.2.2.1 = Gen.k1_pay7 (F := Ideal) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1
    ∧ (outsAt1 V c t.val t.isLt).2.2.2.2 = Gen.k1_pay1 (F := Ideal) (outsAt1 V c (t.val - 1) (Nat.lt_of_le_of_lt (Nat.sub_le _ _) t.isLt)).2.2.2.2 (Gen.k1_pay8 (F := Ideal) (iblk1 V c 0 t) (iblk1 V c 1 t) (iblk1 V c 2 t) (iblk1 V c 3 t) (iblk1 V c 4 t)) := by
  rw [outsAt1_P V c t h0]
  dsimp only
  exact ⟨out1_P_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    out1_P_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    out1_P_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_P_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_P_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2⟩

/-- At every point the update's block is the update of the point's rows. -/
theorem outs1_upd (c : Dev nD) (t : Fin cfg1.N) : (outsAt1 V c t.val t.isLt).1 = Gen.k1_pay6 (F := Ideal) (iblk1 V c 0 t) (iblk1 V c 1 t) (iblk1 V c 2 t) (iblk1 V c 3 t) (iblk1 V c 4 t) := by
  by_cases h0 : t.val % 10 = 0
  · exact (outs1_Z V c t h0).1
  · exact (outs1_P V c t h0).1

end Cert.KernelIdeal.KVal

end
-- ==== Proof.KVal1c.lean ====
/-
  The second kernel region's first output array after the run: the update of all the rows.

  Every grid point writes back its block of the update, and the block at point `t` is rows `5000 t … 5000 t + 4999` of the
  update of all the rows; the twenty blocks tile the array (row `r` is in the block of point `r / 5000`).
-/
import proofs.«105878_j7808250544365_2_alg».proof.Proof.KVal1b
import Idealize.ShloMosaic.Lib.Pipeline.Value

set_option maxRecDepth 16384

noncomputable section

open scoped BigOperators

namespace Cert.KernelIdeal.KVal

open Cert.KernelIdeal Cert.KernelIdeal.Gen Cert.KernelIdeal.KF
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The update of the block at point `t` at an entry is the update of all the rows at the entry the block's entry sits at. -/
theorem upd_block (c : Dev nD) (t : Fin cfg1.N) (j : S5000x128.Idx) :
    Gen.k1_pay6 (F := Ideal) (iblk1 V c 0 t) (iblk1 V c 1 t) (iblk1 V c 2 t) (iblk1 V c 3 t) (iblk1 V c 4 t) j = H1 V c (((cfg1.win 5).blk t).view.emb j) := by
  obtain ⟨e00, e01, e10, e11, e20, e21, e30, e31, e40, e41, e50, e51, e60, e61, e70, e71⟩ := blockIndex1 t
  obtain ⟨p, q, rfl⟩ : ∃ (p : Fin 5000) (q : Fin 128), j = ix2 p q := ⟨j 0, j 1, eq_ix2 j⟩
  have ht : t.val < 20 := lt_of_lt_of_eq t.isLt N_1
  have hlt : t.val * 5000 + p.val < 100000 := by have := p.isLt; omega
  refine (upd_entry V c t p q ⟨t.val * 5000 + p.val, hlt⟩ rfl).trans (congrArg (H1 V c) ?_)
  funext a; apply Fin.ext
  match a with
  | ⟨0, _⟩ => show t.val * 5000 + p.val = win1_5.index t (0 : Fin 2) * 5000 + 1 * p.val; omega
  | ⟨1, _⟩ => show q.val = win1_5.index t (1 : Fin 2) * 128 + 1 * q.val; omega

/-- What point `t` writes back to the first output is block `t` of the update of all the rows. -/
theorem flushed1_5_eq (c : Dev nD) (t : Fin cfg1.N) :
    (KF.dat1 V c).flushed 5 t = ((cfg1.win 5).blk t).view.read (Elt Ideal) (H1 V c) := by
  show (cfg1.win 5).cut (grid1.coords t) ((KF.dat1 V c).after 5 t) = _
  rw [KF.after1_5, outs1_upd V c t]
  funext j
  exact upd_block V c t j

/-- Every block of rows is some point's. -/
theorem blockOnto1_5 : ∀ q0 : Fin 20, ∃ t : Fin cfg1.N, win1_5.index t = ![q0.val, 0] :=
  (by decide +kernel : ∀ q0 : Fin 20, ∃ t : Fin grid1.N, win1_5.index t = ![q0.val, 0])

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v29_0).slice (win1_5.rect t)).set ↔ _
  rw [View.set_slice_whole, Rect.mem_set_unit]
  exact Iff.rfl

/-- Every index of the array is in some point's block: row `r` is in the block of point `r / 5000`. -/
theorem cover1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := blockOnto1_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's first output array after the run is the update of all the rows. -/
theorem final1_5 (c : Dev nD) : (KF.dat1 V c).arrAt 5 cfg1.N
    = Cert.Lib.Dense.lin2 (V c main_arg0 : S100000x128.Idx → EReal) (V c main_v26 : S128x128.Idx → EReal)
        (V c main_v25 : S100000x128.Idx → EReal) (V c main_v27 : S128x128.Idx → EReal)
        (Cert.Lib.RowLayers.rowVec (V c main_v28 : S1x128.Idx → EReal)) :=
  (KF.dat1 V c).arrAt_eq_of_cover 5 (H1 V c) (fun t _ => flushed1_5_eq V c t) cover1_5

end Cert.KernelIdeal.KVal

end
-- ==== Proof.KVal1d.lean ====
/-
  The second kernel region's two small output arrays after the run: the column sums of the update and of its squares,
  each as two partial sums over the two halves of the rows.

  After the point at position `n` the first carried row at column `q` is the sum, over the points of the half up to `n`, of
  the column sums of their blocks of the update (a half's first point starts from the zero row, a later point adds its
  block's sums to what the point before left); the second row the same with squares. Each small output block repeats
  the row; a half's last point writes it back, the first half's to rows `0 … 7`, the second's to rows `8 … 15`. So row 0
  plus row 8 of the array is the sum over both halves of the sums over their ten blocks of 5000 rows: the sum over all
  the rows.
-/
import proofs.«105878_j7808250544365_2_alg».proof.Proof.KVal1b
import proofs.«105878_j7808250544365_2_alg».proof.Proof.KLaw
import Idealize.ShloMosaic.Lib.Pipeline.Value

set_option maxRecDepth 16384

noncomputable section

open scoped BigOperators

namespace Cert.KernelIdeal.KVal

open Cert.KernelIdeal Cert.KernelIdeal.Gen Cert.KernelIdeal.KF
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The update's column entries by row number, and the blocks' column sums -/

/-- The update's entry at row `n` and column `q`, zero past the last row. -/
def colAt (c : Dev nD) (n : ℕ) (q : Fin 128) : EReal :=
  if hlt : n < 100000 then H1 V c (ix2 ⟨n, hlt⟩ q) else 0

/-- The column sum of block `t` of the update. -/
def S1 (c : Dev nD) (t : ℕ) (q : Fin 128) : EReal := ∑ r : Fin 5000, colAt V c (t * 5000 + r.val) q

/-- The column sum of the squares of block `t` of the update. -/
def S2 (c : Dev nD) (t : ℕ) (q : Fin 128) : EReal :=
  ∑ r : Fin 5000, colAt V c (t * 5000 + r.val) q * colAt V c (t * 5000 + r.val) q

/-- The update of the block at point `t`, at row `k` of the block, is the update's entry at row `5000 t + k`. -/
theorem upd_colAt (c : Dev nD) (t : Fin cfg1.N) (k : Fin 5000) (q : Fin 128) :
    Gen.k1_pay6 (F := Ideal) (iblk1 V c 0 t) (iblk1 V c 1 t) (iblk1 V c 2 t) (iblk1 V c 3 t) (iblk1 V c 4 t) (ix2 k q) = colAt V c (t.val * 5000 + k.val) q := by
  have ht : t.val < 20 := lt_of_lt_of_eq t.isLt N_1
  have hlt : t.val * 5000 + k.val < 100000 := by have := k.isLt; omega
  unfold colAt
  rw [dif_pos hlt]
  exact upd_entry V c t k q ⟨t.val * 5000 + k.val, hlt⟩ rfl

/-- The column sums of the block the body stores at point `t`. -/
theorem colsum1 (c : Dev nD) (t : Fin cfg1.N) (q : Fin 128) :
    ∑ k : Fin 5000, Gen.k1_pay6 (F := Ideal) (iblk1 V c 0 t) (iblk1 V c 1 t) (iblk1 V c 2 t) (iblk1 V c 3 t) (iblk1 V c 4 t) (ix2 k q) = S1 V c t.val q :=
  Finset.sum_congr rfl fun k _ => upd_colAt V c t k q

/-- The column sums of the squares of the block the body stores at point `t`. -/
theorem colsum2 (c : Dev nD) (t : Fin cfg1.N) (q : Fin 128) :
    ∑ k : Fin 5000, Gen.k1_pay8 (F := Ideal) (iblk1 V c 0 t) (iblk1 V c 1 t) (iblk1 V c 2 t) (iblk1 V c 3 t) (iblk1 V c 4 t) (ix2 k q) = S2 V c t.val q :=
  Finset.sum_congr rfl fun k _ =>
    (PayRead.k1_pay8_apply (iblk1 V c 0 t) (iblk1 V c 1 t) (iblk1 V c 2 t) (iblk1 V c 3 t) (iblk1 V c 4 t) (ix2 k q)).trans
      (congrArg₂ (· * ·) (upd_colAt V c t k q) (upd_colAt V c t k q))

/-! ## The running sums over a half -/

/-- A half's first point: zero plus the block's sum is the sum over the one point of the half so far. -/
theorem range_first (b : ℕ → EReal) (n : ℕ) (h : n % 10 = 0) :
    0 + b n = ∑ j ∈ Finset.range (n % 10 + 1), b (n - n % 10 + j) := by
  rw [h, zero_add, Finset.sum_range_one]
  rfl

/-- A later point: the sum over the half's points before plus the block's sum is the sum over the half's points so far. -/
theorem range_step (b : ℕ → EReal) (n : ℕ) (h : ¬n % 10 = 0) :
    (∑ j ∈ Finset.range ((n - 1) % 10 + 1), b (n - 1 - (n - 1) % 10 + j)) + b n
      = ∑ j ∈ Finset.range (n % 10 + 1), b (n - n % 10 + j) := by
  have e1 : n % 10 = (n - 1) % 10 + 1 := by omega
  have e2 : n - n % 10 = n - 1 - (n - 1) % 10 := by omega
  have e3 : n - 1 - (n - 1) % 10 + ((n - 1) % 10 + 1) = n := by omega
  rw [e2, e1, Finset.sum_range_succ _ ((n - 1) % 10 + 1), e3]

/-- Each small output block is its carried row, as just left, repeated. -/
theorem outs1_small (c : Dev nD) (t : Fin cfg1.N) :
    (outsAt1 V c t.val t.isLt).2.1 = Gen.k1_pay2 (F := Ideal) (outsAt1 V c t.val t.isLt).2.2.2.1
    ∧ (outsAt1 V c t.val t.isLt).2.2.1 = Gen.k1_pay3 (F := Ideal) (outsAt1 V c t.val t.isLt).2.2.2.2 := by
  by_cases h0 : t.val % 10 = 0
  · obtain ⟨_, h6, h7, hr0, hr1⟩ := outs1_Z V c t h0
    rw [hr0, hr1]
    exact ⟨h6, h7⟩
  · obtain ⟨_, h6, h7, hr0, hr1⟩ := outs1_P V c t h0
    rw [hr0, hr1]
    exact ⟨h6, h7⟩

/-- After the point at position `n` the first carried row at column `q` is the sum, over the points of the half up to `n`,
    of their blocks' column sums. -/
theorem row0_eq (c : Dev nD) (q : Fin 128) : ∀ (n : ℕ) (hn : n < cfg1.N),
    (outsAt1 V c n hn).2.2.2.1 (ix2 (0 : Fin 1) q) = ∑ j ∈ Finset.range (n % 10 + 1), S1 V c (n - n % 10 + j) q := by
  intro n
  induction n using Nat.strong_induction_on with
  | _ n ih =>
    intro hn
    by_cases h0 : n % 10 = 0
    · have hZ : (outsAt1 V c n hn).2.2.2.1 = Gen.k1_pay7 (F := Ideal) (iblk1 V c 0 ⟨n, hn⟩) (iblk1 V c 1 ⟨n, hn⟩) (iblk1 V c 2 ⟨n, hn⟩) (iblk1 V c 3 ⟨n, hn⟩) (iblk1 V c 4 ⟨n, hn⟩) (Gen.k1_pay4 (F := Ideal)) := (outs1_Z V c ⟨n, hn⟩ h0).2.2.2.1
      refine ((congrFun hZ (ix2 (0 : Fin 1) q)).trans (PayRead.k1_pay7_apply (iblk1 V c 0 ⟨n, hn⟩) (iblk1 V c 1 ⟨n, hn⟩) (iblk1 V c 2 ⟨n, hn⟩) (iblk1 V c 3 ⟨n, hn⟩) (iblk1 V c 4 ⟨n, hn⟩) (Gen.k1_pay4 (F := Ideal)) q)).trans ?_
      rw [PayRead.k1_pay4_apply q, colsum1 V c ⟨n, hn⟩ q]
      exact range_first (fun t => S1 V c t q) n h0
    · have hP : (outsAt1 V c n hn).2.2.2.1 = Gen.k1_pay7 (F := Ideal) (iblk1 V c 0 ⟨n, hn⟩) (iblk1 V c 1 ⟨n, hn⟩) (iblk1 V c 2 ⟨n, hn⟩) (iblk1 V c 3 ⟨n, hn⟩) (iblk1 V c 4 ⟨n, hn⟩) (outsAt1 V c (n - 1) (Nat.lt_of_le_of_lt (Nat.sub_le _ _) hn)).2.2.2.1 :=
        (outs1_P V c ⟨n, hn⟩ h0).2.2.2.1
      refine ((congrFun hP (ix2 (0 : Fin 1) q)).trans (PayRead.k1_pay7_apply (iblk1 V c 0 ⟨n, hn⟩) (iblk1 V c 1 ⟨n, hn⟩) (iblk1 V c 2 ⟨n, hn⟩) (iblk1 V c 3 ⟨n, hn⟩) (iblk1 V c 4 ⟨n, hn⟩) (outsAt1 V c (n - 1) (Nat.lt_of_le_of_lt (Nat.sub_le _ _) hn)).2.2.2.1 q)).trans ?_
      rw [ih (n - 1) (by omega) (Nat.lt_of_le_of_lt (Nat.sub_le _ _) hn), colsum1 V c ⟨n, hn⟩ q]
      exact range_step (fun t => S1 V c t q) n h0

/-- After the point at position `n` the second carried row at column `q` is the sum, over the points of the half up to `n`,
    of their blocks' column sums. -/
theorem row1_eq (c : Dev nD) (q : Fin 128) : ∀ (n : ℕ) (hn : n < cfg1.N),
    (outsAt1 V c n hn).2.2.2.2 (ix2 (0 : Fin 1) q) = ∑ j ∈ Finset.range (n % 10 + 1), S2 V c (n - n % 10 + j) q := by
  intro n
  induction n using Nat.strong_induction_on with
  | _ n ih =>
    intro hn
    by_cases h0 : n % 10 = 0
    · have hZ : (outsAt1 V c n hn).2.2.2.2 = Gen.k1_pay1 (F := Ideal) (Gen.k1_pay5 (F := Ideal)) (Gen.k1_pay8 (F := Ideal) (iblk1 V c 0 ⟨n, hn⟩) (iblk1 V c 1 ⟨n, hn⟩) (iblk1 V c 2 ⟨n, hn⟩) (iblk1 V c 3 ⟨n, hn⟩) (iblk1 V c 4 ⟨n, hn⟩)) := (outs1_Z V c ⟨n, hn⟩ h0).2.2.2.2
      refine ((congrFun hZ (ix2 (0 : Fin 1) q)).trans (PayRead.k1_pay1_apply (Gen.k1_pay5 (F := Ideal)) (Gen.k1_pay8 (F := Ideal) (iblk1 V c 0 ⟨n, hn⟩) (iblk1 V c 1 ⟨n, hn⟩) (iblk1 V c 2 ⟨n, hn⟩) (iblk1 V c 3 ⟨n, hn⟩) (iblk1 V c 4 ⟨n, hn⟩)) q)).trans ?_
      rw [PayRead.k1_pay5_apply q, colsum2 V c ⟨n, hn⟩ q]
      exact range_first (fun t => S2 V c t q) n h0
    · have hP : (outsAt1 V c n hn).2.2.2.2 = Gen.k1_pay1 (F := Ideal) (outsAt1 V c (n - 1) (Nat.lt_of_le_of_lt (Nat.sub_le _ _) hn)).2.2.2.2 (Gen.k1_pay8 (F := Ideal) (iblk1 V c 0 ⟨n, hn⟩) (iblk1 V c 1 ⟨n, hn⟩) (iblk1 V c 2 ⟨n, hn⟩) (iblk1 V c 3 ⟨n, hn⟩) (iblk1 V c 4 ⟨n, hn⟩)) :=
        (outs1_P V c ⟨n, hn⟩ h0).2.2.2.2
      refine ((congrFun hP (ix2 (0 : Fin 1) q)).trans (PayRead.k1_pay1_apply (outsAt1 V c (n - 1) (Nat.lt_of_le_of_lt (Nat.sub_le _ _) hn)).2.2.2.2 (Gen.k1_pay8 (F := Ideal) (iblk1 V c 0 ⟨n, hn⟩) (iblk1 V c 1 ⟨n, hn⟩) (iblk1 V c 2 ⟨n, hn⟩) (iblk1 V c 3 ⟨n, hn⟩) (iblk1 V c 4 ⟨n, hn⟩)) q)).trans ?_
      rw [ih (n - 1) (by omega) (Nat.lt_of_le_of_lt (Nat.sub_le _ _) hn), colsum2 V c ⟨n, hn⟩ q]
      exact range_step (fun t => S2 V c t q) n h0

/-! ## The first small output -/

/-- What the first small output's array ends holding: at rows `0 … 7` the first half's total, at rows `8 … 15` the second's. -/
def G6 (c : Dev nD) : S16x128.Idx → EReal :=
  fun i => ∑ j ∈ Finset.range 10, S1 V c ((if (i 0).val < 8 then 0 else 10) + j) (i 1)

/-- The block a half's last point writes back, at an entry, is the half's total at the entry's column. -/
theorem small6_block (c : Dev nD) (t : Fin cfg1.N) (h9 : t.val % 10 = 9) (j : S8x128.Idx) :
    (outsAt1 V c t.val t.isLt).2.1 j = G6 V c (((cfg1.win 6).blk t).view.emb j) := by
  obtain ⟨e00, e01, e10, e11, e20, e21, e30, e31, e40, e41, e50, e51, e60, e61, e70, e71⟩ := blockIndex1 t
  obtain ⟨p, q, rfl⟩ : ∃ (p : Fin 8) (q : Fin 128), j = ix2 p q := ⟨j 0, j 1, eq_ix2 j⟩
  have ht : t.val < 20 := lt_of_lt_of_eq t.isLt N_1
  have hp : p.val < 8 := p.isLt
  refine (congrFun (outs1_small V c t).1 (ix2 p q)).trans ?_
  refine (PayRead.k1_pay2_apply _ p q).trans ?_
  refine (row0_eq V c q t.val t.isLt).trans ?_
  have e1 : ((((cfg1.win 6).blk t).view.emb (ix2 p q)) 1 : Fin 128) = q :=
    Fin.ext (by show win1_6.index t (1 : Fin 2) * 128 + 1 * q.val = q.val; omega)
  have e0 : (if ((((cfg1.win 6).blk t).view.emb (ix2 p q)) 0).val < 8 then 0 else 10) = t.val - t.val % 10 := by
    show (if win1_6.index t (0 : Fin 2) * 8 + 1 * p.val < 8 then 0 else 10) = t.val - t.val % 10
    split <;> omega
  show _ = ∑ j ∈ Finset.range 10, S1 V c ((if ((((cfg1.win 6).blk t).view.emb (ix2 p q)) 0).val < 8 then 0 else 10) + j)
    ((((cfg1.win 6).blk t).view.emb (ix2 p q)) 1)
  rw [e0, e1, h9]

/-- What a flushing point writes back to the first small output is its block of `G6`. -/
theorem flushed1_6_eq (c : Dev nD) (t : Fin cfg1.N) (hf : (cfg1.win 6).flush t = true) :
    (KF.dat1 V c).flushed 6 t = ((cfg1.win 6).blk t).view.read (Elt Ideal) (G6 V c) := by
  have h9 : t.val % 10 = 9 := (flush1_6 t).mp hf
  show (cfg1.win 6).cut (grid1.coords t) ((KF.dat1 V c).after 6 t) = _
  rw [KF.after1_6]
  funext j
  exact small6_block V c t h9 j

/-- Each of the two blocks of eight rows is written back by some half's last point. -/
theorem blockOnto1_6 : ∀ q0 : Fin 2, ∃ t : Fin cfg1.N, (cfg1.win 6).flush t = true ∧ win1_6.index t = ![q0.val, 0] :=
  (by decide +kernel : ∀ q0 : Fin 2, ∃ t : Fin grid1.N, win1_6.flush t = true ∧ win1_6.index t = ![q0.val, 0])

/-- An index of the array is in point `t`'s block iff each coordinate is in the block's range on its axis. -/
theorem mem_blk1_6 (t : Fin cfg1.N) (i : S16x128.Idx) :
    i ∈ ((cfg1.win 6).blk t).view.set ↔ ∀ a : Fin 2, win1_6.index t a * S8x128.size a ≤ (i a).val
      ∧ (i a).val < win1_6.index t a * S8x128.size a + S8x128.size a := by
  show i ∈ ((View.whole main_v29_1).slice (win1_6.rect t)).set ↔ _
  rw [View.set_slice_whole, Rect.mem_set_unit]
  exact Iff.rfl

/-- Every index of the array is in a flushing point's block. -/
theorem cover1_6 (i : S16x128.Idx) :
    ∃ t : Fin cfg1.N, (cfg1.win 6).flush t = true ∧ i ∈ ((cfg1.win 6).blk t).view.set := by
  have hi0 : (i 0).val < 16 := (i 0).isLt
  have hi1 : (i 1).val < 128 := (i 1).isLt
  obtain ⟨t, hf, ht⟩ := blockOnto1_6 ⟨(i 0).val / 8, by omega⟩
  have q0 : win1_6.index t (0 : Fin 2) = (i 0).val / 8 := congrFun ht 0
  have q1 : win1_6.index t (1 : Fin 2) = 0 := congrFun ht 1
  refine ⟨t, hf, ?_⟩
  rw [mem_blk1_6]
  intro a
  match a with
  | ⟨0, _⟩ => show win1_6.index t (0 : Fin 2) * 8 ≤ (i 0).val ∧ (i 0).val < win1_6.index t (0 : Fin 2) * 8 + 8; omega
  | ⟨1, _⟩ => show win1_6.index t (1 : Fin 2) * 128 ≤ (i 1).val ∧ (i 1).val < win1_6.index t (1 : Fin 2) * 128 + 128; omega

/-- The first small output's array after the run. -/
theorem final1_6 (c : Dev nD) : (KF.dat1 V c).arrAt 6 cfg1.N = G6 V c :=
  (KF.dat1 V c).arrAt_eq_of_cover 6 (G6 V c) (flushed1_6_eq V c) cover1_6

/-! ## The second small output -/

/-- What the second small output's array ends holding: at rows `0 … 7` the first half's total, at rows `8 … 15` the second's. -/
def G7 (c : Dev nD) : S16x128.Idx → EReal :=
  fun i => ∑ j ∈ Finset.range 10, S2 V c ((if (i 0).val < 8 then 0 else 10) + j) (i 1)

/-- The block a half's last point writes back, at an entry, is the half's total at the entry's column. -/
theorem small7_block (c : Dev nD) (t : Fin cfg1.N) (h9 : t.val % 10 = 9) (j : S8x128.Idx) :
    (outsAt1 V c t.val t.isLt).2.2.1 j = G7 V c (((cfg1.win 7).blk t).view.emb j) := by
  obtain ⟨e00, e01, e10, e11, e20, e21, e30, e31, e40, e41, e50, e51, e60, e61, e70, e71⟩ := blockIndex1 t
  obtain ⟨p, q, rfl⟩ : ∃ (p : Fin 8) (q : Fin 128), j = ix2 p q := ⟨j 0, j 1, eq_ix2 j⟩
  have ht : t.val < 20 := lt_of_lt_of_eq t.isLt N_1
  have hp : p.val < 8 := p.isLt
  refine (congrFun (outs1_small V c t).2 (ix2 p q)).trans ?_
  refine (PayRead.k1_pay3_apply _ p q).trans ?_
  refine (row1_eq V c q t.val t.isLt).trans ?_
  have e1 : ((((cfg1.win 7).blk t).view.emb (ix2 p q)) 1 : Fin 128) = q :=
    Fin.ext (by show win1_7.index t (1 : Fin 2) * 128 + 1 * q.val = q.val; omega)
  have e0 : (if ((((cfg1.win 7).blk t).view.emb (ix2 p q)) 0).val < 8 then 0 else 10) = t.val - t.val % 10 := by
    show (if win1_7.index t (0 : Fin 2) * 8 + 1 * p.val < 8 then 0 else 10) = t.val - t.val % 10
    split <;> omega
  show _ = ∑ j ∈ Finset.range 10, S2 V c ((if ((((cfg1.win 7).blk t).view.emb (ix2 p q)) 0).val < 8 then 0 else 10) + j)
    ((((cfg1.win 7).blk t).view.emb (ix2 p q)) 1)
  rw [e0, e1, h9]

/-- What a flushing point writes back to the second small output is its block of `G7`. -/
theorem flushed1_7_eq (c : Dev nD) (t : Fin cfg1.N) (hf : (cfg1.win 7).flush t = true) :
    (KF.dat1 V c).flushed 7 t = ((cfg1.win 7).blk t).view.read (Elt Ideal) (G7 V c) := by
  have h9 : t.val % 10 = 9 := (flush1_7 t).mp hf
  show (cfg1.win 7).cut (grid1.coords t) ((KF.dat1 V c).after 7 t) = _
  rw [KF.after1_7]
  funext j
  exact small7_block V c t h9 j

/-- Each of the two blocks of eight rows is written back by some half's last point. -/
theorem blockOnto1_7 : ∀ q0 : Fin 2, ∃ t : Fin cfg1.N, (cfg1.win 7).flush t = true ∧ win1_7.index t = ![q0.val, 0] :=
  (by decide +kernel : ∀ q0 : Fin 2, ∃ t : Fin grid1.N, win1_7.flush t = true ∧ win1_7.index t = ![q0.val, 0])

/-- An index of the array is in point `t`'s block iff each coordinate is in the block's range on its axis. -/
theorem mem_blk1_7 (t : Fin cfg1.N) (i : S16x128.Idx) :
    i ∈ ((cfg1.win 7).blk t).view.set ↔ ∀ a : Fin 2, win1_7.index t a * S8x128.size a ≤ (i a).val
      ∧ (i a).val < win1_7.index t a * S8x128.size a + S8x128.size a := by
  show i ∈ ((View.whole main_v29_2).slice (win1_7.rect t)).set ↔ _
  rw [View.set_slice_whole, Rect.mem_set_unit]
  exact Iff.rfl

/-- Every index of the array is in a flushing point's block. -/
theorem cover1_7 (i : S16x128.Idx) :
    ∃ t : Fin cfg1.N, (cfg1.win 7).flush t = true ∧ i ∈ ((cfg1.win 7).blk t).view.set := by
  have hi0 : (i 0).val < 16 := (i 0).isLt
  have hi1 : (i 1).val < 128 := (i 1).isLt
  obtain ⟨t, hf, ht⟩ := blockOnto1_7 ⟨(i 0).val / 8, by omega⟩
  have q0 : win1_7.index t (0 : Fin 2) = (i 0).val / 8 := congrFun ht 0
  have q1 : win1_7.index t (1 : Fin 2) = 0 := congrFun ht 1
  refine ⟨t, hf, ?_⟩
  rw [mem_blk1_7]
  intro a
  match a with
  | ⟨0, _⟩ => show win1_7.index t (0 : Fin 2) * 8 ≤ (i 0).val ∧ (i 0).val < win1_7.index t (0 : Fin 2) * 8 + 8; omega
  | ⟨1, _⟩ => show win1_7.index t (1 : Fin 2) * 128 ≤ (i 1).val ∧ (i 1).val < win1_7.index t (1 : Fin 2) * 128 + 128; omega

/-- The second small output's array after the run. -/
theorem final1_7 (c : Dev nD) : (KF.dat1 V c).arrAt 7 cfg1.N = G7 V c :=
  (KF.dat1 V c).arrAt_eq_of_cover 7 (G7 V c) (flushed1_7_eq V c) cover1_7

/-! ## Row 0 plus row 8 is the sum over all the rows -/

/-- The two halves' totals of block sums add up to the sum over all the rows. -/
theorem halves_total (f : Fin 100000 → EReal) (b : ℕ → EReal)
    (hb : ∀ (t : ℕ) (ht : t < 20), b t = ∑ r : Fin 5000, f ⟨t * 5000 + r.val, by have := r.isLt; omega⟩) :
    (∑ j ∈ Finset.range 10, b (0 + j)) + (∑ j ∈ Finset.range 10, b (10 + j)) = ∑ n : Fin 100000, f n := by
  rw [Finset.sum_range, Finset.sum_range, ← KLaw.sum_halves_blocks f]
  refine congrArg₂ (· + ·) (Finset.sum_congr rfl fun j _ => ?_) (Finset.sum_congr rfl fun j _ => ?_)
  · refine (hb (0 + j.val) (by have := j.isLt; omega)).trans ?_
    refine Finset.sum_congr rfl fun r _ => congrArg f (Fin.ext ?_)
    show (0 + j.val) * 5000 + r.val = (0 * 10 + j.val) * 5000 + r.val
    omega
  · refine (hb (10 + j.val) (by have := j.isLt; omega)).trans ?_
    refine Finset.sum_congr rfl fun r _ => congrArg f (Fin.ext ?_)
    show (10 + j.val) * 5000 + r.val = (1 * 10 + j.val) * 5000 + r.val
    omega

/-- Row 0 plus row 8 of the first small output is the column sum of the update over all the rows. -/
theorem sums1 (c : Dev nD) (s1 : S16x128.Idx → EReal) (hs : s1 = (KF.dat1 V c).arrAt 6 cfg1.N) (q : Fin 128) :
    s1 (ix2 (0 : Fin 16) q) + s1 (ix2 (8 : Fin 16) q) = ∑ n : Fin 100000, H1 V c (ix2 n q) := by
  rw [hs, final1_6 V c]
  show (∑ j ∈ Finset.range 10, S1 V c (0 + j) q) + (∑ j ∈ Finset.range 10, S1 V c (10 + j) q) = _
  refine halves_total (fun n => H1 V c (ix2 n q)) (fun t => S1 V c t q) fun t ht => ?_
  refine Finset.sum_congr rfl fun r _ => ?_
  have hlt : t * 5000 + r.val < 100000 := by have := r.isLt; omega
  unfold colAt
  rw [dif_pos hlt]

/-- Row 0 plus row 8 of the second small output is the column sum of the update's squares over all the rows. -/
theorem sums2 (c : Dev nD) (s2 : S16x128.Idx → EReal) (hs : s2 = (KF.dat1 V c).arrAt 7 cfg1.N) (q : Fin 128) :
    s2 (ix2 (0 : Fin 16) q) + s2 (ix2 (8 : Fin 16) q) = ∑ n : Fin 100000, H1 V c (ix2 n q) * H1 V c (ix2 n q) := by
  rw [hs, final1_7 V c]
  show (∑ j ∈ Finset.range 10, S2 V c (0 + j) q) + (∑ j ∈ Finset.range 10, S2 V c (10 + j) q) = _
  refine halves_total (fun n => H1 V c (ix2 n q) * H1 V c (ix2 n q)) (fun t => S2 V c t q) fun t ht => ?_
  refine Finset.sum_congr rfl fun r _ => ?_
  have hlt : t * 5000 + r.val < 100000 := by have := r.isLt; omega
  unfold colAt
  rw [dif_pos hlt]

end Cert.KernelIdeal.KVal

end
-- ==== Proof.KVal2.lean ====
/-
  The third kernel region's output array after the run, as one function of the arrays the region is entered from.

  Each grid point writes back a block of 5000 rows: entry by entry, the update's entry less the mean row's, times the
  reciprocal square root of the variance row's plus epsilon, times the scale row's, plus the shift row's, its positive
  part, plus the features' entry. An entry depends on its own row of the update and of the features and on the four
  rows at its column, so the block at point `t` is rows `5000 t … 5000 t + 4999` of that function of the whole arrays.
  The twenty blocks tile the array (row `r` is in the block of point `r / 5000`).
-/
import proofs.«105878_j7808250544365_2_alg».proof.Proof.KF2
import proofs.«105878_j7808250544365_2_alg».proof.Proof.PayRead
import proofs.«105878_j7808250544365_2_alg».proof.Proof.Spec
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block rectangle, as a constant function. -/
theorem zeroOffsets2 : (![0, 0] : Fin 2 → Nat) = fun _ => 0 := funext fun a => by fin_cases a <;> rfl

/-- The body's value on a block of rows at an entry is the normalised output of the whole arrays at the entry the
    block's entry sits at: the entry reads its own row of the update and of the features, and the four rows at its column. -/
theorem bnOut_block {N : Nat} (v0 : Sage.Arr2 1 128) (v5 : Sage.Arr2 5000 128) (v7 v13 v17 : Sage.Arr2 1 128) (v23 : Sage.Arr2 5000 128)
    (H X : Sage.Arr2 N 128) (Mu Va Ga Be : Sage.Arr2 1 128)
    (j : (⟨2, ![5000, 128]⟩ : Shape).Idx) (i : (⟨2, ![N, 128]⟩ : Shape).Idx)
    (h5 : v5 j = H i) (h23 : v23 j = X i)
    (h7 : v7 (ix2 (0 : Fin 1) (j 1)) = Mu (ix2 (0 : Fin 1) (i 1))) (h0 : v0 (ix2 (0 : Fin 1) (j 1)) = Va (ix2 (0 : Fin 1) (i 1)))
    (h13 : v13 (ix2 (0 : Fin 1) (j 1)) = Ga (ix2 (0 : Fin 1) (i 1))) (h17 : v17 (ix2 (0 : Fin 1) (j 1)) = Be (ix2 (0 : Fin 1) (i 1))) :
    Gen.k2_pay1 (F := Ideal) v0 v5 v7 v13 v17 v23 j
      = Sage.bnOut H X (fun q => Mu (ix2 (0 : Fin 1) q)) (fun q => Va (ix2 (0 : Fin 1) q))
          (Cert.Lib.RowLayers.rowVec Ga) (Cert.Lib.RowLayers.rowVec Be) i := by
  obtain ⟨p, q, rfl⟩ : ∃ (p : Fin 5000) (q : Fin 128), j = ix2 p q := ⟨j 0, j 1, eq_ix2 j⟩
  have h7' : v7 (ix2 (0 : Fin 1) q) = Mu (ix2 (0 : Fin 1) (i 1)) := h7
  have h0' : v0 (ix2 (0 : Fin 1) q) = Va (ix2 (0 : Fin 1) (i 1)) := h0
  have h13' : v13 (ix2 (0 : Fin 1) q) = Ga (ix2 (0 : Fin 1) (i 1)) := h13
  have h17' : v17 (ix2 (0 : Fin 1) q) = Be (ix2 (0 : Fin 1) (i 1)) := h17
  rw [PayRead.k2_pay1_apply, h5, h23, h7', h0', h13', h17']
  rfl

/-- The printed index maps, decided over the grid: the update's, the features' and the output's blocks move down the rows
    with the point, the four rows stay. -/
theorem blockIndex2 : ∀ t : Fin cfg2.N, win2_0.index t (0 : Fin 2) = win2_6.index t (0 : Fin 2)
    ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every block of rows is some point's. -/
theorem blockOnto2 : ∀ q0 : Fin 20, ∃ t : Fin cfg2.N, win2_6.index t = ![q0.val, 0] :=
  (by decide +kernel : ∀ q0 : Fin 20, ∃ t : Fin grid2.N, win2_6.index t = ![q0.val, 0])

/-- The array the region's output ends holding: the normalised output of the whole update and features and the four rows. -/
abbrev G2 (c : Dev nD) : S100000x128.Idx → EReal :=
  Sage.bnOut (V c main_v29_0 : S100000x128.Idx → EReal) (V c main_arg0 : S100000x128.Idx → EReal)
    (fun q => (V c main_v37 : S1x128.Idx → EReal) (ix2 (0 : Fin 1) q)) (fun q => (V c main_v43 : S1x128.Idx → EReal) (ix2 (0 : Fin 1) q))
    (Cert.Lib.RowLayers.rowVec (V c main_v44 : S1x128.Idx → EReal)) (Cert.Lib.RowLayers.rowVec (V c main_v45 : S1x128.Idx → EReal))

/-- What point `t` writes back is block `t` of the normalised output of the whole arrays. -/
theorem flushed2_eq (c : Dev nD) (t : Fin cfg2.N) :
    (KF.dat2 V c).flushed 6 t = ((cfg2.win 6).blk t).view.read (Elt Ideal) (G2 V c) := by
  show (cfg2.win 6).cut (grid2.coords t) ((KF.dat2 V c).after 6 t) = _
  rw [KF.after2_6]
  unfold KF.out2_6
  rw [View.canon_unit_zero zeroOffsets2]
  simp only [View.ld_unit_zero (S := S5000x128) zeroOffsets2, View.ld_unit_zero (S := S1x128) zeroOffsets2]
  obtain ⟨e0, e1, e2, e3, e4, e5, e6, e7, e8, e9, e10, e11, e12, e13⟩ := blockIndex2 t
  funext j
  show Gen.k2_pay1 (F := Ideal) (KF.iblk2 V c 3 t) (KF.iblk2 V c 0 t) (KF.iblk2 V c 2 t) (KF.iblk2 V c 4 t) (KF.iblk2 V c 5 t)
      (KF.iblk2 V c 1 t) j = G2 V c (((cfg2.win 6).blk t).view.emb j)
  refine bnOut_block _ _ _ _ _ _ _ _ _ _ _ _ j (((cfg2.win 6).blk t).view.emb j) ?_ ?_ ?_ ?_ ?_ ?_
  · show V c main_v29_0 (((cfg2.win 0).blk t).view.emb j) = V c main_v29_0 (((cfg2.win 6).blk t).view.emb j)
    refine congrArg (V c main_v29_0) ?_
    funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  · show V c main_arg0 (((cfg2.win 1).blk t).view.emb j) = V c main_arg0 (((cfg2.win 6).blk t).view.emb j)
    refine congrArg (V c main_arg0) ?_
    funext a; apply Fin.ext
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 128 + 1 * (j 1).val = win2_6.index t (1 : Fin 2) * 128 + 1 * (j 1).val; omega
  · show V c main_v37 (((cfg2.win 2).blk t).view.emb (ix2 (0 : Fin 1) (j 1))) = V c main_v37 (ix2 (0 : Fin 1) ((((cfg2.win 6).blk t).view.emb j) 1))
    refine congrArg (V c main_v37) ?_
    funext a; apply Fin.ext
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  · show V c main_v43 (((cfg2.win 3).blk t).view.emb (ix2 (0 : Fin 1) (j 1))) = V c main_v43 (ix2 (0 : Fin 1) ((((cfg2.win 6).blk t).view.emb j) 1))
    refine congrArg (V c main_v43) ?_
    funext a; apply Fin.ext
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  · show V c main_v44 (((cfg2.win 4).blk t).view.emb (ix2 (0 : Fin 1) (j 1))) = V c main_v44 (ix2 (0 : Fin 1) ((((cfg2.win 6).blk t).view.emb j) 1))
    refine congrArg (V c main_v44) ?_
    funext a; apply Fin.ext
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  · show V c main_v45 (((cfg2.win 5).blk t).view.emb (ix2 (0 : Fin 1) (j 1))) = V c main_v45 (ix2 (0 : Fin 1) ((((cfg2.win 6).blk t).view.emb j) 1))
    refine congrArg (V c main_v45) ?_
    funext a; apply Fin.ext
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega

/-- An index of the array is in point `t`'s block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v46).slice (win2_6.rect t)).set ↔ _
  rw [View.set_slice_whole, Rect.mem_set_unit]
  exact Iff.rfl

/-- Every index of the array is in some point's block: row `r` is in the block of point `r / 5000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := blockOnto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The third region's output array after the run is the normalised output of the whole update and features and the four rows. -/
theorem final2 (c : Dev nD) : (KF.dat2 V c).arrAt 6 cfg2.N
    = Sage.bnOut (V c main_v29_0 : S100000x128.Idx → EReal) (V c main_arg0 : S100000x128.Idx → EReal)
        (fun q => (V c main_v37 : S1x128.Idx → EReal) (ix2 (0 : Fin 1) q)) (fun q => (V c main_v43 : S1x128.Idx → EReal) (ix2 (0 : Fin 1) q))
        (Cert.Lib.RowLayers.rowVec (V c main_v44 : S1x128.Idx → EReal)) (Cert.Lib.RowLayers.rowVec (V c main_v45 : S1x128.Idx → EReal)) :=
  (KF.dat2 V c).arrAt_eq_of_cover 6 (G2 V c) (fun t _ => flushed2_eq V c t) cover2

end Cert.KernelIdeal.KVal

end
-- ==== Proof.KOut.lean ====
/-
  The kernel program's result as a function of its arguments, at the ideal instance.

  The run leaves every buffer at the last boundary's contents, a fold through the program: the first region leaves
  the edge embedding `pe` of the edge weights; the host statements turn it, the node features and the edge index
  into the mean aggregation; the second region leaves the linear update `h` of the features and the aggregation
  (the 256-row weight taken as its two halves) and, in rows 0 and 8 of two small arrays, the column sums of `h` and
  of its squares over the two halves of the rows; the host statements make the mean row and the clamped variance
  row of them; the third region normalises `h` by these rows, applies the affine map and the positive part and
  adds the features. On real entries the clamped variance is the mean of the squared deviations, so the result is
  the centred normalisation of `h`.
-/
import proofs.«105878_j7808250544365_2_alg».proof.Proof.KRun
import proofs.«105878_j7808250544365_2_alg».proof.Proof.KFrame
import proofs.«105878_j7808250544365_2_alg».proof.Proof.KTerm
import proofs.«105878_j7808250544365_2_alg».proof.Proof.KTermRead
import proofs.«105878_j7808250544365_2_alg».proof.Proof.KLaw
import proofs.«105878_j7808250544365_2_alg».proof.Proof.KVal0
import proofs.«105878_j7808250544365_2_alg».proof.Proof.KVal1c
import proofs.«105878_j7808250544365_2_alg».proof.Proof.KVal1d
import proofs.«105878_j7808250544365_2_alg».proof.Proof.KVal2
import proofs.«105878_j7808250544365_2_alg».proof.Proof.Reals
import proofs.«105878_j7808250544365_2_alg».proof.Proof.Spec
import Idealize.ShloMosaic.Lib.StableHlo.Run
import Idealize.ShloMosaic.PureOps.Ideal

set_option maxRecDepth 16384

noncomputable section

namespace Cert.KernelIdeal.KOut

open Cert.KernelIdeal Cert.KernelIdeal.Gen Cert.KernelIdeal.KF
open Idealize.ShloMosaic Idealize.ShloMosaic.TcCoe Idealize.ShloMosaic.Tactic Idealize.ShloMosaic.ValueIdx Idealize.SL.Sem
open Sage.Reals (real)

variable (m : (ℓ : Loc nD τ sig) → Buf (Elt Ideal) ℓ) (ρ : Dev nD → PrngReg)

/-- The result buffer's contents after the run. -/
def kOut (c : Dev nD) : Buf (Elt Ideal) ((c.tc : Thread nD τ).loc main_v46) := W6 m ρ c (Proc.devRef .tc main_v46)

/-- Every weakly fair execution terminates with the result at `kOut` and the arguments as launched. -/
theorem run : θ_run (defs (F := Ideal)) (onTc (τ := τ) (main (F := Ideal))) ⟨m, fun _ => 0, ρ⟩ (fun r => ∀ c : Dev nD,
      r.2.mem ((c.tc : Thread nD τ).loc main_v46) = kOut m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v46 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c)⟩) (run_all m ρ)

/-! ## The fold read level by level -/

theorem W1_keep (c : Dev nD) (b : Ref sig .tc) (hb : b ∉ hostOps0_W) : W1 m ρ c (Proc.devRef .tc b) = m ((c.tc : Thread nD τ).loc b) :=
  StableHlo.after_of_writes_sub hostOps0 _ hostOps0_writes hb
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W5_keep (c : Dev nD) (b : Ref sig .tc) (hb : b ∉ hostOps2_W) : W5 m ρ c (Proc.devRef .tc b) = W4 m ρ c (Proc.devRef .tc b) :=
  StableHlo.after_of_writes_sub hostOps2 _ hostOps2_writes hb

/-- The source index row and the destination index row of the edge index. -/
abbrev srcRow (c : Dev nD) : IVec S1000000 32 :=
  shapeCast S1000000 (extractStridedSlice S1x1000000 ![0, 0] (m ((c.tc : Thread nD τ).loc main_arg1)) Facts₀.slices_S2x1000000_S1x1000000_0_0) Facts₀.shapeCasts_S1x1000000_S1000000
abbrev dstRow (c : Dev nD) : IVec S1000000 32 :=
  shapeCast S1000000 (extractStridedSlice S1x1000000 ![1, 0] (m ((c.tc : Thread nD τ).loc main_arg1)) Facts₀.slices_S2x1000000_S1x1000000_1_0) Facts₀.shapeCasts_S1x1000000_S1000000

/-- The source index row after the first stretch. -/
theorem W1_v1 (c : Dev nD) : W1 m ρ c (Proc.devRef .tc main_v1) = srcRow m c := by
  show StableHlo.after hostOps0 (W0 m ρ c) (Proc.devRef .tc main_v1) = _
  after_results
  rfl
/-- The destination index row after the first stretch. -/
theorem W1_v3 (c : Dev nD) : W1 m ρ c (Proc.devRef .tc main_v3) = dstRow m c := by
  show StableHlo.after hostOps0 (W0 m ρ c) (Proc.devRef .tc main_v3) = _
  after_results
  rfl

/-- An argument's buffer at the first region's exit. -/
theorem W2_arg0 (c : Dev nD) : W2 m ρ c (Proc.devRef .tc main_arg0) = m ((c.tc : Thread nD τ).loc main_arg0) :=
  (W2_of_ne m ρ c main_arg0 (by decide)).trans (W1_keep m ρ c main_arg0 (by decide))
theorem W2_arg5 (c : Dev nD) : W2 m ρ c (Proc.devRef .tc main_arg5) = m ((c.tc : Thread nD τ).loc main_arg5) :=
  (W2_of_ne m ρ c main_arg5 (by decide)).trans (W1_keep m ρ c main_arg5 (by decide))
theorem W2_arg6 (c : Dev nD) : W2 m ρ c (Proc.devRef .tc main_arg6) = m ((c.tc : Thread nD τ).loc main_arg6) :=
  (W2_of_ne m ρ c main_arg6 (by decide)).trans (W1_keep m ρ c main_arg6 (by decide))
theorem W2_v1 (c : Dev nD) : W2 m ρ c (Proc.devRef .tc main_v1) = srcRow m c := (W2_of_ne m ρ c main_v1 (by decide)).trans (W1_v1 m ρ c)
theorem W2_v3 (c : Dev nD) : W2 m ρ c (Proc.devRef .tc main_v3) = dstRow m c := (W2_of_ne m ρ c main_v3 (by decide)).trans (W1_v3 m ρ c)

/-- The first region leaves the edge embedding. -/
theorem W2_v4 (c : Dev nD) : W2 m ρ c (Proc.devRef .tc main_v4) = Sage.pe (m ((c.tc : Thread nD τ).loc main_arg2)) (m ((c.tc : Thread nD τ).loc main_arg3)) (m ((c.tc : Thread nD τ).loc main_arg4)) := by
  refine (W2_arr m ρ c 3).trans ((KVal.final0 (V1 m ρ) c).trans ?_)
  rw [show V1 m ρ c main_arg2 = m ((c.tc : Thread nD τ).loc main_arg2) from W1_keep m ρ c main_arg2 (by decide),
    show V1 m ρ c main_arg3 = m ((c.tc : Thread nD τ).loc main_arg3) from W1_keep m ρ c main_arg3 (by decide),
    show V1 m ρ c main_arg4 = m ((c.tc : Thread nD τ).loc main_arg4) from W1_keep m ρ c main_arg4 (by decide)]

set_option maxHeartbeats 4000000 in
/-- The second stretch makes the mean aggregation of the features, the edge index and the embedding. -/
theorem W3_v25 (c : Dev nD) : W3 m ρ c (Proc.devRef .tc main_v25)
    = KTerm.aggK (F := Ideal) (m ((c.tc : Thread nD τ).loc main_arg0)) (m ((c.tc : Thread nD τ).loc main_arg1)) (Sage.pe (m ((c.tc : Thread nD τ).loc main_arg2)) (m ((c.tc : Thread nD τ).loc main_arg3)) (m ((c.tc : Thread nD τ).loc main_arg4))) := by
  show StableHlo.after hostOps1 (W2 m ρ c) (Proc.devRef .tc main_v25) = _
  after_results_simp
  rw [W2_arg0 m ρ c, W2_v1 m ρ c, W2_v3 m ρ c, W2_v4 m ρ c]
  rfl
theorem W3_v26 (c : Dev nD) : W3 m ρ c (Proc.devRef .tc main_v26) = KTerm.wTop (F := Ideal) (m ((c.tc : Thread nD τ).loc main_arg5)) := by
  show StableHlo.after hostOps1 (W2 m ρ c) (Proc.devRef .tc main_v26) = _
  after_results
  rw [W2_arg5 m ρ c]
  rfl
theorem W3_v27 (c : Dev nD) : W3 m ρ c (Proc.devRef .tc main_v27) = KTerm.wBot (F := Ideal) (m ((c.tc : Thread nD τ).loc main_arg5)) := by
  show StableHlo.after hostOps1 (W2 m ρ c) (Proc.devRef .tc main_v27) = _
  after_results
  rw [W2_arg5 m ρ c]
  rfl
theorem W3_v28 (c : Dev nD) : W3 m ρ c (Proc.devRef .tc main_v28) = KTerm.bRow (F := Ideal) (m ((c.tc : Thread nD τ).loc main_arg6)) := by
  show StableHlo.after hostOps1 (W2 m ρ c) (Proc.devRef .tc main_v28) = _
  after_results
  rw [W2_arg6 m ρ c]
  rfl
theorem W3_arg0 (c : Dev nD) : W3 m ρ c (Proc.devRef .tc main_arg0) = m ((c.tc : Thread nD τ).loc main_arg0) :=
  (W3_keep m ρ c main_arg0 (by decide)).trans (W2_arg0 m ρ c)

/-- The linear update of the features and the aggregation. -/
abbrev hK (c : Dev nD) : Sage.Arr2 100000 128 :=
  Sage.lin (m ((c.tc : Thread nD τ).loc main_arg0)) (KTerm.aggK (F := Ideal) (m ((c.tc : Thread nD τ).loc main_arg0)) (m ((c.tc : Thread nD τ).loc main_arg1)) (Sage.pe (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6))

/-- What the second region's update is, in the arguments. -/
theorem lin_V3 (c : Dev nD) :
    Cert.Lib.Dense.lin2 (V3 m ρ c main_arg0 : S100000x128.Idx → EReal) (V3 m ρ c main_v26 : S128x128.Idx → EReal) (V3 m ρ c main_v25 : S100000x128.Idx → EReal) (V3 m ρ c main_v27 : S128x128.Idx → EReal) (Cert.Lib.RowLayers.rowVec (V3 m ρ c main_v28 : S1x128.Idx → EReal))
      = hK m c := by
  rw [show V3 m ρ c main_arg0 = m ((c.tc : Thread nD τ).loc main_arg0) from W3_arg0 m ρ c,
    show V3 m ρ c main_v26 = KTerm.wTop (F := Ideal) (m ((c.tc : Thread nD τ).loc main_arg5)) from W3_v26 m ρ c,
    show V3 m ρ c main_v25 = _ from W3_v25 m ρ c,
    show V3 m ρ c main_v27 = KTerm.wBot (F := Ideal) (m ((c.tc : Thread nD τ).loc main_arg5)) from W3_v27 m ρ c,
    show V3 m ρ c main_v28 = KTerm.bRow (F := Ideal) (m ((c.tc : Thread nD τ).loc main_arg6)) from W3_v28 m ρ c,
    KTermRead.wTop_eq, KTermRead.wBot_eq, KTermRead.bRow_rowVec]
  rfl

/-- The second region leaves the update. -/
theorem W4_v29_0 (c : Dev nD) : W4 m ρ c (Proc.devRef .tc main_v29_0) = hK m c :=
  (W4_arr m ρ c 5).trans ((KVal.final1_5 (V3 m ρ) c).trans (lin_V3 m ρ c))
/-- The second region's two small results. -/
abbrev s1K (c : Dev nD) : FVec Ideal S16x128 .f32 := W4 m ρ c (Proc.devRef .tc main_v29_1)
abbrev s2K (c : Dev nD) : FVec Ideal S16x128 .f32 := W4 m ρ c (Proc.devRef .tc main_v29_2)

/-- Rows 0 and 8 of its second result add up to the column sums of the update. -/
theorem W4_sums1 (c : Dev nD) (q : Fin 128) :
    s1K m ρ c (ix2 (0 : Fin 16) q) + s1K m ρ c (ix2 (8 : Fin 16) q) = ∑ n : Fin 100000, hK m c (ix2 n q) := by
  rw [← lin_V3 m ρ c]
  exact KVal.sums1 (V3 m ρ) c (s1K m ρ c) (W4_arr m ρ c 6) q
/-- Rows 0 and 8 of its third result add up to the column sums of the update's squares. -/
theorem W4_sums2 (c : Dev nD) (q : Fin 128) :
    s2K m ρ c (ix2 (0 : Fin 16) q) + s2K m ρ c (ix2 (8 : Fin 16) q) = ∑ n : Fin 100000, hK m c (ix2 n q) * hK m c (ix2 n q) := by
  rw [← lin_V3 m ρ c]
  exact KVal.sums2 (V3 m ρ) c (s2K m ρ c) (W4_arr m ρ c 7) q
theorem W4_arg (c : Dev nD) (b : Ref sig .tc) (h1 : ∀ w, Pipeline.arrRef spec1 w ≠ b) (h2 : b ∉ hostOps1_W) (h3 : ∀ w, Pipeline.arrRef spec0 w ≠ b) (h4 : b ∉ hostOps0_W) :
    W4 m ρ c (Proc.devRef .tc b) = m ((c.tc : Thread nD τ).loc b) :=
  (W4_of_ne m ρ c b h1).trans ((W3_keep m ρ c b h2).trans ((W2_of_ne m ρ c b h3).trans (W1_keep m ρ c b h4)))
theorem W4_arg0 (c : Dev nD) : W4 m ρ c (Proc.devRef .tc main_arg0) = m ((c.tc : Thread nD τ).loc main_arg0) :=
  (W4_arr m ρ c 0).trans (((dat1 (V3 m ρ) c).arrAt_in 0 rfl _).trans ((A_eq1 (V3 m ρ) c 0).trans (W3_arg0 m ρ c)))

/-- The third stretch makes the mean row, the clamped variance row, and the scale and shift rows. -/
theorem W5_v37 (c : Dev nD) : W5 m ρ c (Proc.devRef .tc main_v37) = KTerm.meanRow (F := Ideal) (s1K m ρ c) := by
  show StableHlo.after hostOps2 (W4 m ρ c) (Proc.devRef .tc main_v37) = _
  after_results
  rfl
theorem W5_v43 (c : Dev nD) : W5 m ρ c (Proc.devRef .tc main_v43) = KTerm.varRow (F := Ideal) (s1K m ρ c) (s2K m ρ c) := by
  show StableHlo.after hostOps2 (W4 m ρ c) (Proc.devRef .tc main_v43) = _
  after_results
  rfl
theorem W5_v44 (c : Dev nD) : W5 m ρ c (Proc.devRef .tc main_v44) = KTerm.gRow (F := Ideal) (m ((c.tc : Thread nD τ).loc main_arg7)) := by
  show StableHlo.after hostOps2 (W4 m ρ c) (Proc.devRef .tc main_v44) = _
  after_results
  rw [W4_arg m ρ c main_arg7 (by decide) (by decide) (by decide) (by decide)]
  rfl
theorem W5_v45 (c : Dev nD) : W5 m ρ c (Proc.devRef .tc main_v45) = KTerm.beRow (F := Ideal) (m ((c.tc : Thread nD τ).loc main_arg8)) := by
  show StableHlo.after hostOps2 (W4 m ρ c) (Proc.devRef .tc main_v45) = _
  after_results
  rw [W4_arg m ρ c main_arg8 (by decide) (by decide) (by decide) (by decide)]
  rfl
theorem W5_v29_0 (c : Dev nD) : W5 m ρ c (Proc.devRef .tc main_v29_0) = hK m c :=
  (W5_keep m ρ c main_v29_0 (by decide)).trans (W4_v29_0 m ρ c)
theorem W5_arg0 (c : Dev nD) : W5 m ρ c (Proc.devRef .tc main_arg0) = m ((c.tc : Thread nD τ).loc main_arg0) :=
  (W5_keep m ρ c main_arg0 (by decide)).trans (W4_arg0 m ρ c)

/-- A vector made a row and read back as a vector is the vector. -/
theorem rowVec_gRow (a : FVec Ideal S128 .f32) : Cert.Lib.RowLayers.rowVec (KTerm.gRow (F := Ideal) a) = a := by
  funext j
  exact (KTermRead.gRow_apply a (j 0)).trans (congrArg a (eq_ix1 j).symm)
theorem rowVec_beRow (a : FVec Ideal S128 .f32) : Cert.Lib.RowLayers.rowVec (KTerm.beRow (F := Ideal) a) = a := by
  funext j
  exact (KTermRead.beRow_apply a (j 0)).trans (congrArg a (eq_ix1 j).symm)

/-- THE RESULT: on real arguments, the centred normalisation of the update, its affine map, positive part and residual. -/
theorem kOut_eq (c : Dev nD) (hx : real (m ((c.tc : Thread nD τ).loc main_arg0))) (hew : real (m ((c.tc : Thread nD τ).loc main_arg2))) (hw1 : real (m ((c.tc : Thread nD τ).loc main_arg3)))
    (hw2 : real (m ((c.tc : Thread nD τ).loc main_arg4))) (hW : real (m ((c.tc : Thread nD τ).loc main_arg5))) (hb : real (m ((c.tc : Thread nD τ).loc main_arg6))) :
    kOut m ρ c = Sage.bnOut (hK m c) (m ((c.tc : Thread nD τ).loc main_arg0)) (Sage.colMean (hK m c)) (Sage.varCentred (hK m c)) (m ((c.tc : Thread nD τ).loc main_arg7)) (m ((c.tc : Thread nD τ).loc main_arg8)) := by
  have hh : real (hK m c) :=
    Sage.Reals.lin_real hx (KTermRead.aggK_real _ _ _ hx (Sage.Reals.pe_real hew hw1 hw2)) hW hb
  unfold kOut
  refine (W6_arr m ρ c 6).trans ((KVal.final2 (V5 m ρ) c).trans ?_)
  rw [show V5 m ρ c main_v29_0 = hK m c from W5_v29_0 m ρ c,
    show V5 m ρ c main_arg0 = m ((c.tc : Thread nD τ).loc main_arg0) from W5_arg0 m ρ c,
    show V5 m ρ c main_v37 = KTerm.meanRow (F := Ideal) (s1K m ρ c) from W5_v37 m ρ c,
    show V5 m ρ c main_v43 = KTerm.varRow (F := Ideal) (s1K m ρ c) (s2K m ρ c) from W5_v43 m ρ c,
    show V5 m ρ c main_v44 = KTerm.gRow (F := Ideal) (m ((c.tc : Thread nD τ).loc main_arg7)) from W5_v44 m ρ c,
    show V5 m ρ c main_v45 = KTerm.beRow (F := Ideal) (m ((c.tc : Thread nD τ).loc main_arg8)) from W5_v45 m ρ c,
    rowVec_gRow, rowVec_beRow]
  exact KLaw.bn_rows_eq (hK m c) _ _ _ (s1K m ρ c) (s2K m ρ c) hh (W4_sums1 m ρ c) (W4_sums2 m ρ c)

end Cert.KernelIdeal.KOut

end
-- ==== Proof.BKF0.lean ====
/-
  The first kernel region (the edge embedding) at the contents `V` it is entered from: each window's block at a grid
  point, what one run of the body leaves in the output block — the embedding of the point's 10000 edges, one store
  covering the block —, the body's triple, and the proof data the pipeline's launch theorem takes.
-/
import proofs.«105878_j7808250544365_2_alg».proof.Proof.Gen.Kernel.Launch
import proofs.«105878_j7808250544365_2_alg».proof.Proof.Gen.Kernel.Skeleton
import proofs.«105878_j7808250544365_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x2 := Rect.unit (s := S10000x2) ![0, 0] S10000x2.size inb_S10000x2_S10000x2_0_0
abbrev r0_1 : Rect S2x128 := Rect.unit (s := S2x128) ![0, 0] S2x128.size inb_S2x128_S2x128_0_0
abbrev r0_2 : Rect S128x128 := Rect.unit (s := S128x128) ![0, 0] S128x128.size inb_S128x128_S128x128_0_0
abbrev r0_3 : Rect S10000x128 := Rect.unit (s := S10000x128) ![0, 0] S10000x128.size inb_S10000x128_S10000x128_0_0

/-- The output block after the body: its one store, of the embedding of the three input blocks. -/
def out0_3 (x0 : Vec F S10000x2 .f32) (x1 : Vec F S2x128 .f32) (x2 : Vec F S128x128 .f32) : Vec F S10000x128 .f32 :=
  View.canon [⟨r0_3, k0_pay1 (View.ld x0 r0_0) (View.ld x1 r0_1) (View.ld x2 r0_2)⟩]

/-- The store covers the block. -/
theorem cover0_3 (p0 : Vec F S10000x128 .f32) (y : S10000x128.Idx) :
    ∃ pc ∈ ([⟨r0_3, p0⟩] : List (View.Piece (Elt F) S10000x128 .f32)), y ∈ pc.1.set :=
  View.cover_of_tiled [⟨r0_3, p0⟩] S10000x128.size (by rfl) y

set_option maxHeartbeats 1000000 in
/-- The body on whole staging memrefs: the inputs' blocks are kept, the output's block ends at `out0_3` of them. -/
theorem sound_kernel0 (c : Dev nD) (E : Set ℕ) (i : grid0.Coords) (arg1 : Memref sig .tc .vmem S10000x2 .f32) (harg1 : arg1.IsWhole) (arg2 : Memref sig .tc .vmem S2x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x2 .f32) (x1 : Vec F S2x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__edge_msg_kernel i arg1 harg1 arg2 harg2 arg3 harg3 arg4 harg4) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.BKF1a.lean ====
/-
  The second kernel region's body (the linear update and the running column sums) run once, in its two cases.

  The body keeps two 1 × 128 rows between grid points: the running sums of the update's columns and of their
  squares over the rows of the current half. At the first point of a half (second grid coordinate 0) it first
  zeroes both rows; at every point it stores the update of the point's 5000 rows, adds that block's column sums
  to the rows, and stores each row, repeated over 8 rows, into the two small output blocks. A run of the body is
  stated with the stores each buffer ends with as the witness: the lists are whatever the run finds.
-/
import proofs.«105878_j7808250544365_2_alg».proof.Proof.Gen.Kernel.Launch
import proofs.«105878_j7808250544365_2_alg».proof.Proof.Gen.Kernel.Skeleton
import proofs.«105878_j7808250544365_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero. -/
abbrev cond1_0 (i : grid1.Coords) : Prop := (Scalar.cmpi .ne (Scalar.extui (Scalar.cmpi .eq (BitVec.ofNat 32 (i 1).val) 0#32)) 0#32) = 1#1

/-- It holds at the first point of each half. -/
theorem hcond1_0 : ∀ t : Fin cfg1.N, cond1_0 (grid1.coords t) ↔ t.val % 10 = 0 :=
  (by decide +kernel : ∀ t : Fin grid1.N, cond1_0 (grid1.coords t) ↔ t.val % 10 = 0)

set_option maxHeartbeats 4000000 in
/-- The body at a first point of a half: the two carried rows enter at anything. -/
noncomputable def kernelRun1_Z (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S8x128 .f32)) (L7 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sage_linear_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sage_linear_kernel_eq_skeleton]; unfold cc1__sage_linear_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

set_option maxHeartbeats 4000000 in
/-- The body at a later point of a half: the two carried rows enter at what the point before left. -/
noncomputable def kernelRun1_P (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S8x128 .f32)) (L7 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sage_linear_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sage_linear_kernel_eq_skeleton]; unfold cc1__sage_linear_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.KF

end
-- ==== Proof.BKF1.lean ====
/-
  The second kernel region at the contents `V` it is entered from: what the three output blocks and the two carried
  1 × 128 rows hold after each grid point (a recursion over the points: a half's first point starts the rows afresh,
  a later point continues from what the point before left), the region's invariant — before the first point every
  scoped buffer at anything, afterwards the two rows at the recursion's values —, the body's triple at a generic
  point and the proof data the pipeline's launch theorem takes.
-/
import proofs.«105878_j7808250544365_2_alg».proof.Proof.BKF1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view
abbrev VO1_5 : View sig .tc .vmem S5000x128 .f32 := (Memref.whole cc1_stg5_0 : Memref sig .tc .vmem S5000x128 .f32).view
abbrev VO1_6 : View sig .tc .vmem S8x128 .f32 := (Memref.whole cc1_stg6_0 : Memref sig .tc .vmem S8x128 .f32).view
abbrev VO1_7 : View sig .tc .vmem S8x128 .f32 := (Memref.whole cc1_stg7_0 : Memref sig .tc .vmem S8x128 .f32).view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)

/-- The other scoped buffers of the core (the other two kernels' staging buffers), each at anything. -/
abbrev others1 (c : Dev nD) : sProp 𝕄 :=
  bigSepL [cc0_stg0_0, cc0_stg0_1, cc0_stg1_0, cc0_stg2_0, cc0_stg3_0, cc0_stg3_1, cc2_stg0_0, cc2_stg0_1, cc2_stg1_0, cc2_stg1_1, cc2_stg2_0, cc2_stg3_0, cc2_stg4_0, cc2_stg5_0, cc2_stg6_0, cc2_stg6_1]
    fun b => iprop(∃ f : Buf (Elt F) ((c : Thread nD τ).loc b), ((c : Thread nD τ).loc b) ↦{fullShare} f)

/-- The class invariant with the two carried rows named: each owned at some contents, beside the other scoped buffers
    and the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA
  rw [Pipeline.scopedRest_eq_of_list spec1 c [cc1_scratch0, cc1_scratch1, cc0_stg0_0, cc0_stg0_1, cc0_stg1_0, cc0_stg2_0, cc0_stg3_0, cc0_stg3_1, cc2_stg0_0, cc2_stg0_1, cc2_stg1_0, cc2_stg1_1, cc2_stg2_0, cc2_stg3_0, cc2_stg4_0, cc2_stg5_0, cc2_stg6_0, cc2_stg6_1] (by decide) (by decide)]
  simp only [scM1_0, scM1_1, owns_whole]
  try rfl

/-! ## What each case leaves -/

theorem cover1_Z_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).1 S5000x128.size (by sl_kernel_rfl) y

def out1_Z_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S5000x128 .f32 :=
  VO1_5.read (Elt F) (VO1_5.writes (Elt F) VO1_5.junk (kernelRun1_Z c i arg2 harg2 arg3 harg3 arg4 harg4 arg5 harg5 arg6 harg6 arg7 harg7 arg8 harg8 arg9 harg9 arg10 harg10 arg11 harg11 hc0 x0 x1 x2 x3 x4).1)

theorem cover1_Z_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S8x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.1 S8x128.size (by sl_kernel_rfl) y

def out1_Z_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S8x128 .f32 :=
  VO1_6.read (Elt F) (VO1_6.writes (Elt F) VO1_6.junk (kernelRun1_Z c i arg2 harg2 arg3 harg3 arg4 harg4 arg5 harg5 arg6 harg6 arg7 harg7 arg8 harg8 arg9 harg9 arg10 harg10 arg11 harg11 hc0 x0 x1 x2 x3 x4).2.1)

theorem cover1_Z_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S8x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.1 S8x128.size (by sl_kernel_rfl) y

def out1_Z_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S8x128 .f32 :=
  VO1_7.read (Elt F) (VO1_7.writes (Elt F) VO1_7.junk (kernelRun1_Z c i arg2 harg2 arg3 harg3 arg4 harg4 arg5 harg5 arg6 harg6 arg7 harg7 arg8 harg8 arg9 harg9 arg10 harg10 arg11 harg11 hc0 x0 x1 x2 x3 x4).2.2.1)

theorem scover1_Z_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.2.1 S1x128.size (by sl_kernel_rfl) y

def sout1_Z_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S1x128 .f32 :=
  VS1_0.read (Elt F) (VS1_0.writes (Elt F) VS1_0.junk (kernelRun1_Z c i arg2 harg2 arg3 harg3 arg4 harg4 arg5 harg5 arg6 harg6 arg7 harg7 arg8 harg8 arg9 harg9 arg10 harg10 arg11 harg11 hc0 x0 x1 x2 x3 x4).2.2.2.1)

theorem scover1_Z_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun1_Z c i arg2 harg2 arg3 harg3 arg4 harg4 arg5 harg5 arg6 harg6 arg7 harg7 arg8 harg8 arg9 harg9 arg10 harg10 arg11 harg11 hc0 x0 x1 x2 x3 x4).2.2.2.2.1, y ∈ pc.1.set :=
  View.cover_of_tiledL (kernelRun1_Z c i arg2 harg2 arg3 harg3 arg4 harg4 arg5 harg5 arg6 harg6 arg7 harg7 arg8 harg8 arg9 harg9 arg10 harg10 arg11 harg11 hc0 x0 x1 x2 x3 x4).2.2.2.2.1 S1x128.size (by sl_kernel_rfl) y

def sout1_Z_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : cond1_0 i)
    (x0 : Vec F S5000x128 .f32) (x1 : Vec F S5000x128 .f32) (x2 : Vec F S128x128 .f32) (x3 : Vec F S128x128 .f32) (x4 : Vec F S1x128 .f32) : Vec F S1x128 .f32 :=
  VS1_1.read (Elt F) (VS1_1.writes (Elt F) VS1_1.junk (kernelRun1_Z c i arg2 harg2 arg3 harg3 arg4 harg4 arg5 harg5 arg6 harg6 arg7 harg7 arg8 harg8 arg9 harg9 arg10 harg10 arg11 harg11 hc0 x0 x1 x2 x3 x4).2.2.2.2.1)

theorem cover1_P_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S5000x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).1 S5000x128.size (by sl_kernel_rfl) y

def out1_P_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S5000x128 .f32 :=
  VO1_5.read (Elt F) (VO1_5.writes (Elt F) VO1_5.junk (kernelRun1_P c i arg2 harg2 arg3 harg3 arg4 harg4 arg5 harg5 arg6 harg6 arg7 harg7 arg8 harg8 arg9 harg9 arg10 harg10 arg11 harg11 hc0 x0 x1 x2 x3 x4 xs0 xs1).1)

theorem cover1_P_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S8x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.1 S8x128.size (by sl_kernel_rfl) y

def out1_P_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S8x128 .f32 :=
  VO1_6.read (Elt F) (VO1_6.writes (Elt F) VO1_6.junk (kernelRun1_P c i arg2 harg2 arg3 harg3 arg4 harg4 arg5 harg5 arg6 harg6 arg7 harg7 arg8 harg8 arg9 harg9 arg10 harg10 arg11 harg11 hc0 x0 x1 x2 x3 x4 xs0 xs1).2.1)

theorem cover1_P_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S8x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.1 S8x128.size (by sl_kernel_rfl) y

def out1_P_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S8x128 .f32 :=
  VO1_7.read (Elt F) (VO1_7.writes (Elt F) VO1_7.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.1)

theorem scover1_P_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S1x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1 S1x128.size (by sl_kernel_rfl) y

def sout1_P_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S1x128 .f32 :=
  VS1_0.read (Elt F) (VS1_0.writes (Elt F) VS1_0.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.2.1)

theorem scover1_P_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) (y : S1x128.Idx) :
    ∃ pc ∈ (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1, y ∈ pc.1.set :=
  View.cover_of_tiledL (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1 S1x128.size (by sl_kernel_rfl) y

def sout1_P_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) : Vec F S1x128 .f32 :=
  VS1_1.read (Elt F) (VS1_1.writes (Elt F) VS1_1.junk (kernelRun1_P c i arg2 harg2 arg3 harg3 arg4 harg4 arg5 harg5 arg6 harg6 arg7 harg7 arg8 harg8 arg9 harg9 arg10 harg10 arg11 harg11 hc0 x0 x1 x2 x3 x4 xs0 xs1).2.2.2.2.1)

/-! ## What the outputs and the carried rows hold after each point -/

/-- After the body at position `n`: the three output blocks, then the two carried rows. -/
def outsAt1 (c : Dev nD) : (n : ℕ) → n < cfg1.N → Vec F S5000x128 .f32 × Vec F S8x128 .f32 × Vec F S8x128 .f32 × Vec F S1x128 .f32 × Vec F S1x128 .f32
  | 0, hn => (out1_Z_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_Z_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_Z_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_Z_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_Z_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 10 = 0 then
      (out1_Z_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_Z_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_Z_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_Z_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_Z_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_P_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, out1_P_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, out1_P_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, sout1_P_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2, sout1_P_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.1 (outsAt1 c n (Nat.lt_of_succ_lt hn)).2.2.2.2)

theorem outsAt1_Z (c : Dev nD) (t : Fin cfg1.N) (h0 : t.val % 10 = 0) :
    outsAt1 V c t.val t.isLt = (out1_Z_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), out1_Z_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), out1_Z_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), sout1_Z_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t), sout1_Z_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_P (c : Dev nD) (t : Fin cfg1.N) (h0 : ¬t.val % 10 = 0) :
    outsAt1 V c t.val t.isLt = (out1_P_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_P_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_P_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_P_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_P_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_neg h0).trans rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.1) ∗ owns (c : Thread nD τ) scM1_1 fullShare ((outsAt1 V c n hn).2.2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2.2.1) ∗ owns (c : Thread nD τ) scM1_1 fullShare ((outsAt1 V c n hn).2.2.2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.2.1) ∗ owns (c : Thread nD τ) scM1_1 fullShare ((outsAt1 V c (n - 1) (by omega)).2.2.2.2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.KF

end
-- ==== Proof.BKF1b.lean ====
/-
  The second kernel region's body obligation: at every grid point the body, called on the point's staging buffers and
  the two carried rows, returns each input block as it was, each output block and each carried row at the recursion's
  value for the point.
-/
import proofs.«105878_j7808250544365_2_alg».proof.Proof.BKF1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7]
  by_cases h0 : t.val % 10 = 0
  · rw [outsAt1_Z V c t h0]
    unfold out1_Z_5 out1_Z_6 out1_Z_7 sout1_Z_0 sout1_Z_1; (try dsimp only)
    by_cases hz : t.val = 0
    · rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_Z_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_Z_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_Z_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_Z_6 c _ _ _ _ _ _ _ _ _ _ _ _ _ _ _ _ _ _ _ _ _ _ _ _ _ _ _)
      unfold owns; iexists _; isplitr
      swap; · iexact H7
      ipureintro; exact View.read_writes_of_cover _ _ _ _ _ (cover1_Z_7 c _ _ _ _ _ _ _ _ _ _ _ _ _ _ _ _ _ _ _ _ _ _ _ _ _ _ _)
    · rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      isplitl [HS1]; · iexists _; iexact HS1
      iintro ⟨H0, H1, H2, H3, H4, ⟨%e5, H5⟩, ⟨%e6, H6⟩, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_Z_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_Z_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_Z_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_Z_6 c _ _ _ _ _ _ _ _ _ _ _ _ _ _ _ _ _ _ _ _ _ _ _ _ _ _ _)
      unfold owns; iexists _; isplitr
      swap; · iexact H7
      ipureintro; exact View.read_writes_of_cover _ _ _ _ _ (cover1_Z_7 c _ _ _ _ _ _ _ _ _ _ _ _ _ _ _ _ _ _ _ _ _ _ _ _ _ _ _)
  · have hz : t.val ≠ 0 := fun e => h0 (by rw [e])
    rw [outsAt1_P V c t h0]
    unfold out1_P_5 out1_P_6 out1_P_7 sout1_P_0 sout1_P_1; (try dsimp only)
    rw [PhiS1_castSucc V c t, PhiS1_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_P c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover1_P_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_P_1 c _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_P_5 c _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_P_6 c _ _ _ _ _ _ _ _ _ _ _ _ _ _ _ _ _ _ _ _ _ _ _ _ _ _ _ _ _)
    unfold owns; iexists _; isplitr
    swap; · iexact H7
    ipureintro; exact View.read_writes_of_cover _ _ _ _ _ (cover1_P_7 c _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the carried rows' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.KF

end
-- ==== Proof.BKF2.lean ====
/-
  The third kernel region (normalisation, affine map, positive part, residual) at the contents `V` it is entered
  from: each window's block at a grid point, what one run of the body leaves in the output block — a pointwise
  function of the point's 5000 rows of the update and of the features and of the four 1 × 128 rows —, the body's
  triple, and the proof data the pipeline's launch theorem takes.
-/
import proofs.«105878_j7808250544365_2_alg».proof.Proof.Gen.Kernel.Launch
import proofs.«105878_j7808250544365_2_alg».proof.Proof.Gen.Kernel.Skeleton
import proofs.«105878_j7808250544365_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
abbrev r2_S5000x128 : Rect S5000x128 := Rect.unit (s := S5000x128) ![0, 0] S5000x128.size inb_S5000x128_S5000x128_0_0
abbrev r2_S1x128 : Rect S1x128 := Rect.unit (s := S1x128) ![0, 0] S1x128.size inb_S1x128_S1x128_0_0

/-- The output block after the body: its one store, of the body's value of the input blocks. -/
def out2_6 (x0 : Vec F S5000x128 .f32) (x1 : Vec F S5000x128 .f32) (x2 : Vec F S1x128 .f32) (x3 : Vec F S1x128 .f32) (x4 : Vec F S1x128 .f32) (x5 : Vec F S1x128 .f32) : Vec F S5000x128 .f32 :=
  View.canon [⟨r2_S5000x128, k2_pay1 (View.ld x3 r2_S1x128) (View.ld x0 r2_S5000x128) (View.ld x2 r2_S1x128) (View.ld x4 r2_S1x128) (View.ld x5 r2_S1x128) (View.ld x1 r2_S5000x128)⟩]

/-- The store covers the block. -/
theorem cover2_6 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 1000000 in
/-- The body on whole staging memrefs: the inputs' blocks are kept, the output's block ends at `out2_6` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_res_kernel i arg1 harg1 arg2 harg2 arg3 harg3 arg4 harg4 arg5 harg5 arg6 harg6 arg7 harg7) K := by
  simp only [cc2__bn_relu_res_kernel_eq_skeleton]; unfold cc2__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.KF

end
-- ==== Proof.BKRun.lean ====
/-
  The whole program's run: three kernel regions among three stretches of host operations. The buffer contents at
  each boundary are a fold from the launch memory — a stretch applies its operations, a region leaves its output arrays
  at what its write-backs leave and every other buffer as entered —, and every weakly fair execution terminates with
  every unscoped buffer at the last boundary's contents. No stretch and no region writes an argument array.
-/
import proofs.«105878_j7808250544365_2_alg».proof.Proof.BKF0
import proofs.«105878_j7808250544365_2_alg».proof.Proof.BKF1b
import proofs.«105878_j7808250544365_2_alg».proof.Proof.BKF2
import proofs.«105878_j7808250544365_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 1).trans (((dat2 (V5 m ρ) c).arrAt_in 1 rfl _).trans (A_eq2 (V5 m ρ) c 1))
    _ = W4 m ρ c (Proc.devRef .tc main_arg0) := StableHlo.after_of_writes_sub hostOps2 _ hostOps2_writes (by decide : main_arg0 ∉ hostOps2_W)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The class invariant of the second region hands back the generator register and the scoped buffers. -/
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    exact (hout1 (V3 m ρ) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [show (pdats m ρ 2 c).Φ (Fin.last _) = Pipeline.ΦA spec2 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.KF

end
-- ==== Proof.BKOut.lean ====
/-
  The word-level kernel program runs and leaves its nine argument arrays unchanged.

  The run of the whole program ends with every unscoped device buffer holding the final valuation; at each of the
  nine arguments that valuation is the initial memory, since no host statement and no kernel writes an argument.
-/
import proofs.«105878_j7808250544365_2_alg».proof.Proof.BKRun

noncomputable section

namespace Cert.Kernel.KOut

open Cert.Kernel Cert.Kernel.Gen
open Idealize.ShloMosaic Idealize.ShloMosaic.TcCoe Idealize.SL.Sem

variable {F : FTy → Type} [FloatOps F]

/-- The program terminates without a fault from any memory, and each argument array ends as it began. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (KF.mem_uc main_arg0 (by decide))).trans (KF.W6_main_arg0 m ρ c),
      (h c _ (KF.mem_uc main_arg1 (by decide))).trans (KF.W6_main_arg1 m ρ c),
      (h c _ (KF.mem_uc main_arg2 (by decide))).trans (KF.W6_main_arg2 m ρ c),
      (h c _ (KF.mem_uc main_arg3 (by decide))).trans (KF.W6_main_arg3 m ρ c),
      (h c _ (KF.mem_uc main_arg4 (by decide))).trans (KF.W6_main_arg4 m ρ c),
      (h c _ (KF.mem_uc main_arg5 (by decide))).trans (KF.W6_main_arg5 m ρ c),
      (h c _ (KF.mem_uc main_arg6 (by decide))).trans (KF.W6_main_arg6 m ρ c),
      (h c _ (KF.mem_uc main_arg7 (by decide))).trans (KF.W6_main_arg7 m ρ c),
      (h c _ (KF.mem_uc main_arg8 (by decide))).trans (KF.W6_main_arg8 m ρ c)⟩) (KF.run_all m ρ)

end Cert.Kernel.KOut

end
-- ==== Proof.RefRunOps.lean ====
import proofs.«105878_j7808250544365_2_alg».proof.ReferenceIdeal
import proofs.«105878_j7808250544365_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of @main as a list: its 58 own operations in order, with the three operations of the first rectifier call and the 22 of the variance call (its nested selection included) listed at their call sites over the calls' buffers. -/
abbrev ops0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.binary main_arg2 main_arg3 main_v4 ((fun l r => Host.dotGeneral dot_S1000000x2_S2x128_S1000000x128_1_0_0_1_n_n none l r) : (⟨S1000000x2, .f32⟩ : BufTy).Contents (Elt F) → (⟨S2x128, .f32⟩ : BufTy).Contents (Elt F) → (⟨S1000000x128, .f32⟩ : BufTy).Contents (Elt F)),
    StableHlo.TRef.nullary main_call0.cst (constant S_ .f32 0x00000000#32),
    StableHlo.TRef.unary main_call0.cst main_call0.v0 (broadcastInDim S1000000x128 ![] bcast_S_S1000000x128),
    StableHlo.TRef.binary ((.of main_v4) : StableHlo.TRef sig ⟨S1000000x128, .f32⟩) main_call0.v0 main_call0.v1 maximumf,
    StableHlo.binary main_v5 main_arg4 main_v6 ((fun l r => Host.dotGeneral dot_S1000000x128_S128x128_S1000000x128_1_0_0_1_n_n none l r) : (⟨S1000000x128, .f32⟩ : BufTy).Contents (Elt F) → (⟨S128x128, .f32⟩ : BufTy).Contents (Elt F) → (⟨S1000000x128, .f32⟩ : BufTy).Contents (Elt F)),
    StableHlo.nullary main_c (constantI S_ 32 0#32),
    StableHlo.unary main_c main_v7 (broadcastInDim S1000000 ![] bcast_S_S1000000 : (⟨S_, .i32⟩ : BufTy).Contents (Elt F) → (⟨S1000000, .i32⟩ : BufTy).Contents (Elt F)),
    StableHlo.binary main_v1 main_v7 main_v8 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v9 (broadcastInDim S1000000 ![] bcast_S_S1000000 : (⟨S_, .i32⟩ : BufTy).Contents (Elt F) → (⟨S1000000, .i32⟩ : BufTy).Contents (Elt F)),
    StableHlo.binary main_v1 main_v9 main_v10 (addi : (⟨S1000000, .i32⟩ : BufTy).Contents (Elt F) → (⟨S1000000, .i32⟩ : BufTy).Contents (Elt F) → (⟨S1000000, .i32⟩ : BufTy).Contents (Elt F)),
    StableHlo.ternary main_v8 main_v10 main_v1 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v11 main_v12 (broadcastInDim S1000000x1 ![0] bcast_S1000000_S1000000x1_0 : (⟨S1000000, .i32⟩ : BufTy).Contents (Elt F) → (⟨S1000000x1, .i32⟩ : BufTy).Contents (Elt F)),
    StableHlo.binary main_arg0 main_v12 main_v13 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.binary main_v6 main_v13 main_v14 (mulf : (⟨S1000000x128, .f32⟩ : BufTy).Contents (Elt F) → (⟨S1000000x128, .f32⟩ : BufTy).Contents (Elt F) → (⟨S1000000x128, .f32⟩ : BufTy).Contents (Elt F)),
    StableHlo.binary main_v14 main_v13 main_v15 (addf : (⟨S1000000x128, .f32⟩ : BufTy).Contents (Elt F) → (⟨S1000000x128, .f32⟩ : BufTy).Contents (Elt F) → (⟨S1000000x128, .f32⟩ : BufTy).Contents (Elt F)),
    StableHlo.nullary main_cst (constant S_ .f32 0x00000000#32),
    StableHlo.unary main_cst main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S1000000x1 ![0] bcast_S1000000_S1000000x1_0 : (⟨S1000000, .i32⟩ : BufTy).Contents (Elt F) → (⟨S1000000x1, .i32⟩ : BufTy).Contents (Elt F)),
    StableHlo.ternary main_v16 main_v17 main_v15 main_v18 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_1 (constant S_ .f32 0x3F800000#32),
    StableHlo.unary main_cst_1 main_v19 (broadcastInDim S1000000 ![] bcast_S_S1000000 : (⟨S_, .f32⟩ : BufTy).Contents (Elt F) → (⟨S1000000, .f32⟩ : BufTy).Contents (Elt F)),
    StableHlo.nullary main_cst_2 (constant S_ .f32 0x00000000#32),
    StableHlo.unary main_cst_2 main_v20 (broadcastInDim S100000 ![] bcast_S_S100000 : (⟨S_, .f32⟩ : BufTy).Contents (Elt F) → (⟨S100000, .f32⟩ : BufTy).Contents (Elt F)),
    StableHlo.unary main_v3 main_v21 (broadcastInDim S1000000x1 ![0] bcast_S1000000_S1000000x1_0 : (⟨S1000000, .i32⟩ : BufTy).Contents (Elt F) → (⟨S1000000x1, .i32⟩ : BufTy).Contents (Elt F)),
    StableHlo.ternary main_v20 main_v21 main_v19 main_v22 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.unary main_cst_3 main_v23 (broadcastInDim S100000 ![] bcast_S_S100000 : (⟨S_, .f32⟩ : BufTy).Contents (Elt F) → (⟨S100000, .f32⟩ : BufTy).Contents (Elt F)),
    StableHlo.binary main_v22 main_v23 main_v24 (maximumf : (⟨S100000, .f32⟩ : BufTy).Contents (Elt F) → (⟨S100000, .f32⟩ : BufTy).Contents (Elt F) → (⟨S100000, .f32⟩ : BufTy).Contents (Elt F)),
    StableHlo.unary main_v24 main_v25 (broadcastInDim S100000x1 ![0] bcast_S100000_S100000x1_0 : (⟨S100000, .f32⟩ : BufTy).Contents (Elt F) → (⟨S100000x1, .f32⟩ : BufTy).Contents (Elt F)),
    StableHlo.unary main_v25 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v26 main_v27 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_v27 main_v28 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v28 main_arg5 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg6 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v32 main_cst_4 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call1.cst (constant S_ .f32 0x00000000#32),
    StableHlo.TRef.binary ((.of main_v32) : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary ((.of main_v32) : StableHlo.TRef sig ⟨S100000x128, .f32⟩) main_call1.v4 main_call1.v5 subf,
    StableHlo.TRef.binary main_call1.v5 main_call1.v5 main_call1.v6 mulf,
    StableHlo.TRef.unary ((.of main_c_6) : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S128 ![] bcast_S_S128),
    StableHlo.TRef.ternary (main_call1.v12 : StableHlo.TRef sig ⟨S_, .i1⟩) (main_call1.v11 : StableHlo.TRef sig ⟨S128, .f32⟩) main_call1.call0.v1 main_call1.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg7 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg8 main_v49 (broadcastInDim S1x128 ![1] bcast_S128_S1x128_1 : (⟨S128, .f32⟩ : BufTy).Contents (Elt F) → (⟨S1x128, .f32⟩ : BufTy).Contents (Elt F)) ]

/-- The second window of @main as a list: its three own operations and the three of the final rectifier call. -/
abbrev ops1 : List (HloOp τ sig (Elt F)) :=
  [ StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary ((.of main_v51) : StableHlo.TRef sig ⟨S100000x128, .f32⟩) main_call2.v0 main_call2.v1 maximumf,
    StableHlo.binary main_v52 main_arg0 main_v53 (addf : (⟨S100000x128, .f32⟩ : BufTy).Contents (Elt F) → (⟨S100000x128, .f32⟩ : BufTy).Contents (Elt F) → (⟨S100000x128, .f32⟩ : BufTy).Contents (Elt F)) ]

/-- @main's operations, in order. -/
abbrev ops : List (HloOp τ sig (Elt F)) := ops0 ++ ops1

set_option maxRecDepth 8192 in
set_option maxHeartbeats 4000000 in
/-- The first window is that straight line: the callees' definitions unfolded at their calls, both sides are one chain
    of operation steps once sequencing is reassociated. -/
theorem main_part0_eq (c : Dev nD) : main_part0 (F := F) c = seq ops0 := by
  simp only [main_part0, fn_relu.body, fn_var.body, fn_where.body, seq, bind_assoc, pure_bind]
  rfl

set_option maxRecDepth 8192 in
/-- The second window likewise. -/
theorem main_part1_eq (c : Dev nD) : main_part1 (F := F) c = seq ops1 := by
  simp only [main_part1, fn_relu_0.body, seq, bind_assoc, pure_bind]

/-- @main runs its two windows in order: the concatenated list. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩
theorem ops1_sub : (ops1 : List (HloOp τ sig (Elt F))).Forall fun op => op.bufs ⊆ tcRefs τ sig :=
  ⟨unary_bufs_sub .., binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- No operation of the list leaves a result undetermined. -/
theorem ops_fresh : ∀ op ∈ (ops : List (HloOp τ sig (Elt F))), op.fresh = ∅ := by
  intro op h
  simp only [ops, List.mem_append] at h
  rcases h with h | h
  · (repeat (cases h with | head => rfl | tail _ h => ?_)); exact nomatch h
  · (repeat (cases h with | head => rfl | tail _ h => ?_)); exact nomatch h

/-- On every device, for any float values, from any memory with zero counters: every weakly fair execution of @main
    terminates, and every final state has each buffer at the fold of the operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.lean ====
import proofs.«105878_j7808250544365_2_alg».proof.Proof.RefRunOps
import proofs.«105878_j7808250544365_2_alg».proof.Proof.RefTerm
import proofs.«105878_j7808250544365_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- The contents of a buffer of shape `s` and element type `e`.
set_option quotPrecheck false in
local notation "C[" s ", " e "]" => (⟨s, e⟩ : BufTy).Contents (Elt F)

set_option maxHeartbeats 2000000 in
/-- The value of %27 (the mean aggregation) from the first five arguments: the operations of the list `opsA` in order, each a `let` of its pure function (the first rectifier call's three lines at their place). -/
def head (a0 : C[S100000x128, .f32]) (a1 : C[S2x1000000, .i32]) (a2 : C[S1000000x2, .f32]) (a3 : C[S2x128, .f32]) (a4 : C[S128x128, .f32]) :
    C[S100000x128, .f32] :=
  let x_v0 : C[S1x1000000, .i32] := (extractStridedSlice S1x1000000 ![0, 0] · slices_S2x1000000_S1x1000000_0_0) a1
  let x_v1 : C[S1000000, .i32] := shapeCast S1000000 x_v0 shapeCasts_S1x1000000_S1000000
  let x_v2 : C[S1x1000000, .i32] := (extractStridedSlice S1x1000000 ![1, 0] · slices_S2x1000000_S1x1000000_1_0) a1
  let x_v3 : C[S1000000, .i32] := shapeCast S1000000 x_v2 shapeCasts_S1x1000000_S1000000
  let x_v4 : C[S1000000x128, .f32] := (fun l r => Host.dotGeneral dot_S1000000x2_S2x128_S1000000x128_1_0_0_1_n_n none l r) a2 a3
  let x_call0_cst : C[S_, .f32] := constant S_ .f32 0x00000000#32
  let x_call0_v0 : C[S1000000x128, .f32] := (broadcastInDim S1000000x128 ![] bcast_S_S1000000x128) x_call0_cst
  let x_v5 : C[S1000000x128, .f32] := maximumf x_v4 x_call0_v0
  let x_v6 : C[S1000000x128, .f32] := (fun l r => Host.dotGeneral dot_S1000000x128_S128x128_S1000000x128_1_0_0_1_n_n none l r) x_v5 a4
  let x_c : C[S_, .i32] := constantI S_ 32 0#32
  let x_v7 : C[S1000000, .i32] := (broadcastInDim S1000000 ![] bcast_S_S1000000) x_c
  let x_v8 : C[S1000000, .i1] := (cmpi .slt) x_v1 x_v7
  let x_c_0 : C[S_, .i32] := constantI S_ 32 100000#32
  let x_v9 : C[S1000000, .i32] := (broadcastInDim S1000000 ![] bcast_S_S1000000) x_c_0
  let x_v10 : C[S1000000, .i32] := (addi) x_v1 x_v9
  let x_v11 : C[S1000000, .i32] := (select) x_v8 x_v10 x_v1
  let x_v12 : C[S1000000x1, .i32] := (broadcastInDim S1000000x1 ![0] bcast_S1000000_S1000000x1_0) x_v11
  let x_v13 : C[S1000000x128, .f32] := (fun x i => Host.gather gather_S100000x128_S1000000x1_S1000000x128_1_0_n_n_0_1_1128 x i) a0 x_v12
  let x_v14 : C[S1000000x128, .f32] := (mulf) x_v6 x_v13
  let x_v15 : C[S1000000x128, .f32] := (addf) x_v14 x_v13
  let x_cst : C[S_, .f32] := constant S_ .f32 0x00000000#32
  let x_v16 : C[S100000x128, .f32] := (broadcastInDim S100000x128 ![] bcast_S_S100000x128) x_cst
  let x_v17 : C[S1000000x1, .i32] := (broadcastInDim S1000000x1 ![0] bcast_S1000000_S1000000x1_0) x_v3
  let x_v18 : C[S100000x128, .f32] := (fun x i u => Host.scatterAdd scatter_S100000x128_S1000000x1_S1000000x128_1_0_0_1 x i u) x_v16 x_v17 x_v15
  let x_cst_1 : C[S_, .f32] := constant S_ .f32 0x3F800000#32
  let x_v19 : C[S1000000, .f32] := (broadcastInDim S1000000 ![] bcast_S_S1000000) x_cst_1
  let x_cst_2 : C[S_, .f32] := constant S_ .f32 0x00000000#32
  let x_v20 : C[S100000, .f32] := (broadcastInDim S100000 ![] bcast_S_S100000) x_cst_2
  let x_v21 : C[S1000000x1, .i32] := (broadcastInDim S1000000x1 ![0] bcast_S1000000_S1000000x1_0) x_v3
  let x_v22 : C[S100000, .f32] := (fun x i u => Host.scatterAdd scatter_S100000_S1000000x1_S1000000_n_0_0_1 x i u) x_v20 x_v21 x_v19
  let x_cst_3 : C[S_, .f32] := constant S_ .f32 0x3F800000#32
  let x_v23 : C[S100000, .f32] := (broadcastInDim S100000 ![] bcast_S_S100000) x_cst_3
  let x_v24 : C[S100000, .f32] := (maximumf) x_v22 x_v23
  let x_v25 : C[S100000x1, .f32] := (broadcastInDim S100000x1 ![0] bcast_S100000_S100000x1_0) x_v24
  let x_v26 : C[S100000x128, .f32] := (broadcastInDim S100000x128 ![0, 1] bcast_S100000x1_S100000x128_0_1) x_v25
  let x_v27 : C[S100000x128, .f32] := (Host.divf) x_v18 x_v26
  x_v27

/-- The value of %32 (the dense layer over the concatenated features) from the node features, the value of %27, the weight and the bias: the operations %28 … %32 in order. -/
def linT (a0 : C[S100000x128, .f32]) (v27 : C[S100000x128, .f32]) (a5 : C[S256x128, .f32]) (a6 : C[S128, .f32]) :
    C[S100000x128, .f32] :=
  let x_v28 : C[S100000x256, .f32] := (fun a b => concatenate S100000x256 1 [⟨S100000x128, a⟩, ⟨S100000x128, b⟩] concatenates_S100000x128_S100000x128_S100000x256_d1) a0 v27
  let x_v29 : C[S100000x128, .f32] := (fun l r => Host.dotGeneral dot_S100000x256_S256x128_S100000x128_1_0_0_1_n_n none l r) x_v28 a5
  let x_v30 : C[S1x128, .f32] := (broadcastInDim S1x128 ![1] bcast_S128_S1x128_1) a6
  let x_v31 : C[S100000x128, .f32] := (broadcastInDim S100000x128 ![0, 1] bcast_S1x128_S100000x128_0_1) x_v30
  let x_v32 : C[S100000x128, .f32] := (addf) x_v29 x_v31
  x_v32

/-- The value of %35 (the column mean) from the value of %32. -/
def meanT (v32 : C[S100000x128, .f32]) :
    C[S128, .f32] :=
  let x_cst_4 : C[S_, .f32] := constant S_ .f32 0x00000000#32
  let x_v33 : C[S128, .f32] := (fun x v => Host.reduceAdd x v reducesTo_S100000x128_S128_d0 h_S_) v32 x_cst_4
  let x_cst_5 : C[S_, .f32] := constant S_ .f32 0x47C35000#32
  let x_v34 : C[S128, .f32] := (broadcastInDim S128 ![] bcast_S_S128) x_cst_5
  let x_v35 : C[S128, .f32] := (Host.divf) x_v33 x_v34
  x_v35

set_option maxHeartbeats 2000000 in
/-- The value of %36 (the column variance, as the variance call and its selection compute it) from the value of %32: the constant %c_6 and the 22 operations of the call in order. -/
def varT (v32 : C[S100000x128, .f32]) :
    C[S128, .f32] :=
  let x_c_6 : C[S_, .i32] := constantI S_ 32 0#32
  let x_call1_cst : C[S_, .f32] := constant S_ .f32 0x00000000#32
  let x_call1_v0 : C[S128, .f32] := (fun x v => Host.reduceAdd x v reducesTo_S100000x128_S128_d0 h_S_) v32 x_call1_cst
  let x_call1_v1 : C[S1x128, .f32] := (broadcastInDim S1x128 ![1] bcast_S128_S1x128_1) x_call1_v0
  let x_call1_cst_0 : C[S_, .f32] := constant S_ .f32 0x47C35000#32
  let x_call1_v2 : C[S1x128, .f32] := (broadcastInDim S1x128 ![] bcast_S_S1x128) x_call1_cst_0
  let x_call1_v3 : C[S1x128, .f32] := Host.divf x_call1_v1 x_call1_v2
  let x_call1_v4 : C[S100000x128, .f32] := (broadcastInDim S100000x128 ![0, 1] bcast_S1x128_S100000x128_0_1) x_call1_v3
  let x_call1_v5 : C[S100000x128, .f32] := subf v32 x_call1_v4
  let x_call1_v6 : C[S100000x128, .f32] := mulf x_call1_v5 x_call1_v5
  let x_call1_v7 : C[S_, .f32] := (sitofp .f32) x_c_6
  let x_call1_cst_1 : C[S_, .f32] := constant S_ .f32 0x47C35000#32
  let x_call1_v8 : C[S_, .f32] := subf x_call1_cst_1 x_call1_v7
  let x_call1_cst_2 : C[S_, .f32] := constant S_ .f32 0x00000000#32
  let x_call1_v9 : C[S128, .f32] := (fun x v => Host.reduceAdd x v reducesTo_S100000x128_S128_d0 h_S_) x_call1_v6 x_call1_cst_2
  let x_call1_v10 : C[S128, .f32] := (broadcastInDim S128 ![] bcast_S_S128) x_call1_v8
  let x_call1_v11 : C[S128, .f32] := Host.divf x_call1_v9 x_call1_v10
  let x_call1_cst_3 : C[S_, .f32] := constant S_ .f32 0x00000000#32
  let x_call1_v12 : C[S_, .i1] := (cmpf .ogt) x_call1_v8 x_call1_cst_3
  let x_call1_cst_4 : C[S_, .f32] := constant S_ .f32 0x7FC00000#32
  let x_call1_call0_v0 : C[S_, .f32] := id x_call1_cst_4
  let x_call1_call0_v1 : C[S128, .f32] := (broadcastInDim S128 ![] bcast_S_S128) x_call1_call0_v0
  let x_v36 : C[S128, .f32] := (fun p a b => select (broadcastInDim S128 ![] bcast_S_S128 p) a b) x_call1_v12 x_call1_v11 x_call1_call0_v1
  x_v36

set_option maxHeartbeats 2000000 in
/-- The value of %53 from the values of %32, %35, %36, the scale, the shift and the node features: the operations %37 … %53 in order (the last rectifier call's three lines at their place). -/
def bnT (v32 : C[S100000x128, .f32]) (v35 : C[S128, .f32]) (v36 : C[S128, .f32]) (a7 : C[S128, .f32]) (a8 : C[S128, .f32]) (a0 : C[S100000x128, .f32]) :
    C[S100000x128, .f32] :=
  let x_v37 : C[S1x128, .f32] := (broadcastInDim S1x128 ![1] bcast_S128_S1x128_1) v35
  let x_v38 : C[S100000x128, .f32] := (broadcastInDim S100000x128 ![0, 1] bcast_S1x128_S100000x128_0_1) x_v37
  let x_v39 : C[S100000x128, .f32] := (subf) v32 x_v38
  let x_cst_7 : C[S_, .f32] := constant S_ .f32 0x3727C5AC#32
  let x_v40 : C[S128, .f32] := (broadcastInDim S128 ![] bcast_S_S128) x_cst_7
  let x_v41 : C[S128, .f32] := (addf) v36 x_v40
  let x_v42 : C[S128, .f32] := (Host.rsqrt) x_v41
  let x_v43 : C[S1x128, .f32] := (broadcastInDim S1x128 ![1] bcast_S128_S1x128_1) x_v42
  let x_v44 : C[S100000x128, .f32] := (broadcastInDim S100000x128 ![0, 1] bcast_S1x128_S100000x128_0_1) x_v43
  let x_v45 : C[S100000x128, .f32] := (mulf) x_v39 x_v44
  let x_v46 : C[S1x128, .f32] := (broadcastInDim S1x128 ![1] bcast_S128_S1x128_1) a7
  let x_v47 : C[S100000x128, .f32] := (broadcastInDim S100000x128 ![0, 1] bcast_S1x128_S100000x128_0_1) x_v46
  let x_v48 : C[S100000x128, .f32] := (mulf) x_v45 x_v47
  let x_v49 : C[S1x128, .f32] := (broadcastInDim S1x128 ![1] bcast_S128_S1x128_1) a8
  let x_v50 : C[S100000x128, .f32] := (broadcastInDim S100000x128 ![0, 1] bcast_S1x128_S100000x128_0_1) x_v49
  let x_v51 : C[S100000x128, .f32] := (addf) x_v48 x_v50
  let x_call2_cst : C[S_, .f32] := constant S_ .f32 0x00000000#32
  let x_call2_v0 : C[S100000x128, .f32] := (broadcastInDim S100000x128 ![] bcast_S_S100000x128) x_call2_cst
  let x_v52 : C[S100000x128, .f32] := maximumf x_v51 x_call2_v0
  let x_v53 : C[S100000x128, .f32] := (addf) x_v52 a0
  x_v53

/-- The value of %53 from the node features, the value of %27 and the last four arguments: the operations of the list `opsB` in order. -/
def tail (a0 : C[S100000x128, .f32]) (v27 : C[S100000x128, .f32]) (a5 : C[S256x128, .f32]) (a6 : C[S128, .f32]) (a7 : C[S128, .f32]) (a8 : C[S128, .f32]) :
    C[S100000x128, .f32] :=
  let v32 : C[S100000x128, .f32] := linT a0 v27 a5 a6
  let v35 : C[S128, .f32] := meanT v32
  let v36 : C[S128, .f32] := varT v32
  bnT v32 v35 v36 a7 a8 a0

/-- The operations of @main up to the mean aggregation %27, in order. -/
abbrev opsA : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.binary main_arg2 main_arg3 main_v4 ((fun l r => Host.dotGeneral dot_S1000000x2_S2x128_S1000000x128_1_0_0_1_n_n none l r) : (⟨S1000000x2, .f32⟩ : BufTy).Contents (Elt F) → (⟨S2x128, .f32⟩ : BufTy).Contents (Elt F) → (⟨S1000000x128, .f32⟩ : BufTy).Contents (Elt F)),
    StableHlo.TRef.nullary main_call0.cst (constant S_ .f32 0x00000000#32),
    StableHlo.TRef.unary main_call0.cst main_call0.v0 (broadcastInDim S1000000x128 ![] bcast_S_S1000000x128),
    StableHlo.TRef.binary ((.of main_v4) : StableHlo.TRef sig ⟨S1000000x128, .f32⟩) main_call0.v0 main_call0.v1 maximumf,
    StableHlo.binary main_v5 main_arg4 main_v6 ((fun l r => Host.dotGeneral dot_S1000000x128_S128x128_S1000000x128_1_0_0_1_n_n none l r) : (⟨S1000000x128, .f32⟩ : BufTy).Contents (Elt F) → (⟨S128x128, .f32⟩ : BufTy).Contents (Elt F) → (⟨S1000000x128, .f32⟩ : BufTy).Contents (Elt F)),
    StableHlo.nullary main_c (constantI S_ 32 0#32),
    StableHlo.unary main_c main_v7 (broadcastInDim S1000000 ![] bcast_S_S1000000 : (⟨S_, .i32⟩ : BufTy).Contents (Elt F) → (⟨S1000000, .i32⟩ : BufTy).Contents (Elt F)),
    StableHlo.binary main_v1 main_v7 main_v8 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v9 (broadcastInDim S1000000 ![] bcast_S_S1000000 : (⟨S_, .i32⟩ : BufTy).Contents (Elt F) → (⟨S1000000, .i32⟩ : BufTy).Contents (Elt F)),
    StableHlo.binary main_v1 main_v9 main_v10 (addi : (⟨S1000000, .i32⟩ : BufTy).Contents (Elt F) → (⟨S1000000, .i32⟩ : BufTy).Contents (Elt F) → (⟨S1000000, .i32⟩ : BufTy).Contents (Elt F)),
    StableHlo.ternary main_v8 main_v10 main_v1 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v11 main_v12 (broadcastInDim S1000000x1 ![0] bcast_S1000000_S1000000x1_0 : (⟨S1000000, .i32⟩ : BufTy).Contents (Elt F) → (⟨S1000000x1, .i32⟩ : BufTy).Contents (Elt F)),
    StableHlo.binary main_arg0 main_v12 main_v13 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.binary main_v6 main_v13 main_v14 (mulf : (⟨S1000000x128, .f32⟩ : BufTy).Contents (Elt F) → (⟨S1000000x128, .f32⟩ : BufTy).Contents (Elt F) → (⟨S1000000x128, .f32⟩ : BufTy).Contents (Elt F)),
    StableHlo.binary main_v14 main_v13 main_v15 (addf : (⟨S1000000x128, .f32⟩ : BufTy).Contents (Elt F) → (⟨S1000000x128, .f32⟩ : BufTy).Contents (Elt F) → (⟨S1000000x128, .f32⟩ : BufTy).Contents (Elt F)),
    StableHlo.nullary main_cst (constant S_ .f32 0x00000000#32),
    StableHlo.unary main_cst main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S1000000x1 ![0] bcast_S1000000_S1000000x1_0 : (⟨S1000000, .i32⟩ : BufTy).Contents (Elt F) → (⟨S1000000x1, .i32⟩ : BufTy).Contents (Elt F)),
    StableHlo.ternary main_v16 main_v17 main_v15 main_v18 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_1 (constant S_ .f32 0x3F800000#32),
    StableHlo.unary main_cst_1 main_v19 (broadcastInDim S1000000 ![] bcast_S_S1000000 : (⟨S_, .f32⟩ : BufTy).Contents (Elt F) → (⟨S1000000, .f32⟩ : BufTy).Contents (Elt F)),
    StableHlo.nullary main_cst_2 (constant S_ .f32 0x00000000#32),
    StableHlo.unary main_cst_2 main_v20 (broadcastInDim S100000 ![] bcast_S_S100000 : (⟨S_, .f32⟩ : BufTy).Contents (Elt F) → (⟨S100000, .f32⟩ : BufTy).Contents (Elt F)),
    StableHlo.unary main_v3 main_v21 (broadcastInDim S1000000x1 ![0] bcast_S1000000_S1000000x1_0 : (⟨S1000000, .i32⟩ : BufTy).Contents (Elt F) → (⟨S1000000x1, .i32⟩ : BufTy).Contents (Elt F)),
    StableHlo.ternary main_v20 main_v21 main_v19 main_v22 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.unary main_cst_3 main_v23 (broadcastInDim S100000 ![] bcast_S_S100000 : (⟨S_, .f32⟩ : BufTy).Contents (Elt F) → (⟨S100000, .f32⟩ : BufTy).Contents (Elt F)),
    StableHlo.binary main_v22 main_v23 main_v24 (maximumf : (⟨S100000, .f32⟩ : BufTy).Contents (Elt F) → (⟨S100000, .f32⟩ : BufTy).Contents (Elt F) → (⟨S100000, .f32⟩ : BufTy).Contents (Elt F)),
    StableHlo.unary main_v24 main_v25 (broadcastInDim S100000x1 ![0] bcast_S100000_S100000x1_0 : (⟨S100000, .f32⟩ : BufTy).Contents (Elt F) → (⟨S100000x1, .f32⟩ : BufTy).Contents (Elt F)),
    StableHlo.unary main_v25 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v26 main_v27 (Host.divf : (⟨S100000x128, .f32⟩ : BufTy).Contents (Elt F) → (⟨S100000x128, .f32⟩ : BufTy).Contents (Elt F) → (⟨S100000x128, .f32⟩ : BufTy).Contents (Elt F)) ]

/-- The operations of @main from the concatenation %28 on, in order. -/
abbrev opsB : List (HloOp τ sig (Elt F)) :=
  [ StableHlo.binary main_arg0 main_v27 main_v28 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v28 main_arg5 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg6 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v32 main_cst_4 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call1.cst (constant S_ .f32 0x00000000#32),
    StableHlo.TRef.binary ((.of main_v32) : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary ((.of main_v32) : StableHlo.TRef sig ⟨S100000x128, .f32⟩) main_call1.v4 main_call1.v5 subf,
    StableHlo.TRef.binary main_call1.v5 main_call1.v5 main_call1.v6 mulf,
    StableHlo.TRef.unary ((.of main_c_6) : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S128 ![] bcast_S_S128),
    StableHlo.TRef.ternary (main_call1.v12 : StableHlo.TRef sig ⟨S_, .i1⟩) (main_call1.v11 : StableHlo.TRef sig ⟨S128, .f32⟩) main_call1.call0.v1 main_call1.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg7 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg8 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary ((.of main_v51) : StableHlo.TRef sig ⟨S100000x128, .f32⟩) main_call2.v0 main_call2.v1 maximumf,
    StableHlo.binary main_v52 main_arg0 main_v53 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The whole list is the two stretches in order. -/
theorem ops_split : (ops : List (HloOp τ sig (Elt F))) = opsA ++ opsB := rfl

/-- The contents after two lists in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers the operations of `opsA` write. -/
abbrev opsA_W : List (Ref sig .tc) := [main_v0, main_v1, main_v2, main_v3, main_v4, main_call0_cst, main_call0_v0, main_v5, main_v6, main_c, main_v7, main_v8, main_c_0, main_v9, main_v10, main_v11, main_v12, main_v13, main_v14, main_v15, main_cst, main_v16, main_v17, main_v18, main_cst_1, main_v19, main_cst_2, main_v20, main_v21, main_v22, main_cst_3, main_v23, main_v24, main_v25, main_v26, main_v27]
set_option maxRecDepth 8192 in
theorem opsA_writes : (opsA : List (HloOp τ sig (Elt F))).Forall fun op =>
    op.writes ⊆ (opsA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `opsA` do not write keeps its contents through them. -/
theorem opsA_keep (V : Valuation τ sig (Elt F)) (r : Ref sig .tc) (h : r ∉ opsA_W) :
    after opsA V (Proc.devRef .tc r) = V (Proc.devRef .tc r) :=
  after_of_writes_sub opsA _ opsA_writes h

/-- The buffers the operations of `opsB` write. -/
abbrev opsB_W : List (Ref sig .tc) := [main_v28, main_v29, main_v30, main_v31, main_v32, main_cst_4, main_v33, main_cst_5, main_v34, main_v35, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v36, main_v37, main_v38, main_v39, main_cst_7, main_v40, main_v41, main_v42, main_v43, main_v44, main_v45, main_v46, main_v47, main_v48, main_v49, main_v50, main_v51, main_call2_cst, main_call2_v0, main_v52, main_v53]
set_option maxRecDepth 8192 in
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `opsB` do not write keeps its contents through them. -/
theorem opsB_keep (V : Valuation τ sig (Elt F)) (r : Ref sig .tc) (h : r ∉ opsB_W) :
    after opsB V (Proc.devRef .tc r) = V (Proc.devRef .tc r) :=
  after_of_writes_sub opsB _ opsB_writes h

set_option maxRecDepth 8192 in
set_option maxHeartbeats 4000000 in
/-- After the first stretch the aggregation's buffer holds `head` of the arguments' contents. -/
theorem valA_v27 (V : Valuation τ sig (Elt F)) :
    after opsA V (Proc.devRef .tc main_v27)
      = head (V (Proc.devRef .tc main_arg0)) (V (Proc.devRef .tc main_arg1)) (V (Proc.devRef .tc main_arg2)) (V (Proc.devRef .tc main_arg3)) (V (Proc.devRef .tc main_arg4)) := by
  after_results_simp
  rfl

set_option maxRecDepth 8192 in
set_option maxHeartbeats 4000000 in
/-- After the second stretch, from any contents, the result's buffer holds `tail` of the contents it started from. -/
theorem valB_v53 (W : Valuation τ sig (Elt F)) :
    after opsB W (Proc.devRef .tc main_v53)
      = tail (W (Proc.devRef .tc main_arg0)) (W (Proc.devRef .tc main_v27)) (W (Proc.devRef .tc main_arg5)) (W (Proc.devRef .tc main_arg6)) (W (Proc.devRef .tc main_arg7)) (W (Proc.devRef .tc main_arg8)) := by
  after_results_simp
  rfl

/-- The whole list leaves the result's buffer at `tail` over `head` of the arguments' contents. -/
theorem out_eq' (V : Valuation τ sig (Elt F)) :
    after ops V (Proc.devRef .tc main_v53)
      = tail (V (Proc.devRef .tc main_arg0)) (head (V (Proc.devRef .tc main_arg0)) (V (Proc.devRef .tc main_arg1)) (V (Proc.devRef .tc main_arg2)) (V (Proc.devRef .tc main_arg3)) (V (Proc.devRef .tc main_arg4)))
          (V (Proc.devRef .tc main_arg5)) (V (Proc.devRef .tc main_arg6)) (V (Proc.devRef .tc main_arg7)) (V (Proc.devRef .tc main_arg8)) := by
  rw [ops_split, after_app, valB_v53, valA_v27, opsA_keep V main_arg0 (by decide), opsA_keep V main_arg5 (by decide),
    opsA_keep V main_arg6 (by decide), opsA_keep V main_arg7 (by decide), opsA_keep V main_arg8 (by decide)]

/-- The whole list writes no argument's buffer. -/
theorem arg_eq (V : Valuation τ sig (Elt F)) (r : Ref sig .tc) (hA : r ∉ opsA_W) (hB : r ∉ opsB_W) :
    after ops V (Proc.devRef .tc r) = V (Proc.devRef .tc r) := by
  rw [ops_split, after_app, opsB_keep _ r hB, opsA_keep V r hA]

/-- Over any nine argument contents, `tail` over `head` is the reference term: both are the same statements' pure
    functions in the same dependency order, so the two open to one term. -/
theorem tail_head_eq (a0 : C[S100000x128, .f32]) (a1 : C[S2x1000000, .i32]) (a2 : C[S1000000x2, .f32]) (a3 : C[S2x128, .f32])
    (a4 : C[S128x128, .f32]) (a5 : C[S256x128, .f32]) (a6 : C[S128, .f32]) (a7 : C[S128, .f32]) (a8 : C[S128, .f32]) :
    tail a0 (head a0 a1 a2 a3 a4) a5 a6 a7 a8 = RefTerm.out a0 a1 a2 a3 a4 a5 a6 a7 a8 := rfl

/-- The whole list leaves the result's buffer at the reference term of the arguments' contents. -/
theorem out_eq (V : Valuation τ sig (Elt F)) :
    after ops V (Proc.devRef .tc main_v53)
      = RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (out_eq' V).trans (tail_head_eq ..)

/-- On every device, for any float values, from any memory with zero counters: every weakly fair execution of @main
    terminates with the result at the reference term of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v53) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) :=
  (θ_run defs _ _).mono (fun _ h c => ⟨(h c main_v53).trans (out_eq (launchContents m c)),
      (h c main_arg0).trans (arg_eq _ main_arg0 (by decide) (by decide)),
      (h c main_arg1).trans (arg_eq _ main_arg1 (by decide) (by decide)),
      (h c main_arg2).trans (arg_eq _ main_arg2 (by decide) (by decide)),
      (h c main_arg3).trans (arg_eq _ main_arg3 (by decide) (by decide)),
      (h c main_arg4).trans (arg_eq _ main_arg4 (by decide) (by decide)),
      (h c main_arg5).trans (arg_eq _ main_arg5 (by decide) (by decide)),
      (h c main_arg6).trans (arg_eq _ main_arg6 (by decide) (by decide)),
      (h c main_arg7).trans (arg_eq _ main_arg7 (by decide) (by decide)),
      (h c main_arg8).trans (arg_eq _ main_arg8 (by decide) (by decide))⟩)
    (run_after m ρ)

/-- The reference runs and leaves its arguments unchanged. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2) (run (F := Ideal) m ρ)

end Cert.ReferenceIdeal.RefRun

end
-- ==== Proof.RefRead.lean ====
/-
  The reference's result term read at an index, at the ideal values: it is the specification's normalised update.

  Stage by stage, each over variables:
  * the edge embedding (two plain products with a positive part between them) is `Sage.pe`;
  * the product of the side-by-side pair `[x | agg]` with the 256-row weight plus the bias row is `Sage.lin`;
  * the sum down the rows from the zero word, divided by the word of `100000`, is the column mean `Sage.colMean`;
  * the variance function — the deviations from that mean squared, summed from the zero word, divided by
    `100000 − 0`, selected because `100000 − 0 > 0` — is `Sage.varCentred`;
  * the last stretch is, entry by entry, `Sage.bnOut`.
-/
import proofs.«105878_j7808250544365_2_alg».proof.Proof.RefTerm
import proofs.«105878_j7808250544365_2_alg».proof.Proof.Spec
import proofs.«105878_j7808250544365_2_alg».proof.Proof.LibDense
import proofs.«105878_j7808250544365_2_alg».proof.Proof.LibCatDot
import proofs.«105878_j7808250544365_2_alg».proof.Proof.LibLeast
import proofs.«105878_j7808250544365_2_alg».proof.Proof.LibRealOps
import proofs.«105878_j7808250544365_2_alg».proof.Proof.LibBnAffine
import Idealize.ShloMosaic.Lib.IdealHost
import Idealize.ShloMosaic.Lib.KernelVsHost

noncomputable section

open scoped BigOperators

namespace Cert.ReferenceIdeal.RefRead

open Idealize.ShloMosaic Idealize.ShloMosaic.ValueIdx Idealize.SL.Sem
open Cert.ReferenceIdeal

/-! ## General readings -/

section General

variable {M N : Nat}

/-- A vector of length `N` broadcast to a `1 × N` row reads, at `(0, q)`, the vector at `q`. -/
theorem rowOfVec_apply {α : Type} (B : (⟨1, ![N]⟩ : Shape).Idx → α)
    (h1 : (⟨1, ![N]⟩ : Shape).BroadcastsInDim ⟨2, ![1, N]⟩ ![1]) (q : Fin N) :
    broadcastInDim ⟨2, ![1, N]⟩ ![1] h1 B (ix2 (0 : Fin 1) q) = B (ix1 q) := by
  refine broadcastInDim_apply ![1] h1 B (ix2 (0 : Fin 1) q) (ix1 q) (fun a => ?_)
  match a with
  | ⟨0, _⟩ =>
    show q.val = if N = 1 then 0 else q.val
    split
    · have := q.isLt; omega
    · rfl

/-- A `1 × N` row broadcast down `M` rows reads, at `(p, q)`, the row at `(0, q)`. -/
theorem rowsOfRow_apply {α : Type} (Y : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 Y (ix2 p q) = Y (ix2 (0 : Fin 1) q) := by
  refine broadcastInDim_apply ![0, 1] h2 Y (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- A scalar word broadcast to any shape reads the extended real the word encodes. -/
theorem scalarWord_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  (broadcastInDim_scalar_apply h _ j).trans (constant_apply _ _)

/-- The host's sum down the rows from the zero word, at column `q`: zero plus the sum of the column's entries. -/
theorem hostColSum_apply (x : FVec Ideal ⟨2, ![M, N]⟩ .f32)
    (h' : (⟨2, ![M, N]⟩ : Shape).ReducesTo [0] ⟨1, ![N]⟩) (hu : 0 < (⟨0, ![]⟩ : Shape).numel) (q : Fin N) :
    Host.reduceAdd x (constant (F := Ideal) ⟨0, ![]⟩ .f32 0x00000000#32) h' hu (ix1 q) = 0 + ∑ k : Fin M, x (ix2 k q) := by
  have hR : (⟨2, ![M, N]⟩ : Shape).Reduces [0] ⟨1, ![N]⟩ := by
    obtain ⟨h1, h2⟩ := h'
    exact ⟨h1, Nat.one_pos, h2⟩
  rw [hostReduceAdd_apply, Ideal.hostReduceAdd_single h' hR, constant_apply, Ideal.ofBits_zero_f32]
  exact congrArg (0 + ·) (Finset.sum_congr rfl fun k _ => congrArg x (Cert.Lib.Least.lift_row hR q k))

end General

variable [Cert.ReferenceIdeal.Facts]
open Facts₀ Facts

/-! ## The stages -/

/-- Statements %4–%6 are the edge embedding. -/
theorem peT_eq (a2 : (⟨S1000000x2, .f32⟩ : BufTy).Contents (Elt Ideal)) (a3 : (⟨S2x128, .f32⟩ : BufTy).Contents (Elt Ideal))
    (a4 : (⟨S128x128, .f32⟩ : BufTy).Contents (Elt Ideal)) :
    RefTerm.peT (F := Ideal) a2 a3 a4 = Sage.pe a2 a3 a4 := by
  funext i
  obtain ⟨e, d, rfl⟩ : ∃ (e : Fin 1000000) (d : Fin 128), i = ix2 e d := ⟨i 0, i 1, eq_ix2 i⟩
  refine (congrFun (Cert.Lib.Dense.host_mm (M := 1000000) (K := 128) (N := 128) _ rfl _ a4) (ix2 e d)).trans ?_
  refine Finset.sum_congr rfl fun k _ => ?_
  refine congrArg (· * a4 (ix2 k d)) ?_
  refine (maximumf_apply _ _ _).trans ?_
  rw [Cert.Lib.Dense.hostZero_apply]
  exact congrArg (max · 0) (congrFun (Cert.Lib.Dense.host_mm (M := 1000000) (K := 2) (N := 128) _ rfl a2 a3) (ix2 e k))

/-- Statements %28–%32 are the update. -/
theorem linT_eq (x agg : (⟨S100000x128, .f32⟩ : BufTy).Contents (Elt Ideal)) (W : (⟨S256x128, .f32⟩ : BufTy).Contents (Elt Ideal))
    (b : (⟨S128, .f32⟩ : BufTy).Contents (Elt Ideal)) :
    RefTerm.linT (F := Ideal) x agg W b = Sage.lin x agg W b :=
  Cert.Lib.CatDot.host_concat_lin2 (M := 100000) (K := 128) (K' := 128) (N := 128) _ rfl x agg W b _ _ _

/-- Statements %33–%35 are the column means. -/
theorem meanT_apply (h : (⟨S100000x128, .f32⟩ : BufTy).Contents (Elt Ideal)) (c : Fin 128) :
    RefTerm.meanT (F := Ideal) h (ix1 c) = Sage.colMean h c := by
  refine (hostDivf_apply _ _ _).trans ?_
  rw [hostColSum_apply, scalarWord_apply]
  rfl

/-- The row count's word less the converted integer zero is the row count's word. -/
theorem rows_sub_zero :
    subf (constant (F := Ideal) S_ .f32 0x47C35000#32) (sitofp .f32 (constantI S_ 32 0#32)) ix0 = Sage.rowsW := by
  show Sage.rowsW - ((((0#32 : BitVec 32).toInt : ℤ) : ℝ) : EReal) = Sage.rowsW
  simp

/-- The row count is positive. -/
theorem rowsW_pos : (0 : EReal) < Sage.rowsW := by
  rw [Sage.rowsW_eq]
  exact_mod_cast (by norm_num : (0 : ℝ) < 100000)

/-- Statement %36, the variance function, is the mean of the squared deviations: its mean is the column mean, its
    divisor `100000 − 0` is the row count, and since that is positive the selection takes the quotient. -/
theorem varT_apply (h : (⟨S100000x128, .f32⟩ : BufTy).Contents (Elt Ideal)) (c : Fin 128) :
    RefTerm.varT (F := Ideal) h (constantI S_ 32 0#32) (ix1 c) = Sage.varCentred h c := by
  -- the mean as the variance function spells it: the column sum set as a row, divided by a row of the count,
  -- then set down the rows
  have hmean : ∀ p : Fin 100000,
      broadcastInDim S100000x128 ![0, 1] bcast_S1x128_S100000x128_0_1
        (Host.divf (broadcastInDim S1x128 ![1] bcast_S128_S1x128_1
            (Host.reduceAdd h (constant (F := Ideal) S_ .f32 0x00000000#32) reducesTo_S100000x128_S128_d0 h_S_))
          (broadcastInDim S1x128 ![] bcast_S_S1x128 (constant (F := Ideal) S_ .f32 0x47C35000#32))) (ix2 p c)
        = Cert.Lib.BnAffine.mean 0 Sage.rowsW h c := by
    intro p
    rw [rowsOfRow_apply]
    refine (hostDivf_apply _ _ _).trans ?_
    rw [rowOfVec_apply, hostColSum_apply, scalarWord_apply]
    rfl
  -- the comparison `100000 − 0 > 0` holds
  have hsel : broadcastInDim S128 ![] bcast_S_S128
      (cmpf .ogt (subf (constant (F := Ideal) S_ .f32 0x47C35000#32) (sitofp .f32 (constantI S_ 32 0#32)))
        (constant (F := Ideal) S_ .f32 0x00000000#32)) (ix1 c) = 1#1 := by
    rw [broadcastInDim_scalar_apply, cmpf_apply, rows_sub_zero, constant_apply, Ideal.ofBits_zero_f32]
    exact (ProofLib.RealOps.cmp_ogt_eq_one_iff _ _).mpr rowsW_pos
  refine (select_apply _ _ _ _).trans ?_
  refine (if_pos hsel).trans ?_
  refine (hostDivf_apply _ _ _).trans ?_
  show Ideal.div _ _ = Ideal.div (0 + ∑ k : Fin 100000, (h (ix2 k c) - Cert.Lib.BnAffine.mean 0 Sage.rowsW h c)
    * (h (ix2 k c) - Cert.Lib.BnAffine.mean 0 Sage.rowsW h c)) Sage.rowsW
  refine congrArg₂ Ideal.div ?_ ?_
  · refine (hostColSum_apply _ _ _ c).trans ?_
    refine congrArg (0 + ·) (Finset.sum_congr rfl fun k _ => ?_)
    refine (mulf_apply _ _ _).trans ?_
    refine congrArg₂ (· * ·) ?_ ?_ <;>
      exact (subf_apply _ _ _).trans (congrArg (h (ix2 k c) - ·) (hmean k))
  · exact (broadcastInDim_scalar_apply _ _ _).trans rows_sub_zero

/-- Statements %37–%53 at entry `(n, c)`: the normalisation by the given rows, the affine map, the positive part and
    the residual. -/
theorem bnT_apply (h x : (⟨S100000x128, .f32⟩ : BufTy).Contents (Elt Ideal))
    (μv vv g b : (⟨S128, .f32⟩ : BufTy).Contents (Elt Ideal)) (n : Fin 100000) (c : Fin 128) :
    RefTerm.bnT (F := Ideal) h x μv vv g b (ix2 n c)
      = max (((h (ix2 n c) - μv (ix1 c)) * Ideal.rsqrt (vv (ix1 c) + Sage.epsW)) * g (ix1 c) + b (ix1 c)) 0
        + x (ix2 n c) := by
  refine (addf_apply _ _ _).trans ?_
  refine congrArg (· + x (ix2 n c)) ?_
  refine (maximumf_apply _ _ _).trans ?_
  refine congrArg₂ max ?_ (Cert.Lib.Dense.hostZero_apply _ _ _)
  refine (addf_apply _ _ _).trans ?_
  refine congrArg₂ (· + ·) ?_ (Cert.Lib.Dense.hostRow_apply _ _ _ n c)
  refine (mulf_apply _ _ _).trans ?_
  refine congrArg₂ (· * ·) ?_ (Cert.Lib.Dense.hostRow_apply _ _ _ n c)
  refine (mulf_apply _ _ _).trans ?_
  refine congrArg₂ (· * ·) ?_ ?_
  · exact (subf_apply _ _ _).trans (congrArg (h (ix2 n c) - ·) (Cert.Lib.Dense.hostRow_apply _ _ _ n c))
  · refine (Cert.Lib.Dense.hostRow_apply _ _ _ n c).trans ?_
    show Ideal.rsqrt (vv (ix1 c)
      + broadcastInDim S128 ![] bcast_S_S128 (constant (F := Ideal) S_ .f32 0x3727C5AC#32) (ix1 c)) = _
    rw [scalarWord_apply]
    rfl

/-! ## The whole function -/

/-- THE REFERENCE'S RESULT is the specification's normalised update of `x` and the aggregation of the edge embedding. -/
theorem out_eq (a0 : (⟨S100000x128, .f32⟩ : BufTy).Contents (Elt Ideal)) (a1 : (⟨S2x1000000, .i32⟩ : BufTy).Contents (Elt Ideal))
    (a2 : (⟨S1000000x2, .f32⟩ : BufTy).Contents (Elt Ideal)) (a3 : (⟨S2x128, .f32⟩ : BufTy).Contents (Elt Ideal))
    (a4 : (⟨S128x128, .f32⟩ : BufTy).Contents (Elt Ideal)) (a5 : (⟨S256x128, .f32⟩ : BufTy).Contents (Elt Ideal))
    (a6 a7 a8 : (⟨S128, .f32⟩ : BufTy).Contents (Elt Ideal)) :
    RefTerm.out (F := Ideal) a0 a1 a2 a3 a4 a5 a6 a7 a8
      = Sage.bnOut (Sage.lin a0 (RefTerm.agg (F := Ideal) a0 a1 (Sage.pe a2 a3 a4)) a5 a6) a0
          (Sage.colMean (Sage.lin a0 (RefTerm.agg (F := Ideal) a0 a1 (Sage.pe a2 a3 a4)) a5 a6))
          (Sage.varCentred (Sage.lin a0 (RefTerm.agg (F := Ideal) a0 a1 (Sage.pe a2 a3 a4)) a5 a6)) a7 a8 := by
  funext i
  obtain ⟨n, c, rfl⟩ : ∃ (n : Fin 100000) (c : Fin 128), i = ix2 n c := ⟨i 0, i 1, eq_ix2 i⟩
  have h32 : RefTerm.linT (F := Ideal) a0 (RefTerm.agg (F := Ideal) a0 a1 (RefTerm.peT (F := Ideal) a2 a3 a4)) a5 a6
      = Sage.lin a0 (RefTerm.agg (F := Ideal) a0 a1 (Sage.pe a2 a3 a4)) a5 a6 := by
    rw [peT_eq, linT_eq]
  show RefTerm.bnT (F := Ideal)
      (RefTerm.linT (F := Ideal) a0 (RefTerm.agg (F := Ideal) a0 a1 (RefTerm.peT (F := Ideal) a2 a3 a4)) a5 a6) a0
      (RefTerm.meanT (F := Ideal) _) (RefTerm.varT (F := Ideal) _ (constantI S_ 32 0#32)) a7 a8 (ix2 n c) = _
  rw [h32, bnT_apply, meanT_apply, varT_apply]
  rfl

end Cert.ReferenceIdeal.RefRead

end
-- ==== Proof.lean ====
/-
  One graph layer with mean aggregation, a linear update, training-mode batch normalisation, a positive part and a
  residual: the kernel program and the reference compute the same array wherever every input is a real.

  WHAT THE REFERENCE COMPUTES. From node features `x` (100000 × 128), an edge index (2 × 1000000) and edge weights
  `ew` (1000000 × 2): the edge embedding `pe = max (ew · w1) 0 · w2`; the aggregation — gather the source rows of
  `x`, form `pe * x_j + x_j`, scatter-add over the destinations, divide by the degree count clamped below at one;
  the update `h = [x | agg] · W + b`, one product over the 256 side-by-side columns; each column's mean and the mean of
  its squared deviations; and `max (((h − μ) · rsqrt (v + ε)) · γ + β) 0 + x`.

  WHAT THE KERNEL PROGRAM COMPUTES. Three kernels with host statements between. The first computes `pe` block by
  block of edges. The host statements then perform the SAME aggregation, operation for operation. The second kernel
  computes the update as `x · W[0:128] + agg · W[128:256] + b` block by block of 5000 rows and, beside it, running
  column sums of `h` and of `h²`, one pair of totals for each half of the rows (ten blocks each); the host adds the two
  halves, divides by the number of rows, and forms `max (Q/n − mean²) 0`. The third kernel normalises block by block.

  THE LAWS THAT JOIN THEM.
  * The aggregation is carried as one function of `(x, edge index, pe)`: the two programs apply the same chain of
    operations, so the two terms are equal by unfolding; only that it maps reals to reals is used.
  * The 256-term product splits at the seam: a finite sum over `128 + 128` terms is the sum of its two halves, which
    needs only that addition is associative and commutative and so holds at infinite entries too.
  * The column sums taken block by block in two halves: the 100000 rows are 2 halves of 10 blocks of 5000 rows, and
    a running total that starts at zero and grows by one block's sum per step ends at the sum over its blocks.
  * On a column of REAL entries the mean of squares less the squared mean, clamped at zero, is the mean of the
    squared deviations. Real-ness is read out of the precondition (every input entry has absolute value below the
    top of the extended reals) and carried through the embedding, the aggregation and the update.
-/
import proofs.«105878_j7808250544365_2_alg».proof.Defs
import proofs.«105878_j7808250544365_2_alg».proof.Proof.Gen.Kernel
import proofs.«105878_j7808250544365_2_alg».proof.Proof.Gen.Kernel.Skeleton
import proofs.«105878_j7808250544365_2_alg».proof.Proof.Gen.Kernel.Launch
import proofs.«105878_j7808250544365_2_alg».proof.Proof.Gen.Kernel.Regions
import proofs.«105878_j7808250544365_2_alg».proof.Proof.Gen.Kernel.Points
import proofs.«105878_j7808250544365_2_alg».proof.Proof.Gen.KernelIdeal
import proofs.«105878_j7808250544365_2_alg».proof.Proof.Gen.KernelIdeal.Skeleton
import proofs.«105878_j7808250544365_2_alg».proof.Proof.Gen.KernelIdeal.Launch
import proofs.«105878_j7808250544365_2_alg».proof.Proof.Gen.KernelIdeal.Regions
import proofs.«105878_j7808250544365_2_alg».proof.Proof.Gen.KernelIdeal.Points
import proofs.«105878_j7808250544365_2_alg».proof.Proof.Gen.ReferenceIdeal
import proofs.«105878_j7808250544365_2_alg».proof.Proof.Gen.Pre_finite_inputs
import proofs.«105878_j7808250544365_2_alg».proof.Proof.Spec
import proofs.«105878_j7808250544365_2_alg».proof.Proof.Reals
import proofs.«105878_j7808250544365_2_alg».proof.Proof.PreReals
import proofs.«105878_j7808250544365_2_alg».proof.Proof.KTerm
import proofs.«105878_j7808250544365_2_alg».proof.Proof.RefTerm
import proofs.«105878_j7808250544365_2_alg».proof.Proof.KTermRef
import proofs.«105878_j7808250544365_2_alg».proof.Proof.KOut
import proofs.«105878_j7808250544365_2_alg».proof.Proof.BKOut
import proofs.«105878_j7808250544365_2_alg».proof.Proof.RefRun
import proofs.«105878_j7808250544365_2_alg».proof.Proof.RefRead
import Idealize.ShloMosaic.Adequacy
import Idealize.ShloMosaic.Init

noncomputable section

namespace Cert.Proof

open Idealize.ShloMosaic Idealize.SL.Sem

/-- The word-level kernel program runs and leaves its arguments unchanged. -/
theorem frame_K : Cert.frame_Kernel := fun m ρ _ => Cert.Kernel.KOut.frame (F := Bits) m ρ

/-- The kernel program at the ideal instance runs and leaves its arguments unchanged. -/
theorem frame_KI : Cert.frame_KernelIdeal := fun m ρ _ => Cert.KernelIdeal.KOut.frame (F := Ideal) m ρ

/-- The reference at the ideal instance runs and leaves its arguments unchanged. -/
theorem frame_ri : Cert.frame_ReferenceIdeal := Cert.ReferenceIdeal.RefRun.frame_ri

/-- At the ideal instance, from memories that agree on the nine arguments and whose float arguments are finite,
    both programs run and end with the same result array: each result is the normalised output `bnOut` of the same
    update `h`, the kernel program's by the statistics law on real entries, the reference's by unfolding, and the two
    aggregations inside `h` are one function. -/
theorem algebraic : Cert.algebraic_KernelIdeal_ReferenceIdeal := by
  intro m ρ m' ρ' hpre hagree
  refine ⟨Cert.KernelIdeal.KOut.kOut m ρ, Cert.KernelIdeal.KOut.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  obtain ⟨h0, h2, h3, h4, h5, h6, _, _⟩ := Sage.PreReals.reals_of_pre _ _ _ _ _ _ _ _ _ (hpre c)
  rw [e0, e1, e2, e3, e4, e5, e6, e7, e8, Cert.ReferenceIdeal.RefRead.out_eq,
    Cert.KernelIdeal.KOut.kOut_eq m ρ c h0 h2 h3 h4 h5 h6]
  unfold Cert.KernelIdeal.KOut.hK
  rw [Cert.KernelIdeal.KTermRef.aggK_eq_ref]

theorem claim : Cert.Claim :=
  ⟨Cert.Kernel.Gen.facts, Cert.KernelIdeal.Gen.facts, Cert.ReferenceIdeal.Gen.facts, Cert.Pre_finite_inputs.Gen.facts,
    frame_K, frame_KI, frame_ri, trivial, algebraic⟩

end Cert.Proof

end
